-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S512x1 : Shape := ⟨2, ![512, 1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S512x1 : S_.BroadcastsInDim S512x1 (![] : Fin 0 → Fin S512x1.rank)
  reducesTo_S512x1_S_d0_1 : S512x1.ReducesTo [0, 1] S_

variable [Facts]

def fn {F : FTy → Type} [FloatOps F] (main_arg0 : FVec F S8192x256 .f32) (main_arg1 : IVec S8192x8192 32) (main_arg2 : FVec F S256x256 .f32) (main_arg3 : FVec F S512x1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S512x1 .f32 := Host.absf main_arg3
  let main_cst_2 : FVec F S_ .f32 := constant S_ .f32 0x7F800000#32
  let main_v10 : FVec F S512x1 .f32 := broadcastInDim S512x1 ![] bcast_S_S512x1 main_cst_2
  let main_v11 : IVec S512x1 1 := cmpf .olt main_v9 main_v10
  let main_c_3 : IVec S_ 1 := constantI S_ 1 1#1
  let main_v12 : IVec S_ 1 := (fun x v => Host.reduce IntOp.andi x v reducesTo_S512x1_S_d0_1 h_S_) main_v11 main_c_3
  let main_v13 : IVec S_ 1 := andi main_v8 main_v12
  main_v13
-- ==== Kernel.lean ====
abbrev S8192x256 : Shape := ⟨2, ![8192, 256]⟩
abbrev S8192x8192 : Shape := ⟨2, ![8192, 8192]⟩
abbrev S256x256 : Shape := ⟨2, ![256, 256]⟩
abbrev S512x1 : Shape := ⟨2, ![512, 1]⟩
abbrev S8192x1 : Shape := ⟨2, ![8192, 1]⟩
abbrev S1024x256 : Shape := ⟨2, ![1024, 256]⟩
abbrev S1024x1 : Shape := ⟨2, ![1024, 1]⟩
abbrev S256x1 : Shape := ⟨2, ![256, 1]⟩
abbrev S1x8192 : Shape := ⟨2, ![1, 8192]⟩
abbrev S1024x2048 : Shape := ⟨2, ![1024, 2048]⟩
abbrev S1x2048 : Shape := ⟨2, ![1, 2048]⟩
abbrev S2048x256 : Shape := ⟨2, ![2048, 256]⟩
abbrev S1024 : Shape := ⟨1, ![1024]⟩

abbrev nBuf : Space → Nat
  | .hbm => 9
  | .vmem => 23
  | .smem => 0
  | _ => 0

abbrev bufTy : (tb : Table) → Fin (tcTables nBuf tb) → BufTy
  | .hbm, ⟨0, _⟩ => ⟨S8192x256, .f32⟩
  | .hbm, ⟨1, _⟩ => ⟨S8192x8192, .i32⟩
  | .hbm, ⟨2, _⟩ => ⟨S256x256, .f32⟩
  | .hbm, ⟨3, _⟩ => ⟨S512x1, .f32⟩
  | .hbm, ⟨4, _⟩ => ⟨S8192x256, .f32⟩
  | .hbm, ⟨5, _⟩ => ⟨S8192x1, .f32⟩
  | .hbm, ⟨6, _⟩ => ⟨S8192x1, .f32⟩
  | .hbm, ⟨7, _⟩ => ⟨S1x8192, .f32⟩
  | .hbm, ⟨8, _⟩ => ⟨S8192x256, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S512x1, .f32⟩
  | .local _ .vmem, ⟨4, _⟩ => ⟨S1024x256, .f32⟩
  | .local _ .vmem, ⟨5, _⟩ => ⟨S1024x256, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x2048, .i32⟩
  | .local _ .vmem, ⟨11, _⟩ => ⟨S1024x2048, .i32⟩
  | .local _ .vmem, ⟨12, _⟩ => ⟨S1024x1, .f32⟩
  | .local _ .vmem, ⟨13, _⟩ => ⟨S1024x1, .f32⟩
  | .local _ .vmem, ⟨14, _⟩ => ⟨S1x2048, .f32⟩
  | .local _ .vmem, ⟨15, _⟩ => ⟨S1x2048, .f32⟩
  | .local _ .vmem, ⟨16, _⟩ => ⟨S2048x256, .f32⟩
  | .local _ .vmem, ⟨17, _⟩ => ⟨S2048x256, .f32⟩
  | .local _ .vmem, ⟨18, _⟩ => ⟨S1024x256, .f32⟩
  | .local _ .vmem, ⟨19, _⟩ => ⟨S1024x256, .f32⟩
  | .local _ .vmem, ⟨20, _⟩ => ⟨S1024x1, .f32⟩
  | .local _ .vmem, ⟨21, _⟩ => ⟨S1024x1, .f32⟩
  | .local _ .vmem, ⟨22, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v53 : BitVec 1 := Scalar.cmpi .eq arg1 c3_i32
  let v54 : BitVec 32 := Scalar.extui v53
  let c0_i32_28 : BitVec 32 := 0#32
  let v55 : BitVec 1 := Scalar.cmpi .ne v54 c0_i32_28
  v55

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S1024x256_S1024x256_0_0 : ∀ a, (![0, 0] : Fin 2 → Nat) a + S1024x256.size a ≤ S1024x256.size a
  h_S1024x256 : 0 < S1024x256.numel
  inb_S256x256_S256x256_0_0 : ∀ a, (![0, 0] : Fin 2 → Nat) a + S256x256.size a ≤ S256x256.size a
  h_S256x256 : 0 < S256x256.numel
  inb_S512x1_S512x1_0_0 : ∀ a, (![0, 0] : Fin 2 → Nat) a + S512x1.size a ≤ S512x1.size a
  h_S512x1 : 0 < S512x1.numel
  slices_S512x1_o0_0_S256x1 : S512x1.Slices ![0, 0] S256x1
  slices_S512x1_o256_0_S256x1 : S512x1.Slices ![256, 0] S256x1
  inb_S1024x1_S1024x1_0_0 : ∀ a, (![0, 0] : Fin 2 → Nat) a + S1024x1.size a ≤ S1024x1.size a
  h_S1024x1 : 0 < S1024x1.numel
  transposes_S8192x1_S1x8192_1_0 : S8192x1.Transposes [1, 0] S1x8192
  shapeCasts_S1024x1_S1024x1 : S1024x1.ShapeCasts S1024x1
  shapeCasts_S1024x256_S1024x256 : S1024x256.ShapeCasts S1024x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  reduces_S1024x2048_S1024 : S1024x2048.Reduces [1] S1024
  shapeCasts_S1024_S1024x1 : S1024.ShapeCasts S1024x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  broadcasts_S1024x1_S1024x256 : S1024x1.Broadcasts S1024x256
  bitsLt_bf16_f32 : FTy.bits .bf16 < FTy.bits .f32
  dot_S1024x256_S256x256_S1024x256_1_0_0_1_n_n_wf : DotDims.WF S1024x256 S256x256 S1024x256 [1] [0] [0] [1] [] []
  dot_S1024x256_S256x1_S1024x1_1_0_0_1_n_n_wf : DotDims.WF S1024x256 S256x1 S1024x1 [1] [0] [0] [1] [] []
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .f32 = 32 ∨ (Rect.block (s := S8192x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .i32 = 32 ∨ (Rect.block (s := S8192x8192) S1024x2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x8192.size a
  hwx1_2 : ∀ i : grid1.Coords, EltTy.bits .f32 = 32 ∨ (Rect.block (s := S1x8192) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S8192x256.size a
  hwx1_3 : ∀ i : grid1.Coords, EltTy.bits .f32 = 32 ∨ (Rect.block (s := S8192x256) S2048x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S8192x256.size a
  hwx1_4 : ∀ i : grid1.Coords, EltTy.bits .f32 = 32 ∨ (Rect.block (s := S8192x256) S1024x256.size (cc1_transform_4 i) (hinb1_4 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S2048x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S512x1 : Shape := ⟨2, ![512, 1]⟩
abbrev S256x1 : Shape := ⟨2, ![256, 1]⟩
abbrev S8192x1 : Shape := ⟨2, ![8192, 1]⟩
abbrev S1x8192 : Shape := ⟨2, ![1, 8192]⟩
abbrev S_ : Shape := ⟨0, ![]⟩
abbrev S8192 : Shape := ⟨1, ![8192]⟩

abbrev nBuf : Space → Nat
  | .hbm => 57
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .i32⟩
  | .hbm, ⟨2, _⟩ => ⟨S256x256, .f32⟩
  | .hbm, ⟨3, _⟩ => ⟨S512x1, .f32⟩
  | .hbm, ⟨4, _⟩ => ⟨S8192x256, .f32⟩
  | .hbm, ⟨5, _⟩ => ⟨S256x1, .f32⟩
  | .hbm, ⟨6, _⟩ => ⟨S8192x1, .f32⟩
  | .hbm, ⟨7, _⟩ => ⟨S256x1, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .i1⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .i32⟩
  | .hbm, ⟨21, _⟩ => ⟨S8192x8192, .i32⟩
  | .hbm, ⟨22, _⟩ => ⟨S8192x8192, .i1⟩
  | .hbm, ⟨23, _⟩ => ⟨S_, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192x1, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x8192, .f32⟩
  | .hbm, ⟨40, _⟩ => ⟨S8192x8192, .f32⟩
  | .hbm, ⟨41, _⟩ => ⟨S8192x256, .f32⟩
  | .hbm, ⟨42, _⟩ => ⟨S_, .f32⟩
  | .hbm, ⟨43, _⟩ => ⟨S8192x256, .f32⟩
  | .hbm, ⟨44, _⟩ => ⟨S8192x256, .i1⟩
  | .hbm, ⟨45, _⟩ => ⟨S_, .f32⟩
  | .hbm, ⟨46, _⟩ => ⟨S8192x256, .f32⟩
  | .hbm, ⟨47, _⟩ => ⟨S8192x256, .i1⟩
  | .hbm, ⟨48, _⟩ => ⟨S_, .f32⟩
  | .hbm, ⟨49, _⟩ => ⟨S_, .f32⟩
  | .hbm, ⟨50, _⟩ => ⟨S8192x256, .f32⟩
  | .hbm, ⟨51, _⟩ => ⟨S8192x256, .f32⟩
  | .hbm, ⟨52, _⟩ => ⟨S8192x256, .f32⟩
  | .hbm, ⟨53, _⟩ => ⟨S_, .f32⟩
  | .hbm, ⟨54, _⟩ => ⟨S8192x256, .f32⟩
  | .hbm, ⟨55, _⟩ => ⟨S8192x256, .f32⟩
  | .hbm, ⟨56, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_call1_v0 : Ref sig .tc := ⟨.hbm, 24, rfl⟩
abbrev main_call1_v1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call2_cst : Ref sig .tc := ⟨.hbm, 42, rfl⟩
abbrev main_call2_v0 : Ref sig .tc := ⟨.hbm, 43, rfl⟩
abbrev main_call2_v1 : Ref sig .tc := ⟨.hbm, 44, rfl⟩
abbrev main_call2_cst_0 : Ref sig .tc := ⟨.hbm, 45, rfl⟩
abbrev main_call2_v2 : Ref sig .tc := ⟨.hbm, 46, rfl⟩
abbrev main_call2_v3 : Ref sig .tc := ⟨.hbm, 47, rfl⟩
abbrev main_call2_cst_1 : Ref sig .tc := ⟨.hbm, 48, rfl⟩
abbrev main_call2_call0_v0 : Ref sig .tc := ⟨.hbm, 49, rfl⟩
abbrev main_call2_call0_v1 : Ref sig .tc := ⟨.hbm, 50, rfl⟩
abbrev main_call2_v4 : Ref sig .tc := ⟨.hbm, 51, rfl⟩
abbrev main_call2_v5 : Ref sig .tc := ⟨.hbm, 52, rfl⟩
abbrev main_call2_cst_2 : Ref sig .tc := ⟨.hbm, 53, rfl⟩
abbrev main_call2_v6 : Ref sig .tc := ⟨.hbm, 54, rfl⟩
abbrev main_call2_v7 : Ref sig .tc := ⟨.hbm, 55, rfl⟩
abbrev main_v29 : Ref sig .tc := ⟨.hbm, 56, rfl⟩

abbrev nD : Nat := 1
abbrev τ : Topo := Topo.v7x

variable {F : FTy → Type} [FloatOps F]

class Facts₀ : Prop where
  slices_S512x1_S256x1_0_0 : S512x1.Slices ![0, 0] S256x1
  slices_S512x1_S256x1_256_0 : S512x1.Slices ![256, 0] S256x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x256 : S_.BroadcastsInDim S8192x256 (![] : Fin 0 → Fin S8192x256.rank)
  dot_S8192x256_S256x256_S8192x256_1_0_0_1_n_n_wf : DotDims.WF S8192x256 S256x256 S8192x256 [1] [0] [0] [1] [] []
  dot_S8192x256_S256x1_S8192x1_1_0_0_1_n_n_wf : DotDims.WF S8192x256 S256x1 S8192x1 [1] [0] [0] [1] [] []
  dot_S8192x8192_S8192x256_S8192x256_1_0_0_1_n_n_wf : DotDims.WF S8192x8192 S8192x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.KProj.lean ====
import proofs.«149947_j1211180778248_2_alg».proof.Proof.Gen.Kernel.Launch
import proofs.«149947_j1211180778248_2_alg».proof.Proof.Gen.Kernel.Skeleton
import proofs.«149947_j1211180778248_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: a PARAMETER
variable (V : (c : Dev nD) → (b : Ref sig .tc) → Buf (Elt F) ((c : Thread nD τ).loc b))

/-! # The projection kernel (region 0), at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body finds in an input window's buffer

An input's staging buffer holds the window's block at every point, whether or not the block was fetched there: a
block that is not fetched is one whose index has not moved (the weight matrix and the attention vector, whose index
map is constant, are fetched at the first point only), and the body leaves every input block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole, through the unit rectangle at offset zero -/

abbrev rH : Rect S1024x256 := Rect.unit (s := S1024x256) ![0, 0] S1024x256.size inb_S1024x256_S1024x256_0_0
abbrev rW : Rect S256x256 := Rect.unit (s := S256x256) ![0, 0] S256x256.size inb_S256x256_S256x256_0_0
abbrev rA : Rect S512x1 := Rect.unit (s := S512x1) ![0, 0] S512x1.size inb_S512x1_S512x1_0_0
abbrev rC : Rect S1024x1 := Rect.unit (s := S1024x1) ![0, 0] S1024x1.size inb_S1024x1_S1024x1_0_0

/-! ## What the body leaves in each output window's buffer -/

/-- The projected block `h · W`: the one store into window 3, over the loaded `h`-block and `W`. -/
def out0_3 (x0 : Vec F S1024x256 .f32) (x1 : Vec F S256x256 .f32) : Vec F S1024x256 .f32 :=
  View.canon [⟨rH, k0_pay1 (View.ld x0 rH) (View.ld x1 rW)⟩]

/-- `(h · W) · a[0:256]`: the one store into window 4. -/
def out0_4 (x0 : Vec F S1024x256 .f32) (x1 : Vec F S256x256 .f32) (x2 : Vec F S512x1 .f32) : Vec F S1024x1 .f32 :=
  View.canon [⟨rC, k0_pay2 (View.ld x0 rH) (View.ld x1 rW) (View.ld x2 rA)⟩]

/-- `(h · W) · a[256:512]`: the one store into window 5. -/
def out0_5 (x0 : Vec F S1024x256 .f32) (x1 : Vec F S256x256 .f32) (x2 : Vec F S512x1 .f32) : Vec F S1024x1 .f32 :=
  View.canon [⟨rC, k0_pay3 (View.ld x0 rH) (View.ld x1 rW) (View.ld x2 rA)⟩]

/-- The offsets of every access are zero. -/
theorem hz2 : (![0, 0] : Fin 2 → Nat) = fun _ => 0 := funext fun a => by fin_cases a <;> rfl

/-- Each output reads back as its payload: one store of the whole buffer, over loads of whole buffers. -/
theorem out0_3_eq (x0 : Vec F S1024x256 .f32) (x1 : Vec F S256x256 .f32) : out0_3 x0 x1 = k0_pay1 x0 x1 := by
  unfold out0_3
  rw [View.canon_unit_zero hz2]
  simp only [View.ld_unit_zero (S := S1024x256) hz2, View.ld_unit_zero (S := S256x256) hz2]
theorem out0_4_eq (x0 : Vec F S1024x256 .f32) (x1 : Vec F S256x256 .f32) (x2 : Vec F S512x1 .f32) : out0_4 x0 x1 x2 = k0_pay2 x0 x1 x2 := by
  unfold out0_4
  rw [View.canon_unit_zero hz2]
  simp only [View.ld_unit_zero (S := S1024x256) hz2, View.ld_unit_zero (S := S256x256) hz2, View.ld_unit_zero (S := S512x1) hz2]
theorem out0_5_eq (x0 : Vec F S1024x256 .f32) (x1 : Vec F S256x256 .f32) (x2 : Vec F S512x1 .f32) : out0_5 x0 x1 x2 = k0_pay3 x0 x1 x2 := by
  unfold out0_5
  rw [View.canon_unit_zero hz2]
  simp only [View.ld_unit_zero (S := S1024x256) hz2, View.ld_unit_zero (S := S256x256) hz2, View.ld_unit_zero (S := S512x1) hz2]

/-- The one store of each output covers its buffer: the rectangle is the whole shape. -/
theorem cover0_3 (p0 : Vec F S1024x256 .f32) (y : S1024x256.Idx) :
    ∃ pc ∈ ([⟨rH, p0⟩] : List (View.Piece (Elt F) S1024x256 .f32)), y ∈ pc.1.set :=
  ⟨_, List.mem_singleton_self _, View.mem_set_unit_zero (S := S1024x256) hz2 inb_S1024x256_S1024x256_0_0 y⟩
theorem cover0_4 (p0 : Vec F S1024x1 .f32) (y : S1024x1.Idx) :
    ∃ pc ∈ ([⟨rC, p0⟩] : List (View.Piece (Elt F) S1024x1 .f32)), y ∈ pc.1.set :=
  ⟨_, List.mem_singleton_self _, View.mem_set_unit_zero (S := S1024x1) hz2 inb_S1024x1_S1024x1_0_0 y⟩

/-! ## The body's triple -/

set_option maxHeartbeats 1000000 in
/-- The kernel body on whole staging memrefs — the inputs' at read contents `x0`, `x1`, `x2`, the outputs' at
    anything — runs to the continuation holding the inputs' as they were and each output's at `out0_W` of the
    inputs'. The body also loads each output buffer before storing it whole; what it reads there is used nowhere. -/
theorem sound_kernel0 (c : Dev nD) (E : Set ℕ) (i : grid0.Coords)
    (arg1 : Memref sig .tc .vmem S1024x256 .f32) (harg1 : arg1.IsWhole) (arg2 : Memref sig .tc .vmem S256x256 .f32) (harg2 : arg2.IsWhole)
    (arg3 : Memref sig .tc .vmem S512x1 .f32) (harg3 : arg3.IsWhole) (arg4 : Memref sig .tc .vmem S1024x256 .f32) (harg4 : arg4.IsWhole)
    (arg5 : Memref sig .tc .vmem S1024x1 .f32) (harg5 : arg5.IsWhole) (arg6 : Memref sig .tc .vmem S1024x1 .f32) (harg6 : arg6.IsWhole)
    (x0 : Vec F S1024x256 .f32) (x1 : Vec F S256x256 .f32) (x2 : Vec F S512x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E
          (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_4 _)

/-! ## The pipeline's proof data -/

/-- The proof data of the projection pipeline on core `c`: the arrays as the region finds them; after the body at
    point `t` each input's buffer at its block and each output's at `out0_W` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KGat.lean ====
import proofs.«149947_j1211180778248_2_alg».proof.Proof.Gen.Kernel.Launch
import proofs.«149947_j1211180778248_2_alg».proof.Proof.Gen.Kernel.Skeleton
import proofs.«149947_j1211180778248_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: a PARAMETER
variable (V : (c : Dev nD) → (b : Ref sig .tc) → Buf (Elt F) ((c : Thread nD τ).loc b))

/-! ## Whole-buffer accesses: a load reads the contents, a store leaves its payload -/

section Whole

variable {sig' : RefSig} {κ' : Kind} {sp' : Space} {s : Shape} {e : EltTy} {Val : EltTy → Type}

/-- A unit-stride rectangle of the shape's own sizes places every index at itself. -/
theorem idx_whole (off : Fin s.rank → ℕ) (inb : ∀ a, off a + s.size a ≤ s.size a)
    (j : (Rect.unit (s := s) off s.size inb).shape.Idx) :
    (Rect.unit (s := s) off s.size inb).toLoadRect.idx j = j := by
  funext a
  apply Fin.ext
  have h := inb a
  rw [LoadRect.idx_apply]
  show off a + 1 * (j a).val = (j a).val
  omega

/-- A load through it of a buffer reading `X` reads `X`. -/
theorem readAt_whole (v : View sig' κ' sp' s e) (f : v.ty.Contents Val) (off : Fin s.rank → ℕ) (inb : ∀ a, off a + s.size a ≤ s.size a) :
    v.readAt Val (Rect.unit (s := s) off s.size inb).toLoadRect f = v.read Val f := by
  funext j
  rw [View.readAt_apply, idx_whole]

/-- After a store through it the buffer reads as that store's payload, whatever it held and whatever was stored before. -/
theorem read_writes_whole (v : View sig' κ' sp' s e) (f : v.ty.Contents Val) (off : Fin s.rank → ℕ) (inb : ∀ a, off a + s.size a ≤ s.size a)
    (p : (Rect.unit (s := s) off s.size inb).shape.Idx → Val e) (L : List (View.Piece Val s e)) :
    v.read Val (v.writes Val f (⟨Rect.unit (s := s) off s.size inb, p⟩ :: L)) = p := by
  funext j
  have h := View.read_writes_cons_emb v f (Rect.unit (s := s) off s.size inb) p L j
  rw [show (Rect.unit (s := s) off s.size inb).emb j = j from idx_whole off inb j] at h
  exact h

end Whole

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running maximum after one key block. -/
def upd_m (x1 : Vec F S1024x1 .f32) (x2 : Vec F S1x2048 .f32) (x0 : Vec F S1024x2048 .i32) (m : Vec F S1024x1 .f32) : Vec F S1024x1 .f32 :=
  k1_pay3 (k1_pay9 x1 x2 x0 m)

/-- The running sum after one key block. -/
def upd_l (x1 : Vec F S1024x1 .f32) (x2 : Vec F S1x2048 .f32) (x0 : Vec F S1024x2048 .i32) (m l : Vec F S1024x1 .f32) : Vec F S1024x1 .f32 :=
  k1_pay1 (k1_pay12 x1 x2 x0 m m l)

/-- The accumulator after one key block. -/
def upd_acc (x1 : Vec F S1024x1 .f32) (x2 : Vec F S1x2048 .f32) (x0 : Vec F S1024x2048 .i32) (x3 : Vec F S2048x256 .f32) (m : Vec F S1024x1 .f32) (acc : Vec F S1024x256 .f32) : Vec F S1024x256 .f32 :=
  k1_pay2 (k1_pay10 x1 x2 x0 m m) (k1_pay11 x1 x2 x0 m) x3 acc

/-- The output block from the final accumulator and sum. -/
def fin_out (acc : Vec F S1024x256 .f32) (l : Vec F S1024x1 .f32) : Vec F S1024x256 .f32 :=
  k1_pay4 acc l

theorem upd_m_eq (x1 : Vec F S1024x1 .f32) (x2 : Vec F S1x2048 .f32) (x0 : Vec F S1024x2048 .i32) (m : Vec F S1024x1 .f32) :
    upd_m x1 x2 x0 m = k1_pay3 (k1_pay9 x1 x2 x0 m) := rfl
theorem upd_l_eq (x1 : Vec F S1024x1 .f32) (x2 : Vec F S1x2048 .f32) (x0 : Vec F S1024x2048 .i32) (m l : Vec F S1024x1 .f32) :
    upd_l x1 x2 x0 m l = k1_pay1 (k1_pay12 x1 x2 x0 m m l) := rfl
theorem upd_acc_eq (x1 : Vec F S1024x1 .f32) (x2 : Vec F S1x2048 .f32) (x0 : Vec F S1024x2048 .i32) (x3 : Vec F S2048x256 .f32) (m : Vec F S1024x1 .f32) (acc : Vec F S1024x256 .f32) :
    upd_acc x1 x2 x0 x3 m acc = k1_pay2 (k1_pay10 x1 x2 x0 m m) (k1_pay11 x1 x2 x0 m) x3 acc := rfl
theorem fin_out_eq (acc : Vec F S1024x256 .f32) (l : Vec F S1024x1 .f32) : fin_out acc l = k1_pay4 acc l := rfl

/-- The carried state (m, l, acc) after the body at position `n`. -/
def stateAt1 (c : Dev nD) : (n : ℕ) → n < cfg1.N → Vec F S1024x1 .f32 × Vec F S1024x1 .f32 × Vec F S1024x256 .f32
  | 0, hn =>
      (upd_m (iblk1 V c 1 ⟨0, hn⟩) (iblk1 V c 2 ⟨0, hn⟩) (iblk1 V c 0 ⟨0, hn⟩) k1_pay5,
       upd_l (iblk1 V c 1 ⟨0, hn⟩) (iblk1 V c 2 ⟨0, hn⟩) (iblk1 V c 0 ⟨0, hn⟩) k1_pay5 k1_pay6,
       upd_acc (iblk1 V c 1 ⟨0, hn⟩) (iblk1 V c 2 ⟨0, hn⟩) (iblk1 V c 0 ⟨0, hn⟩) (iblk1 V c 3 ⟨0, hn⟩) k1_pay5 k1_pay7)
  | n + 1, hn =>
      if h0 : (n + 1) % 4 = 0 then
        (upd_m (iblk1 V c 1 ⟨n + 1, hn⟩) (iblk1 V c 2 ⟨n + 1, hn⟩) (iblk1 V c 0 ⟨n + 1, hn⟩) k1_pay5,
         upd_l (iblk1 V c 1 ⟨n + 1, hn⟩) (iblk1 V c 2 ⟨n + 1, hn⟩) (iblk1 V c 0 ⟨n + 1, hn⟩) k1_pay5 k1_pay6,
         upd_acc (iblk1 V c 1 ⟨n + 1, hn⟩) (iblk1 V c 2 ⟨n + 1, hn⟩) (iblk1 V c 0 ⟨n + 1, hn⟩) (iblk1 V c 3 ⟨n + 1, hn⟩) k1_pay5 k1_pay7)
      else
        (upd_m (iblk1 V c 1 ⟨n + 1, hn⟩) (iblk1 V c 2 ⟨n + 1, hn⟩) (iblk1 V c 0 ⟨n + 1, hn⟩) (stateAt1 c n (Nat.lt_of_succ_lt hn)).1,
         upd_l (iblk1 V c 1 ⟨n + 1, hn⟩) (iblk1 V c 2 ⟨n + 1, hn⟩) (iblk1 V c 0 ⟨n + 1, hn⟩) (stateAt1 c n (Nat.lt_of_succ_lt hn)).1 (stateAt1 c n (Nat.lt_of_succ_lt hn)).2.1,
         upd_acc (iblk1 V c 1 ⟨n + 1, hn⟩) (iblk1 V c 2 ⟨n + 1, hn⟩) (iblk1 V c 0 ⟨n + 1, hn⟩) (iblk1 V c 3 ⟨n + 1, hn⟩) (stateAt1 c n (Nat.lt_of_succ_lt hn)).1 (stateAt1 c n (Nat.lt_of_succ_lt hn)).2.2)

theorem stateAt1_reset (c : Dev nD) (t : Fin cfg1.N) (h : t.val % 4 = 0) :
    stateAt1 V c t.val t.isLt =
      (upd_m (iblk1 V c 1 t) (iblk1 V c 2 t) (iblk1 V c 0 t) k1_pay5,
       upd_l (iblk1 V c 1 t) (iblk1 V c 2 t) (iblk1 V c 0 t) k1_pay5 k1_pay6,
       upd_acc (iblk1 V c 1 t) (iblk1 V c 2 t) (iblk1 V c 0 t) (iblk1 V c 3 t) k1_pay5 k1_pay7) := by
  obtain ⟨n, hn⟩ := t
  cases n with
  | zero => exact rfl
  | succ n => exact (dif_pos h).trans rfl

theorem stateAt1_step (c : Dev nD) (t : Fin cfg1.N) (h : ¬ t.val % 4 = 0) :
    stateAt1 V c t.val t.isLt =
      (upd_m (iblk1 V c 1 t) (iblk1 V c 2 t) (iblk1 V c 0 t) (stateAt1 V c (t.val - 1) (Nat.lt_of_le_of_lt (Nat.sub_le _ _) t.isLt)).1,
       upd_l (iblk1 V c 1 t) (iblk1 V c 2 t) (iblk1 V c 0 t) (stateAt1 V c (t.val - 1) (Nat.lt_of_le_of_lt (Nat.sub_le _ _) t.isLt)).1 (stateAt1 V c (t.val - 1) (Nat.lt_of_le_of_lt (Nat.sub_le _ _) t.isLt)).2.1,
       upd_acc (iblk1 V c 1 t) (iblk1 V c 2 t) (iblk1 V c 0 t) (iblk1 V c 3 t) (stateAt1 V c (t.val - 1) (Nat.lt_of_le_of_lt (Nat.sub_le _ _) t.isLt)).1 (stateAt1 V c (t.val - 1) (Nat.lt_of_le_of_lt (Nat.sub_le _ _) t.isLt)).2.2) := by
  obtain ⟨n, hn⟩ := t
  cases n with
  | zero => exact absurd (Nat.zero_mod _) h
  | succ n => exact (dif_neg h).trans rfl

/-! ## The body's branch conditions and the output window's idle points -/

/-- The condition of the body's first conditional (the reset), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's last conditional (the finish). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where the finish is not taken the output window is idle and not written back. -/
theorem idleAt1_4 : ∀ t : Fin cfg1.N, ¬ t.val % 4 = 3 → cfg1.idle 4 (grid1.coords t) = true := by decide +kernel
theorem noFlush1_4 : ∀ t : Fin cfg1.N, ¬ t.val % 4 = 3 → (cfg1.win 4).flush t = false := by decide +kernel
/-- Where it is taken the window is live. -/
theorem liveAt1_4 : ∀ t : Fin cfg1.N, t.val % 4 = 3 → cfg1.idle 4 (grid1.coords t) = false := by decide +kernel

set_option maxHeartbeats 4000000 in
/-- The body at a point that resets: whatever the scratch held, it leaves the update of the reset values. -/
theorem sound_kernel1_A (c : Dev nD) (E : Set ℕ) (i : grid1.Coords) (arg2 : Memref sig .tc .vmem S1024x2048 .i32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole)
    (hc0 : cond1_0 i) (hc1 : ¬ cond1_1 i) (x0 : Vec F S1024x2048 .i32) (x1 : Vec F S1024x1 .f32) (x2 : Vec F S1x2048 .f32) (x3 : Vec F S2048x256 .f32) (xo : Vec F S1024x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ owns (c : Thread nD τ) arg7 fullShare (upd_m x1 x2 x0 k1_pay5) ∗ owns (c : Thread nD τ) arg8 fullShare (upd_l x1 x2 x0 k1_pay5 k1_pay6) ∗ owns (c : Thread nD τ) arg9 fullShare (upd_acc x1 x2 x0 x3 k1_pay5 k1_pay7)) -∗ K ⟨⟩))
      ⊢ wp frame (wpE (defs₀ (F := F)) Variants.none c none) E (cc1__gat_kernel i arg2 harg2 arg3 harg3 arg4 harg4 arg5 harg5 arg6 harg6 arg7 harg7 arg8 harg8 arg9 harg9) K := by
  simp only [cc1__gat_kernel_eq_skeleton]; unfold cc1__gat_kernel_skel
  unfold owns
  iintro ⟨⟨%f0, %hf0, H0⟩, ⟨%f1, %hf1, H1⟩, ⟨%f2, %hf2, H2⟩, ⟨%f3, %hf3, H3⟩, ⟨%fo, %hfo, Ho⟩, ⟨%d7, %f7, -, H7⟩, ⟨%d8, %f8, -, H8⟩, ⟨%d9, %f9, -, H9⟩, Hk⟩
  subst hf0 hf1 hf2 hf3 hfo
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Ho]
  · iexists fo; isplitr; · ipureintro; rfl
    iexact Ho
  isplitl [H7]
  · iexists _; isplitr
    swap; · iexact H7
    ipureintro
    rw [read_writes_whole]
    unfold sound_kernel1_A.sl.r sound_kernel1_A.sl.v20 sound_kernel1_A.sl.H7_1
    repeat rw [View.readCov_cons_toLoadRect]
    repeat rw [readAt_whole]
    try rfl
  isplitl [H8]
  · iexists _; isplitr
    swap; · iexact H8
    ipureintro
    rw [read_writes_whole]
    unfold sound_kernel1_A.sl.r_3 sound_kernel1_A.sl.v20 sound_kernel1_A.sl.v30 sound_kernel1_A.sl.H7_1 sound_kernel1_A.sl.H8_1
    repeat rw [View.readCov_cons_toLoadRect]
    repeat rw [readAt_whole]
    try rfl
  · iexists _; isplitr
    swap; · iexact H9
    ipureintro
    rw [read_writes_whole]
    unfold sound_kernel1_A.sl.r_1 sound_kernel1_A.sl.r_2 sound_kernel1_A.sl.v20 sound_kernel1_A.sl.v40 sound_kernel1_A.sl.H7_1 sound_kernel1_A.sl.H9_1
    repeat rw [View.readCov_cons_toLoadRect]
    repeat rw [readAt_whole]
    try rfl

set_option maxHeartbeats 4000000 in
/-- The body at a point that neither resets nor finishes: from the carried state `(m, l, acc)` it leaves the update. -/
theorem sound_kernel1_B (c : Dev nD) (E : Set ℕ) (i : grid1.Coords) (arg2 : Memref sig .tc .vmem S1024x2048 .i32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole)
    (hc0 : ¬ cond1_0 i) (hc1 : ¬ cond1_1 i) (x0 : Vec F S1024x2048 .i32) (x1 : Vec F S1024x1 .f32) (x2 : Vec F S1x2048 .f32) (x3 : Vec F S2048x256 .f32) (xo : Vec F S1024x256 .f32)
    (m l : Vec F S1024x1 .f32) (acc : Vec F S1024x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
        ∗ owns (c : Thread nD τ) arg7 fullShare m ∗ owns (c : Thread nD τ) arg8 fullShare l ∗ owns (c : Thread nD τ) arg9 fullShare acc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ owns (c : Thread nD τ) arg7 fullShare (upd_m x1 x2 x0 m) ∗ owns (c : Thread nD τ) arg8 fullShare (upd_l x1 x2 x0 m l) ∗ owns (c : Thread nD τ) arg9 fullShare (upd_acc x1 x2 x0 x3 m acc)) -∗ K ⟨⟩))
      ⊢ wp frame (wpE (defs₀ (F := F)) Variants.none c none) E (cc1__gat_kernel i arg2 harg2 arg3 harg3 arg4 harg4 arg5 harg5 arg6 harg6 arg7 harg7 arg8 harg8 arg9 harg9) K := by
  simp only [cc1__gat_kernel_eq_skeleton]; unfold cc1__gat_kernel_skel
  unfold owns
  iintro ⟨⟨%f0, %hf0, H0⟩, ⟨%f1, %hf1, H1⟩, ⟨%f2, %hf2, H2⟩, ⟨%f3, %hf3, H3⟩, ⟨%fo, %hfo, Ho⟩, ⟨%f7, %hf7, H7⟩, ⟨%f8, %hf8, H8⟩, ⟨%f9, %hf9, H9⟩, Hk⟩
  subst hf0 hf1 hf2 hf3 hfo hf7 hf8 hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Ho]
  · iexists fo; isplitr; · ipureintro; rfl
    iexact Ho
  isplitl [H7]
  · iexists _; isplitr
    swap; · iexact H7
    ipureintro
    rw [read_writes_whole]
    unfold sound_kernel1_B.sl.r
    repeat rw [readAt_whole]
    try rfl
  isplitl [H8]
  · iexists _; isplitr
    swap; · iexact H8
    ipureintro
    rw [read_writes_whole]
    unfold sound_kernel1_B.sl.r_3
    repeat rw [readAt_whole]
    try rfl
  iexists _; isplitr
  swap; · iexact H9
  ipureintro
  rw [read_writes_whole]
  unfold sound_kernel1_B.sl.r_1 sound_kernel1_B.sl.r_2
  repeat rw [readAt_whole]
  try rfl

set_option maxHeartbeats 4000000 in
/-- The body at a point that finishes: from the carried state it leaves the update, and the output block computed from it. -/
theorem sound_kernel1_C (c : Dev nD) (E : Set ℕ) (i : grid1.Coords) (arg2 : Memref sig .tc .vmem S1024x2048 .i32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole)
    (hc0 : ¬ cond1_0 i) (hc1 : cond1_1 i) (x0 : Vec F S1024x2048 .i32) (x1 : Vec F S1024x1 .f32) (x2 : Vec F S1x2048 .f32) (x3 : Vec F S2048x256 .f32)
    (m l : Vec F S1024x1 .f32) (acc : Vec F S1024x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ owns (c : Thread nD τ) arg7 fullShare m ∗ owns (c : Thread nD τ) arg8 fullShare l ∗ owns (c : Thread nD τ) arg9 fullShare acc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (fin_out (upd_acc x1 x2 x0 x3 m acc) (upd_l x1 x2 x0 m l))
            ∗ owns (c : Thread nD τ) arg7 fullShare (upd_m x1 x2 x0 m) ∗ owns (c : Thread nD τ) arg8 fullShare (upd_l x1 x2 x0 m l) ∗ owns (c : Thread nD τ) arg9 fullShare (upd_acc x1 x2 x0 x3 m acc)) -∗ K ⟨⟩))
      ⊢ wp frame (wpE (defs₀ (F := F)) Variants.none c none) E (cc1__gat_kernel i arg2 harg2 arg3 harg3 arg4 harg4 arg5 harg5 arg6 harg6 arg7 harg7 arg8 harg8 arg9 harg9) K := by
  simp only [cc1__gat_kernel_eq_skeleton]; unfold cc1__gat_kernel_skel
  unfold owns
  iintro ⟨⟨%f0, %hf0, H0⟩, ⟨%f1, %hf1, H1⟩, ⟨%f2, %hf2, H2⟩, ⟨%f3, %hf3, H3⟩, ⟨%dd, %fo, -, Ho⟩, ⟨%f7, %hf7, H7⟩, ⟨%f8, %hf8, H8⟩, ⟨%f9, %hf9, H9⟩, Hk⟩
  subst hf0 hf1 hf2 hf3 hf7 hf8 hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Ho]
  · iexists _; isplitr
    swap; · iexact Ho
    ipureintro
    rw [read_writes_whole]
    unfold sound_kernel1_C.sl.v56 sound_kernel1_C.sl.v57 sound_kernel1_C.sl.H9_1 sound_kernel1_C.sl.H8_1
    repeat rw [View.readCov_cons_toLoadRect]
    unfold sound_kernel1_C.sl.r_1 sound_kernel1_C.sl.r_2 sound_kernel1_C.sl.r_3
    repeat rw [readAt_whole]
    try rfl
  isplitl [H7]
  · iexists _; isplitr
    swap; · iexact H7
    ipureintro
    rw [read_writes_whole]
    unfold sound_kernel1_C.sl.r
    repeat rw [readAt_whole]
    try rfl
  isplitl [H8]
  · iexists _; isplitr
    swap; · iexact H8
    ipureintro
    unfold sound_kernel1_C.sl.H8_1
    rw [read_writes_whole]
    unfold sound_kernel1_C.sl.r_3
    repeat rw [readAt_whole]
    try rfl
  · iexists _; isplitr
    swap; · iexact H9
    ipureintro
    unfold sound_kernel1_C.sl.H9_1
    rw [read_writes_whole]
    unfold sound_kernel1_C.sl.r_1 sound_kernel1_C.sl.r_2
    repeat rw [readAt_whole]
    try rfl

/-! ## The carried scratch and the region invariant -/

/-- The three scratch operands, whole scoped buffers: running maximum, running sum, accumulator. -/
abbrev scM0 : Memref sig .tc .vmem S1024x1 .f32 := Memref.whole cc1_scratch0
abbrev scM1 : Memref sig .tc .vmem S1024x1 .f32 := Memref.whole cc1_scratch1
abbrev scM2 : Memref sig .tc .vmem S1024x256 .f32 := Memref.whole cc1_scratch2

/-- The core's scoped buffers this region neither stages through nor uses as scratch, each at some contents. -/
def restA (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f))

/-- The invariant with the three scratch buffers at the propositions `X0`, `X1`, `X2`. -/
abbrev PhiFlat (c : Dev nD) (X0 X1 X2 : sProp 𝕄) : sProp 𝕄 :=
  iprop(restA (F := F) c ∗ X0 ∗ X1 ∗ X2 ∗ (∃ r, prngReg c r))

/-- What the launch hands the region, the scratch buffers singled out. -/
theorem PhiA1_split (c : Dev nD) :
    (Pipeline.ΦA spec1 c : sProp 𝕄) ⊢ PhiFlat c iprop(∃ d, owns (c : Thread nD τ) scM0 fullShare d) iprop(∃ d, owns (c : Thread nD τ) scM1 fullShare d) iprop(∃ d, owns (c : Thread nD τ) scM2 fullShare d) := by
  unfold Pipeline.ΦA PhiFlat restA; rw [scopedRest1_eq]; simp only [scM0, scM1, scM2, owns_whole]
  iintro ⟨⟨H1, H2, H3, H4, H5, H6, H7, H8, H9, H10, S0, S1, S2⟩, Hg⟩
  isplitl [H1 H2 H3 H4 H5 H6 H7 H8 H9 H10]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [S0]; · iexact S0
  isplitl [S1]; · iexact S1
  isplitl [S2]; · iexact S2
  iexact Hg

/-- and back. -/
theorem PhiA1_join (c : Dev nD) :
    PhiFlat c iprop(∃ d, owns (c : Thread nD τ) scM0 fullShare d) iprop(∃ d, owns (c : Thread nD τ) scM1 fullShare d) iprop(∃ d, owns (c : Thread nD τ) scM2 fullShare d) ⊢ (Pipeline.ΦA spec1 c : sProp 𝕄) := by
  unfold Pipeline.ΦA PhiFlat restA; rw [scopedRest1_eq]; simp only [scM0, scM1, scM2, owns_whole]
  iintro ⟨⟨H1, H2, H3, H4, H5, H6, H7, H8, H9, H10⟩, S0, S1, S2, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    iexact S2
  iexact Hg

/-- The region invariant before position `n`: before the first point what the launch hands over; afterwards
    the three scratch buffers at the carried state the point before left. -/
def PhiS (c : Dev nD) : (n : ℕ) → n ≤ cfg1.N → sProp 𝕄
  | 0, _ => Pipeline.ΦA spec1 c
  | n + 1, hn => PhiFlat c (owns (c : Thread nD τ) scM0 fullShare (stateAt1 V c n hn).1) (owns (c : Thread nD τ) scM1 fullShare (stateAt1 V c n hn).2.1) (owns (c : Thread nD τ) scM2 fullShare (stateAt1 V c n hn).2.2)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = PhiFlat c (owns (c : Thread nD τ) scM0 fullShare (stateAt1 V c n hn).1) (owns (c : Thread nD τ) scM1 fullShare (stateAt1 V c n hn).2.1) (owns (c : Thread nD τ) scM2 fullShare (stateAt1 V c n hn).2.2) := rfl

theorem PhiS_pos (c : Dev nD) (n : ℕ) (h : n ≤ cfg1.N) (hz : n ≠ 0) :
    PhiS V c n h = PhiFlat c (owns (c : Thread nD τ) scM0 fullShare (stateAt1 V c (n - 1) (by omega)).1) (owns (c : Thread nD τ) scM1 fullShare (stateAt1 V c (n - 1) (by omega)).2.1) (owns (c : Thread nD τ) scM2 fullShare (stateAt1 V c (n - 1) (by omega)).2.2) := by
  cases n with
  | zero => exact absurd rfl hz
  | succ n => rfl

/-! ## The pipeline's proof data -/

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => fin_out (stateAt1 V c t.val t.isLt).2.2 (stateAt1 V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = fin_out (stateAt1 V c t.val t.isLt).2.2 (stateAt1 V c t.val t.isLt).2.1 := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' buffers hold their blocks; the closed forms of the two conditions say which
    case the point is in; the invariant hands over the three scratch buffers at the carried state the point before
    left (at anything before the first point) and takes them back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  have hN : t.val < 32 := lt_of_lt_of_eq t.isLt (show cfg1.N = 32 from N_1)
  by_cases h0 : t.val % 4 = 0
  · have h1 : ¬ t.val % 4 = 3 := by omega
    rw [Dat.leavesExact_idle (dat1 V c) 4 t (idleAt1_4 t h1) (noFlush1_4 t h1)]
    rw [stateAt1_reset V c t h0]; dsimp only
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩⟩
      ihave HΦ' := (PhiA1_split (F := F) c) $$ HΦ; icases HΦ' with ⟨HR, S0, S1, S2, Hg⟩
      iapply (sound_kernel1_A c Set.univ (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      iintro ⟨H0, H1, H2, H3, H4, S0, S1, S2⟩
      isplitl [HR S0 S1 S2 Hg]
      · isplitl [HR]; · iexact HR
        isplitl [S0]; · iexact S0
        isplitl [S1]; · iexact S1
        isplitl [S2]; · iexact S2
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨HR, S0, S1, S2, Hg⟩, Ho, ⟨%d0, H0⟩, ⟨%d1, H1⟩, ⟨%d2, H2⟩, ⟨%d3, H3⟩, ⟨%d4, H4⟩⟩
      iapply (sound_kernel1_A c Set.univ (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexact H4
      isplitl [S0]; · iexists _; iexact S0
      isplitl [S1]; · iexists _; iexact S1
      isplitl [S2]; · iexists _; iexact S2
      iintro ⟨H0, H1, H2, H3, H4, S0, S1, S2⟩
      isplitl [HR S0 S1 S2 Hg]
      · isplitl [HR]; · iexact HR
        isplitl [S0]; · iexact S0
        isplitl [S1]; · iexact S1
        isplitl [S2]; · iexact S2
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    rw [stateAt1_step V c t h0]; dsimp only
    rw [PhiS_castSucc V c t, PhiS_pos V c _ _ hz]
    by_cases h1 : t.val % 4 = 3
    · rw [show (dat1 V c).leavesExact 4 t = owns (c : Thread nD τ) (st1_4 t) fullShare ((dat1 V c).after 4 t) from by
        unfold Dat.leavesExact; rw [liveAt1_4 t h1], after1_4]
      rw [stateAt1_step V c t h0]; dsimp only
      iintro ⟨⟨HR, S0, S1, S2, Hg⟩, Ho, ⟨%d0, H0⟩, ⟨%d1, H1⟩, ⟨%d2, H2⟩, ⟨%d3, H3⟩, ⟨%d4, H4⟩⟩
      iapply (sound_kernel1_C c Set.univ (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _ _)
      isplitl [H0]; · iexact H0
      isplitl [H1]; · iexact H1
      isplitl [H2]; · iexact H2
      isplitl [H3]; · iexact H3
      isplitl [H4]; · iexists _; iexact H4
      isplitl [S0]; · iexact S0
      isplitl [S1]; · iexact S1
      isplitl [S2]; · iexact S2
      iintro ⟨H0, H1, H2, H3, H4, S0, S1, S2⟩
      isplitl [HR S0 S1 S2 Hg]
      · isplitl [HR]; · iexact HR
        isplitl [S0]; · iexact S0
        isplitl [S1]; · iexact S1
        isplitl [S2]; · iexact S2
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idleAt1_4 t h1) (noFlush1_4 t h1)]
      iintro ⟨⟨HR, S0, S1, S2, Hg⟩, Ho, ⟨%d0, H0⟩, ⟨%d1, H1⟩, ⟨%d2, H2⟩, ⟨%d3, H3⟩, ⟨%d4, H4⟩⟩
      iapply (sound_kernel1_B c Set.univ (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _ _ _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      iintro ⟨H0, H1, H2, H3, H4, S0, S1, S2⟩
      isplitl [HR S0 S1 S2 Hg]
      · isplitl [HR]; · iexact HR
        isplitl [S0]; · iexact S0
        isplitl [S1]; · iexact S1
        isplitl [S2]; · iexact S2
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives back what the launch handed over: the carried
    state's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  refine BIBase.Entails.trans ?_ (PhiA1_join c)
  unfold PhiFlat
  iintro ⟨HR, S0, S1, S2, Hg⟩
  isplitl [HR]; · iexact HR
  isplitl [S0]; · iexists _; iexact S0
  isplitl [S1]; · iexists _; iexact S1
  isplitl [S2]; · iexists _; iexact S2
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Hand

end
-- ==== Proof.KRun.lean ====
import proofs.«149947_j1211180778248_2_alg».proof.Proof.Gen.Kernel.Launch
import proofs.«149947_j1211180778248_2_alg».proof.Proof.Gen.Kernel.Skeleton
import proofs.«149947_j1211180778248_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«149947_j1211180778248_2_alg».proof.Proof.Gen.Kernel.Regions
import proofs.«149947_j1211180778248_2_alg».proof.Proof.KProj
import proofs.«149947_j1211180778248_2_alg».proof.Proof.KGat

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's three segments from the launch to the return

The projection region, the one host operation between the regions (the transpose of the second score column),
the attention region. -/

/-! ## The buffer contents at each segment boundary -/

/-- Core `c`'s buffers at launch. -/
abbrev W0 : Dev nD → Valuation τ sig (Elt F) := fun c b => m ((c : Dev nD), b)
/-- The same read at the TensorCore's references (what the projection region's proof data take). -/
abbrev V0 : (c : Dev nD) → (b : Ref sig .tc) → Buf (Elt F) ((c : Thread nD τ).loc b) := fun c b => W0 m c b
/-- At the projection region's exit: its arrays at what the pipeline leaves (the inputs as entered, each output's
    write-backs folded), every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the transpose (the attention region's entry). -/
abbrev W2 : Dev nD → Valuation τ sig (Elt F) := fun c => StableHlo.after hostOps1 (W1 m c)
/-- The same read at the TensorCore's references (what the attention region's proof data take). -/
abbrev V2 : (c : Dev nD) → (b : Ref sig .tc) → Buf (Elt F) ((c : Thread nD τ).loc b) := fun c b => W2 m c b
/-- The transpose writes its result buffer only. -/
theorem W2_of (c : Dev nD) (r : Ref sig .tc) (h : r ∉ hostOps1_W) : W2 m c (Proc.devRef .tc r) = W1 m c (Proc.devRef .tc r) :=
  StableHlo.after_of_writes_sub hostOps1 _ hostOps1_writes h
/-- At the attention region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### What the attention region finds: the projection's outputs, one of them transposed -/

theorem V2_main_v0_0 (c : Dev nD) : V2 m c main_v0_0 = (dat0 (V0 m) c).arrAt 3 cfg0.N :=
  (W2_of m c main_v0_0 (by decide)).trans (W1_arr m c 3)
theorem V2_main_v0_1 (c : Dev nD) : V2 m c main_v0_1 = (dat0 (V0 m) c).arrAt 4 cfg0.N :=
  (W2_of m c main_v0_1 (by decide)).trans (W1_arr m c 4)
theorem V2_main_v1 (c : Dev nD) :
    V2 m c main_v1 = transpose S1x8192 [1, 0] ((dat0 (V0 m) c).arrAt 5 cfg0.N) transposes_S8192x1_S1x8192_1_0 := by
  show StableHlo.after hostOps1 (W1 m c) (Proc.devRef .tc main_v1) = _
  rw [← W1_arr m c 5]
  simp only [hostOps1, StableHlo.after_cons, StableHlo.after_nil]
  exact StableHlo.unary_result main_v0_2 main_v1 _ _ _ (W1 m c)
theorem V2_main_arg1 (c : Dev nD) : V2 m c main_arg1 = m ((c : Thread nD τ).loc main_arg1) :=
  (W2_of m c main_arg1 (by decide)).trans ((W1_of_ne m c main_arg1 (by decide)).trans rfl)

/-! ### The arguments end as launched, and the result array holds what the attention region leaves -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = V2 m c main_arg1 := (W3_arr m c 0).trans (((dat1 (V2 m) c).arrAt_in 0 rfl _).trans (A_eq1 (V2 m) c 0))
    _ = m ((c : Thread nD τ).loc main_arg1) := V2_main_arg1 m c
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of m c main_arg2 (by decide)
    _ = W0 m c (Proc.devRef .tc main_arg2) := (W1_arr m c 1).trans (((dat0 (V0 m) c).arrAt_in 1 rfl _).trans (A_eq0 (V0 m) c 1))
    _ = m ((c : Thread nD τ).loc main_arg2) := rfl

theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of m c main_arg3 (by decide)
    _ = W0 m c (Proc.devRef .tc main_arg3) := (W1_arr m c 2).trans (((dat0 (V0 m) c).arrAt_in 2 rfl _).trans (A_eq0 (V0 m) c 2))
    _ = m ((c : Thread nD τ).loc main_arg3) := rfl

theorem W3_main_v2 (c : Dev nD) : W3 m c (Proc.devRef .tc main_v2) = (dat1 (V2 m) c).arrAt 4 cfg1.N :=
  W3_arr m c 4

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts,
    at nothing. -/
abbrev R (c : Dev nD) : sProp 𝕄 := iprop((∃ r, prngReg c r) ∗ ∃ W, owes (c : Thread nD τ) (0 : CellTallies nD τ sig Unit) W)
/-- The host operation as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The projection region over the thread state: entered from every unscoped buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W2`, left at `W3`. Its
    invariant carries three scratch buffers besides what the launch hands over: it is entered and left through the
    region's own two entailments. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (V2 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m) ]
/-- @main is the run of the segments. -/
theorem main_run (c : Dev nD) : main (F := F) c = Pipeline.Seg.run (segs m) := (main_chain c).trans (by chain_rfl)

set_option backward.isDefEq.respectTransparency.types false in
/-- The whole run: from any memory with zero counters every weakly fair execution of @main on the TensorCores
    terminates, nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c =>
    ⟨(hr c _ (mem_uc main_arg0 (by decide))).trans (W3_main_arg0 m c),
     (hr c _ (mem_uc main_arg1 (by decide))).trans (W3_main_arg1 m c),
     (hr c _ (mem_uc main_arg2 (by decide))).trans (W3_main_arg2 m c),
     (hr c _ (mem_uc main_arg3 (by decide))).trans (W3_main_arg3 m c)⟩) (run_all m ρ)

end Cert.Kernel.Hand

end
-- ==== Proof.Spec.lean ====
/-
  The two programs of this certificate as functions of the four argument arrays, entry by entry, on the extended
  reals; no program is imported here.

  Both compute a graph-attention layer over 8192 nodes with 256 features. With `Wh = h W` (rows of projected features),
  `s1 = Wh a₁` and `s2 = Wh a₂` (a₁, a₂ the two halves of `a`), the score of the pair (i, j) is the leaky rectifier of
  `s1 i + s2 j` where `adj i j > 0` and a fixed large negative number elsewhere. Row i of the result is the ELU of the
  softmax of row i of the scores applied to `Wh`.

  The reference takes the row maximum, exponentiates, divides each weight by the row's sum and then multiplies by `Wh`.
  The kernel walks the 8192 columns in four chunks of 2048 and keeps a running maximum, a running sum and a running
  weighted sum, rescaling the latter two whenever the maximum grows, and divides once at the end.
-/
import Idealize.ShloMosaic.PureOps.Ideal.Laws

noncomputable section

namespace Cert.Spec

open Idealize.ShloMosaic

/-- The words both programs write, read on the extended reals. -/
abbrev zeroW : EReal := Ideal.ofBits .f32 0x00000000#32
abbrev slopeW : EReal := Ideal.ofBits .f32 0x3E4CCCCD#32
abbrev fillW : EReal := Ideal.ofBits .f32 0xD9FFCB9E#32
abbrev oneW : EReal := Ideal.ofBits .f32 0x3F800000#32
abbrev ninfW : EReal := Ideal.ofBits .f32 0xFF800000#32

section

variable (h : Fin 8192 → Fin 256 → EReal) (adj : Fin 8192 → Fin 8192 → BitVec 32)
  (W : Fin 256 → Fin 256 → EReal) (a : Fin 512 → EReal)

/-- The projected features `Wh = h W`. -/
def wh (i : Fin 8192) (c : Fin 256) : EReal := ∑ k : Fin 256, h i k * W k c

/-- The first and the second half of the attention vector. -/
def a1 (c : Fin 256) : EReal := a ⟨c.val, by have := c.isLt; omega⟩
def a2 (c : Fin 256) : EReal := a ⟨256 + c.val, by have := c.isLt; omega⟩

/-- The two score vectors `Wh a₁` and `Wh a₂`. -/
def s1 (i : Fin 8192) : EReal := ∑ c : Fin 256, wh h W i c * a1 a c
def s2 (j : Fin 8192) : EReal := ∑ c : Fin 256, wh h W j c * a2 a c

/-- The leaky rectifier: `e` above zero, a fixed fraction of `e` otherwise. -/
def leaky (e : EReal) : EReal := Scalar.select (Ideal.cmp .ogt e zeroW) e (slopeW * e)

/-- The masked score of the pair (i, j). -/
def logit (i j : Fin 8192) : EReal :=
  Scalar.select (IntOp.cmpi .sgt (adj i j) 0#32) (leaky (s1 h W a i + s2 h W a j)) fillW

/-! ## The reference: one softmax over the whole row -/

/-- The row's maximum, folded from `-∞` and once more compared with it. -/
def rmax (i : Fin 8192) : EReal := max ninfW ((Finset.univ : Finset (Fin 8192)).fold max ninfW fun j => logit h adj W a i j)

/-- The unnormalised weights and their sum. -/
def pr (i j : Fin 8192) : EReal := Ideal.exp (logit h adj W a i j - rmax h adj W a i)
def zr (i : Fin 8192) : EReal := zeroW + ∑ j : Fin 8192, pr h adj W a i j

/-- The normalised weights applied to `Wh`. -/
def hpr (i : Fin 8192) (c : Fin 256) : EReal := ∑ j : Fin 8192, Ideal.div (pr h adj W a i j) (zr h adj W a i) * wh h W j c

/-- The reference's ELU: `x` above zero; otherwise one times (the exponential, taken of `x` where it is not above zero, less one). -/
def eluR (x : EReal) : EReal :=
  Scalar.select (Ideal.cmp .ogt x zeroW) x
    (oneW * (Ideal.exp (Scalar.select (Ideal.cmp .ogt x zeroW) zeroW x) - 1))

def refOut (i : Fin 8192) (c : Fin 256) : EReal := eluR (hpr h adj W a i c)

/-! ## The kernel: four chunks of 2048 columns -/

/-- Column `p` of chunk `n` (a chunk past the fourth wraps around; only chunks 0 to 3 are used). -/
def col (n : ℕ) (p : Fin 2048) : Fin 8192 := ⟨(2048 * n + p.val) % 8192, Nat.mod_lt _ (by norm_num)⟩

/-- The chunk's maximum, folded from `-∞`. -/
def cmaxK (i : Fin 8192) (n : ℕ) : EReal := (Finset.univ : Finset (Fin 2048)).fold max ninfW fun p => logit h adj W a i (col n p)

/-- The running maximum after chunk `n`, started from `-∞`. -/
def kM (i : Fin 8192) : ℕ → EReal
  | 0 => max ninfW (cmaxK h adj W a i 0)
  | n + 1 => max (kM i n) (cmaxK h adj W a i (n + 1))

/-- The running sum after chunk `n`, started from zero: the old sum rescaled, plus the chunk's weights. -/
def kL (i : Fin 8192) : ℕ → EReal
  | 0 => Ideal.exp (ninfW - kM h adj W a i 0) * zeroW + ∑ p : Fin 2048, Ideal.exp (logit h adj W a i (col 0 p) - kM h adj W a i 0)
  | n + 1 => Ideal.exp (kM h adj W a i n - kM h adj W a i (n + 1)) * kL i n
      + ∑ p : Fin 2048, Ideal.exp (logit h adj W a i (col (n + 1) p) - kM h adj W a i (n + 1))

/-- The running weighted sum of the rows of `Wh`, column `c`, after chunk `n`, started from zero. -/
def kA (i : Fin 8192) (c : Fin 256) : ℕ → EReal
  | 0 => Ideal.exp (ninfW - kM h adj W a i 0) * zeroW
      + ∑ p : Fin 2048, Ideal.exp (logit h adj W a i (col 0 p) - kM h adj W a i 0) * wh h W (col 0 p) c
  | n + 1 => Ideal.exp (kM h adj W a i n - kM h adj W a i (n + 1)) * kA i c n
      + ∑ p : Fin 2048, Ideal.exp (logit h adj W a i (col (n + 1) p) - kM h adj W a i (n + 1)) * wh h W (col (n + 1) p) c

/-- The kernel's ELU: `x` above zero, the exponential less one otherwise. -/
def eluK (x : EReal) : EReal := Scalar.select (Ideal.cmp .ogt x zeroW) x (Ideal.exp x - oneW)

def kerOut (i : Fin 8192) (c : Fin 256) : EReal :=
  eluK (Ideal.div (kA h adj W a i c 3) (kL h adj W a i 3))

end

end Cert.Spec

end
-- ==== Proof.KIProj.lean ====
import proofs.«149947_j1211180778248_2_alg».proof.Proof.Gen.KernelIdeal.Launch
import proofs.«149947_j1211180778248_2_alg».proof.Proof.Gen.KernelIdeal.Skeleton
import proofs.«149947_j1211180778248_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: a PARAMETER
variable (V : (c : Dev nD) → (b : Ref sig .tc) → Buf (Elt F) ((c : Thread nD τ).loc b))

/-! # The projection kernel (region 0), at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body finds in an input window's buffer

An input's staging buffer holds the window's block at every point, whether or not the block was fetched there: a
block that is not fetched is one whose index has not moved (the weight matrix and the attention vector, whose index
map is constant, are fetched at the first point only), and the body leaves every input block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole, through the unit rectangle at offset zero -/

abbrev rH : Rect S1024x256 := Rect.unit (s := S1024x256) ![0, 0] S1024x256.size inb_S1024x256_S1024x256_0_0
abbrev rW : Rect S256x256 := Rect.unit (s := S256x256) ![0, 0] S256x256.size inb_S256x256_S256x256_0_0
abbrev rA : Rect S512x1 := Rect.unit (s := S512x1) ![0, 0] S512x1.size inb_S512x1_S512x1_0_0
abbrev rC : Rect S1024x1 := Rect.unit (s := S1024x1) ![0, 0] S1024x1.size inb_S1024x1_S1024x1_0_0

/-! ## What the body leaves in each output window's buffer -/

/-- The projected block `h · W`: the one store into window 3, over the loaded `h`-block and `W`. -/
def out0_3 (x0 : Vec F S1024x256 .f32) (x1 : Vec F S256x256 .f32) : Vec F S1024x256 .f32 :=
  View.canon [⟨rH, k0_pay1 (View.ld x0 rH) (View.ld x1 rW)⟩]

/-- `(h · W) · a[0:256]`: the one store into window 4. -/
def out0_4 (x0 : Vec F S1024x256 .f32) (x1 : Vec F S256x256 .f32) (x2 : Vec F S512x1 .f32) : Vec F S1024x1 .f32 :=
  View.canon [⟨rC, k0_pay2 (View.ld x0 rH) (View.ld x1 rW) (View.ld x2 rA)⟩]

/-- `(h · W) · a[256:512]`: the one store into window 5. -/
def out0_5 (x0 : Vec F S1024x256 .f32) (x1 : Vec F S256x256 .f32) (x2 : Vec F S512x1 .f32) : Vec F S1024x1 .f32 :=
  View.canon [⟨rC, k0_pay3 (View.ld x0 rH) (View.ld x1 rW) (View.ld x2 rA)⟩]

/-- The offsets of every access are zero. -/
theorem hz2 : (![0, 0] : Fin 2 → Nat) = fun _ => 0 := funext fun a => by fin_cases a <;> rfl

/-- Each output reads back as its payload: one store of the whole buffer, over loads of whole buffers. -/
theorem out0_3_eq (x0 : Vec F S1024x256 .f32) (x1 : Vec F S256x256 .f32) : out0_3 x0 x1 = k0_pay1 x0 x1 := by
  unfold out0_3
  rw [View.canon_unit_zero hz2]
  simp only [View.ld_unit_zero (S := S1024x256) hz2, View.ld_unit_zero (S := S256x256) hz2]
theorem out0_4_eq (x0 : Vec F S1024x256 .f32) (x1 : Vec F S256x256 .f32) (x2 : Vec F S512x1 .f32) : out0_4 x0 x1 x2 = k0_pay2 x0 x1 x2 := by
  unfold out0_4
  rw [View.canon_unit_zero hz2]
  simp only [View.ld_unit_zero (S := S1024x256) hz2, View.ld_unit_zero (S := S256x256) hz2, View.ld_unit_zero (S := S512x1) hz2]
theorem out0_5_eq (x0 : Vec F S1024x256 .f32) (x1 : Vec F S256x256 .f32) (x2 : Vec F S512x1 .f32) : out0_5 x0 x1 x2 = k0_pay3 x0 x1 x2 := by
  unfold out0_5
  rw [View.canon_unit_zero hz2]
  simp only [View.ld_unit_zero (S := S1024x256) hz2, View.ld_unit_zero (S := S256x256) hz2, View.ld_unit_zero (S := S512x1) hz2]

/-- The one store of each output covers its buffer: the rectangle is the whole shape. -/
theorem cover0_3 (p0 : Vec F S1024x256 .f32) (y : S1024x256.Idx) :
    ∃ pc ∈ ([⟨rH, p0⟩] : List (View.Piece (Elt F) S1024x256 .f32)), y ∈ pc.1.set :=
  ⟨_, List.mem_singleton_self _, View.mem_set_unit_zero (S := S1024x256) hz2 inb_S1024x256_S1024x256_0_0 y⟩
theorem cover0_4 (p0 : Vec F S1024x1 .f32) (y : S1024x1.Idx) :
    ∃ pc ∈ ([⟨rC, p0⟩] : List (View.Piece (Elt F) S1024x1 .f32)), y ∈ pc.1.set :=
  ⟨_, List.mem_singleton_self _, View.mem_set_unit_zero (S := S1024x1) hz2 inb_S1024x1_S1024x1_0_0 y⟩

/-! ## The body's triple -/

set_option maxHeartbeats 1000000 in
/-- The kernel body on whole staging memrefs — the inputs' at read contents `x0`, `x1`, `x2`, the outputs' at
    anything — runs to the continuation holding the inputs' as they were and each output's at `out0_W` of the
    inputs'. The body also loads each output buffer before storing it whole; what it reads there is used nowhere. -/
theorem sound_kernel0 (c : Dev nD) (E : Set ℕ) (i : grid0.Coords)
    (arg1 : Memref sig .tc .vmem S1024x256 .f32) (harg1 : arg1.IsWhole) (arg2 : Memref sig .tc .vmem S256x256 .f32) (harg2 : arg2.IsWhole)
    (arg3 : Memref sig .tc .vmem S512x1 .f32) (harg3 : arg3.IsWhole) (arg4 : Memref sig .tc .vmem S1024x256 .f32) (harg4 : arg4.IsWhole)
    (arg5 : Memref sig .tc .vmem S1024x1 .f32) (harg5 : arg5.IsWhole) (arg6 : Memref sig .tc .vmem S1024x1 .f32) (harg6 : arg6.IsWhole)
    (x0 : Vec F S1024x256 .f32) (x1 : Vec F S256x256 .f32) (x2 : Vec F S512x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E
          (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_4 _)

/-! ## The pipeline's proof data -/

/-- The proof data of the projection pipeline on core `c`: the arrays as the region finds them; after the body at
    point `t` each input's buffer at its block and each output's at `out0_W` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIGat.lean ====
import proofs.«149947_j1211180778248_2_alg».proof.Proof.Gen.KernelIdeal.Launch
import proofs.«149947_j1211180778248_2_alg».proof.Proof.Gen.KernelIdeal.Skeleton
import proofs.«149947_j1211180778248_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: a PARAMETER
variable (V : (c : Dev nD) → (b : Ref sig .tc) → Buf (Elt F) ((c : Thread nD τ).loc b))

/-! ## Whole-buffer accesses: a load reads the contents, a store leaves its payload -/

section Whole

variable {sig' : RefSig} {κ' : Kind} {sp' : Space} {s : Shape} {e : EltTy} {Val : EltTy → Type}

/-- A unit-stride rectangle of the shape's own sizes places every index at itself. -/
theorem idx_whole (off : Fin s.rank → ℕ) (inb : ∀ a, off a + s.size a ≤ s.size a)
    (j : (Rect.unit (s := s) off s.size inb).shape.Idx) :
    (Rect.unit (s := s) off s.size inb).toLoadRect.idx j = j := by
  funext a
  apply Fin.ext
  have h := inb a
  rw [LoadRect.idx_apply]
  show off a + 1 * (j a).val = (j a).val
  omega

/-- A load through it of a buffer reading `X` reads `X`. -/
theorem readAt_whole (v : View sig' κ' sp' s e) (f : v.ty.Contents Val) (off : Fin s.rank → ℕ) (inb : ∀ a, off a + s.size a ≤ s.size a) :
    v.readAt Val (Rect.unit (s := s) off s.size inb).toLoadRect f = v.read Val f := by
  funext j
  rw [View.readAt_apply, idx_whole]

/-- After a store through it the buffer reads as that store's payload, whatever it held and whatever was stored before. -/
theorem read_writes_whole (v : View sig' κ' sp' s e) (f : v.ty.Contents Val) (off : Fin s.rank → ℕ) (inb : ∀ a, off a + s.size a ≤ s.size a)
    (p : (Rect.unit (s := s) off s.size inb).shape.Idx → Val e) (L : List (View.Piece Val s e)) :
    v.read Val (v.writes Val f (⟨Rect.unit (s := s) off s.size inb, p⟩ :: L)) = p := by
  funext j
  have h := View.read_writes_cons_emb v f (Rect.unit (s := s) off s.size inb) p L j
  rw [show (Rect.unit (s := s) off s.size inb).emb j = j from idx_whole off inb j] at h
  exact h

end Whole

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running maximum after one key block. -/
def upd_m (x1 : Vec F S1024x1 .f32) (x2 : Vec F S1x2048 .f32) (x0 : Vec F S1024x2048 .i32) (m : Vec F S1024x1 .f32) : Vec F S1024x1 .f32 :=
  k1_pay3 (k1_pay9 x1 x2 x0 m)

/-- The running sum after one key block. -/
def upd_l (x1 : Vec F S1024x1 .f32) (x2 : Vec F S1x2048 .f32) (x0 : Vec F S1024x2048 .i32) (m l : Vec F S1024x1 .f32) : Vec F S1024x1 .f32 :=
  k1_pay1 (k1_pay12 x1 x2 x0 m m l)

/-- The accumulator after one key block. -/
def upd_acc (x1 : Vec F S1024x1 .f32) (x2 : Vec F S1x2048 .f32) (x0 : Vec F S1024x2048 .i32) (x3 : Vec F S2048x256 .f32) (m : Vec F S1024x1 .f32) (acc : Vec F S1024x256 .f32) : Vec F S1024x256 .f32 :=
  k1_pay2 (k1_pay10 x1 x2 x0 m m) (k1_pay11 x1 x2 x0 m) x3 acc

/-- The output block from the final accumulator and sum. -/
def fin_out (acc : Vec F S1024x256 .f32) (l : Vec F S1024x1 .f32) : Vec F S1024x256 .f32 :=
  k1_pay4 acc l

theorem upd_m_eq (x1 : Vec F S1024x1 .f32) (x2 : Vec F S1x2048 .f32) (x0 : Vec F S1024x2048 .i32) (m : Vec F S1024x1 .f32) :
    upd_m x1 x2 x0 m = k1_pay3 (k1_pay9 x1 x2 x0 m) := rfl
theorem upd_l_eq (x1 : Vec F S1024x1 .f32) (x2 : Vec F S1x2048 .f32) (x0 : Vec F S1024x2048 .i32) (m l : Vec F S1024x1 .f32) :
    upd_l x1 x2 x0 m l = k1_pay1 (k1_pay12 x1 x2 x0 m m l) := rfl
theorem upd_acc_eq (x1 : Vec F S1024x1 .f32) (x2 : Vec F S1x2048 .f32) (x0 : Vec F S1024x2048 .i32) (x3 : Vec F S2048x256 .f32) (m : Vec F S1024x1 .f32) (acc : Vec F S1024x256 .f32) :
    upd_acc x1 x2 x0 x3 m acc = k1_pay2 (k1_pay10 x1 x2 x0 m m) (k1_pay11 x1 x2 x0 m) x3 acc := rfl
theorem fin_out_eq (acc : Vec F S1024x256 .f32) (l : Vec F S1024x1 .f32) : fin_out acc l = k1_pay4 acc l := rfl

/-- The carried state (m, l, acc) after the body at position `n`. -/
def stateAt1 (c : Dev nD) : (n : ℕ) → n < cfg1.N → Vec F S1024x1 .f32 × Vec F S1024x1 .f32 × Vec F S1024x256 .f32
  | 0, hn =>
      (upd_m (iblk1 V c 1 ⟨0, hn⟩) (iblk1 V c 2 ⟨0, hn⟩) (iblk1 V c 0 ⟨0, hn⟩) k1_pay5,
       upd_l (iblk1 V c 1 ⟨0, hn⟩) (iblk1 V c 2 ⟨0, hn⟩) (iblk1 V c 0 ⟨0, hn⟩) k1_pay5 k1_pay6,
       upd_acc (iblk1 V c 1 ⟨0, hn⟩) (iblk1 V c 2 ⟨0, hn⟩) (iblk1 V c 0 ⟨0, hn⟩) (iblk1 V c 3 ⟨0, hn⟩) k1_pay5 k1_pay7)
  | n + 1, hn =>
      if h0 : (n + 1) % 4 = 0 then
        (upd_m (iblk1 V c 1 ⟨n + 1, hn⟩) (iblk1 V c 2 ⟨n + 1, hn⟩) (iblk1 V c 0 ⟨n + 1, hn⟩) k1_pay5,
         upd_l (iblk1 V c 1 ⟨n + 1, hn⟩) (iblk1 V c 2 ⟨n + 1, hn⟩) (iblk1 V c 0 ⟨n + 1, hn⟩) k1_pay5 k1_pay6,
         upd_acc (iblk1 V c 1 ⟨n + 1, hn⟩) (iblk1 V c 2 ⟨n + 1, hn⟩) (iblk1 V c 0 ⟨n + 1, hn⟩) (iblk1 V c 3 ⟨n + 1, hn⟩) k1_pay5 k1_pay7)
      else
        (upd_m (iblk1 V c 1 ⟨n + 1, hn⟩) (iblk1 V c 2 ⟨n + 1, hn⟩) (iblk1 V c 0 ⟨n + 1, hn⟩) (stateAt1 c n (Nat.lt_of_succ_lt hn)).1,
         upd_l (iblk1 V c 1 ⟨n + 1, hn⟩) (iblk1 V c 2 ⟨n + 1, hn⟩) (iblk1 V c 0 ⟨n + 1, hn⟩) (stateAt1 c n (Nat.lt_of_succ_lt hn)).1 (stateAt1 c n (Nat.lt_of_succ_lt hn)).2.1,
         upd_acc (iblk1 V c 1 ⟨n + 1, hn⟩) (iblk1 V c 2 ⟨n + 1, hn⟩) (iblk1 V c 0 ⟨n + 1, hn⟩) (iblk1 V c 3 ⟨n + 1, hn⟩) (stateAt1 c n (Nat.lt_of_succ_lt hn)).1 (stateAt1 c n (Nat.lt_of_succ_lt hn)).2.2)

theorem stateAt1_reset (c : Dev nD) (t : Fin cfg1.N) (h : t.val % 4 = 0) :
    stateAt1 V c t.val t.isLt =
      (upd_m (iblk1 V c 1 t) (iblk1 V c 2 t) (iblk1 V c 0 t) k1_pay5,
       upd_l (iblk1 V c 1 t) (iblk1 V c 2 t) (iblk1 V c 0 t) k1_pay5 k1_pay6,
       upd_acc (iblk1 V c 1 t) (iblk1 V c 2 t) (iblk1 V c 0 t) (iblk1 V c 3 t) k1_pay5 k1_pay7) := by
  obtain ⟨n, hn⟩ := t
  cases n with
  | zero => exact rfl
  | succ n => exact (dif_pos h).trans rfl

theorem stateAt1_step (c : Dev nD) (t : Fin cfg1.N) (h : ¬ t.val % 4 = 0) :
    stateAt1 V c t.val t.isLt =
      (upd_m (iblk1 V c 1 t) (iblk1 V c 2 t) (iblk1 V c 0 t) (stateAt1 V c (t.val - 1) (Nat.lt_of_le_of_lt (Nat.sub_le _ _) t.isLt)).1,
       upd_l (iblk1 V c 1 t) (iblk1 V c 2 t) (iblk1 V c 0 t) (stateAt1 V c (t.val - 1) (Nat.lt_of_le_of_lt (Nat.sub_le _ _) t.isLt)).1 (stateAt1 V c (t.val - 1) (Nat.lt_of_le_of_lt (Nat.sub_le _ _) t.isLt)).2.1,
       upd_acc (iblk1 V c 1 t) (iblk1 V c 2 t) (iblk1 V c 0 t) (iblk1 V c 3 t) (stateAt1 V c (t.val - 1) (Nat.lt_of_le_of_lt (Nat.sub_le _ _) t.isLt)).1 (stateAt1 V c (t.val - 1) (Nat.lt_of_le_of_lt (Nat.sub_le _ _) t.isLt)).2.2) := by
  obtain ⟨n, hn⟩ := t
  cases n with
  | zero => exact absurd (Nat.zero_mod _) h
  | succ n => exact (dif_neg h).trans rfl

/-! ## The body's branch conditions and the output window's idle points -/

/-- The condition of the body's first conditional (the reset), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's last conditional (the finish). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where the finish is not taken the output window is idle and not written back. -/
theorem idleAt1_4 : ∀ t : Fin cfg1.N, ¬ t.val % 4 = 3 → cfg1.idle 4 (grid1.coords t) = true := by decide +kernel
theorem noFlush1_4 : ∀ t : Fin cfg1.N, ¬ t.val % 4 = 3 → (cfg1.win 4).flush t = false := by decide +kernel
/-- Where it is taken the window is live. -/
theorem liveAt1_4 : ∀ t : Fin cfg1.N, t.val % 4 = 3 → cfg1.idle 4 (grid1.coords t) = false := by decide +kernel

set_option maxHeartbeats 4000000 in
/-- The body at a point that resets: whatever the scratch held, it leaves the update of the reset values. -/
theorem sound_kernel1_A (c : Dev nD) (E : Set ℕ) (i : grid1.Coords) (arg2 : Memref sig .tc .vmem S1024x2048 .i32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole)
    (hc0 : cond1_0 i) (hc1 : ¬ cond1_1 i) (x0 : Vec F S1024x2048 .i32) (x1 : Vec F S1024x1 .f32) (x2 : Vec F S1x2048 .f32) (x3 : Vec F S2048x256 .f32) (xo : Vec F S1024x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ owns (c : Thread nD τ) arg7 fullShare (upd_m x1 x2 x0 k1_pay5) ∗ owns (c : Thread nD τ) arg8 fullShare (upd_l x1 x2 x0 k1_pay5 k1_pay6) ∗ owns (c : Thread nD τ) arg9 fullShare (upd_acc x1 x2 x0 x3 k1_pay5 k1_pay7)) -∗ K ⟨⟩))
      ⊢ wp frame (wpE (defs₀ (F := F)) Variants.none c none) E (cc1__gat_kernel i arg2 harg2 arg3 harg3 arg4 harg4 arg5 harg5 arg6 harg6 arg7 harg7 arg8 harg8 arg9 harg9) K := by
  simp only [cc1__gat_kernel_eq_skeleton]; unfold cc1__gat_kernel_skel
  unfold owns
  iintro ⟨⟨%f0, %hf0, H0⟩, ⟨%f1, %hf1, H1⟩, ⟨%f2, %hf2, H2⟩, ⟨%f3, %hf3, H3⟩, ⟨%fo, %hfo, Ho⟩, ⟨%d7, %f7, -, H7⟩, ⟨%d8, %f8, -, H8⟩, ⟨%d9, %f9, -, H9⟩, Hk⟩
  subst hf0 hf1 hf2 hf3 hfo
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Ho]
  · iexists fo; isplitr; · ipureintro; rfl
    iexact Ho
  isplitl [H7]
  · iexists _; isplitr
    swap; · iexact H7
    ipureintro
    rw [read_writes_whole]
    unfold sound_kernel1_A.sl.r sound_kernel1_A.sl.v20 sound_kernel1_A.sl.H7_1
    repeat rw [View.readCov_cons_toLoadRect]
    repeat rw [readAt_whole]
    try rfl
  isplitl [H8]
  · iexists _; isplitr
    swap; · iexact H8
    ipureintro
    rw [read_writes_whole]
    unfold sound_kernel1_A.sl.r_3 sound_kernel1_A.sl.v20 sound_kernel1_A.sl.v30 sound_kernel1_A.sl.H7_1 sound_kernel1_A.sl.H8_1
    repeat rw [View.readCov_cons_toLoadRect]
    repeat rw [readAt_whole]
    try rfl
  · iexists _; isplitr
    swap; · iexact H9
    ipureintro
    rw [read_writes_whole]
    unfold sound_kernel1_A.sl.r_1 sound_kernel1_A.sl.r_2 sound_kernel1_A.sl.v20 sound_kernel1_A.sl.v40 sound_kernel1_A.sl.H7_1 sound_kernel1_A.sl.H9_1
    repeat rw [View.readCov_cons_toLoadRect]
    repeat rw [readAt_whole]
    try rfl

set_option maxHeartbeats 4000000 in
/-- The body at a point that neither resets nor finishes: from the carried state `(m, l, acc)` it leaves the update. -/
theorem sound_kernel1_B (c : Dev nD) (E : Set ℕ) (i : grid1.Coords) (arg2 : Memref sig .tc .vmem S1024x2048 .i32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole)
    (hc0 : ¬ cond1_0 i) (hc1 : ¬ cond1_1 i) (x0 : Vec F S1024x2048 .i32) (x1 : Vec F S1024x1 .f32) (x2 : Vec F S1x2048 .f32) (x3 : Vec F S2048x256 .f32) (xo : Vec F S1024x256 .f32)
    (m l : Vec F S1024x1 .f32) (acc : Vec F S1024x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
        ∗ owns (c : Thread nD τ) arg7 fullShare m ∗ owns (c : Thread nD τ) arg8 fullShare l ∗ owns (c : Thread nD τ) arg9 fullShare acc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ owns (c : Thread nD τ) arg7 fullShare (upd_m x1 x2 x0 m) ∗ owns (c : Thread nD τ) arg8 fullShare (upd_l x1 x2 x0 m l) ∗ owns (c : Thread nD τ) arg9 fullShare (upd_acc x1 x2 x0 x3 m acc)) -∗ K ⟨⟩))
      ⊢ wp frame (wpE (defs₀ (F := F)) Variants.none c none) E (cc1__gat_kernel i arg2 harg2 arg3 harg3 arg4 harg4 arg5 harg5 arg6 harg6 arg7 harg7 arg8 harg8 arg9 harg9) K := by
  simp only [cc1__gat_kernel_eq_skeleton]; unfold cc1__gat_kernel_skel
  unfold owns
  iintro ⟨⟨%f0, %hf0, H0⟩, ⟨%f1, %hf1, H1⟩, ⟨%f2, %hf2, H2⟩, ⟨%f3, %hf3, H3⟩, ⟨%fo, %hfo, Ho⟩, ⟨%f7, %hf7, H7⟩, ⟨%f8, %hf8, H8⟩, ⟨%f9, %hf9, H9⟩, Hk⟩
  subst hf0 hf1 hf2 hf3 hfo hf7 hf8 hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Ho]
  · iexists fo; isplitr; · ipureintro; rfl
    iexact Ho
  isplitl [H7]
  · iexists _; isplitr
    swap; · iexact H7
    ipureintro
    rw [read_writes_whole]
    unfold sound_kernel1_B.sl.r
    repeat rw [readAt_whole]
    try rfl
  isplitl [H8]
  · iexists _; isplitr
    swap; · iexact H8
    ipureintro
    rw [read_writes_whole]
    unfold sound_kernel1_B.sl.r_3
    repeat rw [readAt_whole]
    try rfl
  iexists _; isplitr
  swap; · iexact H9
  ipureintro
  rw [read_writes_whole]
  unfold sound_kernel1_B.sl.r_1 sound_kernel1_B.sl.r_2
  repeat rw [readAt_whole]
  try rfl

set_option maxHeartbeats 4000000 in
/-- The body at a point that finishes: from the carried state it leaves the update, and the output block computed from it. -/
theorem sound_kernel1_C (c : Dev nD) (E : Set ℕ) (i : grid1.Coords) (arg2 : Memref sig .tc .vmem S1024x2048 .i32) (harg2 : arg2.IsWhole) (arg3 : Memref sig .tc .vmem S1024x1 .f32) (harg3 : arg3.IsWhole) (arg4 : Memref sig .tc .vmem S1x2048 .f32) (harg4 : arg4.IsWhole) (arg5 : Memref sig .tc .vmem S2048x256 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole)
    (hc0 : ¬ cond1_0 i) (hc1 : cond1_1 i) (x0 : Vec F S1024x2048 .i32) (x1 : Vec F S1024x1 .f32) (x2 : Vec F S1x2048 .f32) (x3 : Vec F S2048x256 .f32)
    (m l : Vec F S1024x1 .f32) (acc : Vec F S1024x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ owns (c : Thread nD τ) arg7 fullShare m ∗ owns (c : Thread nD τ) arg8 fullShare l ∗ owns (c : Thread nD τ) arg9 fullShare acc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (fin_out (upd_acc x1 x2 x0 x3 m acc) (upd_l x1 x2 x0 m l))
            ∗ owns (c : Thread nD τ) arg7 fullShare (upd_m x1 x2 x0 m) ∗ owns (c : Thread nD τ) arg8 fullShare (upd_l x1 x2 x0 m l) ∗ owns (c : Thread nD τ) arg9 fullShare (upd_acc x1 x2 x0 x3 m acc)) -∗ K ⟨⟩))
      ⊢ wp frame (wpE (defs₀ (F := F)) Variants.none c none) E (cc1__gat_kernel i arg2 harg2 arg3 harg3 arg4 harg4 arg5 harg5 arg6 harg6 arg7 harg7 arg8 harg8 arg9 harg9) K := by
  simp only [cc1__gat_kernel_eq_skeleton]; unfold cc1__gat_kernel_skel
  unfold owns
  iintro ⟨⟨%f0, %hf0, H0⟩, ⟨%f1, %hf1, H1⟩, ⟨%f2, %hf2, H2⟩, ⟨%f3, %hf3, H3⟩, ⟨%dd, %fo, -, Ho⟩, ⟨%f7, %hf7, H7⟩, ⟨%f8, %hf8, H8⟩, ⟨%f9, %hf9, H9⟩, Hk⟩
  subst hf0 hf1 hf2 hf3 hf7 hf8 hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Ho]
  · iexists _; isplitr
    swap; · iexact Ho
    ipureintro
    rw [read_writes_whole]
    unfold sound_kernel1_C.sl.v56 sound_kernel1_C.sl.v57 sound_kernel1_C.sl.H9_1 sound_kernel1_C.sl.H8_1
    repeat rw [View.readCov_cons_toLoadRect]
    unfold sound_kernel1_C.sl.r_1 sound_kernel1_C.sl.r_2 sound_kernel1_C.sl.r_3
    repeat rw [readAt_whole]
    try rfl
  isplitl [H7]
  · iexists _; isplitr
    swap; · iexact H7
    ipureintro
    rw [read_writes_whole]
    unfold sound_kernel1_C.sl.r
    repeat rw [readAt_whole]
    try rfl
  isplitl [H8]
  · iexists _; isplitr
    swap; · iexact H8
    ipureintro
    unfold sound_kernel1_C.sl.H8_1
    rw [read_writes_whole]
    unfold sound_kernel1_C.sl.r_3
    repeat rw [readAt_whole]
    try rfl
  · iexists _; isplitr
    swap; · iexact H9
    ipureintro
    unfold sound_kernel1_C.sl.H9_1
    rw [read_writes_whole]
    unfold sound_kernel1_C.sl.r_1 sound_kernel1_C.sl.r_2
    repeat rw [readAt_whole]
    try rfl

/-! ## The carried scratch and the region invariant -/

/-- The three scratch operands, whole scoped buffers: running maximum, running sum, accumulator. -/
abbrev scM0 : Memref sig .tc .vmem S1024x1 .f32 := Memref.whole cc1_scratch0
abbrev scM1 : Memref sig .tc .vmem S1024x1 .f32 := Memref.whole cc1_scratch1
abbrev scM2 : Memref sig .tc .vmem S1024x256 .f32 := Memref.whole cc1_scratch2

/-- The core's scoped buffers this region neither stages through nor uses as scratch, each at some contents. -/
def restA (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f))

/-- The invariant with the three scratch buffers at the propositions `X0`, `X1`, `X2`. -/
abbrev PhiFlat (c : Dev nD) (X0 X1 X2 : sProp 𝕄) : sProp 𝕄 :=
  iprop(restA (F := F) c ∗ X0 ∗ X1 ∗ X2 ∗ (∃ r, prngReg c r))

/-- What the launch hands the region, the scratch buffers singled out. -/
theorem PhiA1_split (c : Dev nD) :
    (Pipeline.ΦA spec1 c : sProp 𝕄) ⊢ PhiFlat c iprop(∃ d, owns (c : Thread nD τ) scM0 fullShare d) iprop(∃ d, owns (c : Thread nD τ) scM1 fullShare d) iprop(∃ d, owns (c : Thread nD τ) scM2 fullShare d) := by
  unfold Pipeline.ΦA PhiFlat restA; rw [scopedRest1_eq]; simp only [scM0, scM1, scM2, owns_whole]
  iintro ⟨⟨H1, H2, H3, H4, H5, H6, H7, H8, H9, H10, S0, S1, S2⟩, Hg⟩
  isplitl [H1 H2 H3 H4 H5 H6 H7 H8 H9 H10]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [S0]; · iexact S0
  isplitl [S1]; · iexact S1
  isplitl [S2]; · iexact S2
  iexact Hg

/-- and back. -/
theorem PhiA1_join (c : Dev nD) :
    PhiFlat c iprop(∃ d, owns (c : Thread nD τ) scM0 fullShare d) iprop(∃ d, owns (c : Thread nD τ) scM1 fullShare d) iprop(∃ d, owns (c : Thread nD τ) scM2 fullShare d) ⊢ (Pipeline.ΦA spec1 c : sProp 𝕄) := by
  unfold Pipeline.ΦA PhiFlat restA; rw [scopedRest1_eq]; simp only [scM0, scM1, scM2, owns_whole]
  iintro ⟨⟨H1, H2, H3, H4, H5, H6, H7, H8, H9, H10⟩, S0, S1, S2, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    iexact S2
  iexact Hg

/-- The region invariant before position `n`: before the first point what the launch hands over; afterwards
    the three scratch buffers at the carried state the point before left. -/
def PhiS (c : Dev nD) : (n : ℕ) → n ≤ cfg1.N → sProp 𝕄
  | 0, _ => Pipeline.ΦA spec1 c
  | n + 1, hn => PhiFlat c (owns (c : Thread nD τ) scM0 fullShare (stateAt1 V c n hn).1) (owns (c : Thread nD τ) scM1 fullShare (stateAt1 V c n hn).2.1) (owns (c : Thread nD τ) scM2 fullShare (stateAt1 V c n hn).2.2)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = PhiFlat c (owns (c : Thread nD τ) scM0 fullShare (stateAt1 V c n hn).1) (owns (c : Thread nD τ) scM1 fullShare (stateAt1 V c n hn).2.1) (owns (c : Thread nD τ) scM2 fullShare (stateAt1 V c n hn).2.2) := rfl

theorem PhiS_pos (c : Dev nD) (n : ℕ) (h : n ≤ cfg1.N) (hz : n ≠ 0) :
    PhiS V c n h = PhiFlat c (owns (c : Thread nD τ) scM0 fullShare (stateAt1 V c (n - 1) (by omega)).1) (owns (c : Thread nD τ) scM1 fullShare (stateAt1 V c (n - 1) (by omega)).2.1) (owns (c : Thread nD τ) scM2 fullShare (stateAt1 V c (n - 1) (by omega)).2.2) := by
  cases n with
  | zero => exact absurd rfl hz
  | succ n => rfl

/-! ## The pipeline's proof data -/

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => fin_out (stateAt1 V c t.val t.isLt).2.2 (stateAt1 V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = fin_out (stateAt1 V c t.val t.isLt).2.2 (stateAt1 V c t.val t.isLt).2.1 := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' buffers hold their blocks; the closed forms of the two conditions say which
    case the point is in; the invariant hands over the three scratch buffers at the carried state the point before
    left (at anything before the first point) and takes them back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  have hN : t.val < 32 := lt_of_lt_of_eq t.isLt (show cfg1.N = 32 from N_1)
  by_cases h0 : t.val % 4 = 0
  · have h1 : ¬ t.val % 4 = 3 := by omega
    rw [Dat.leavesExact_idle (dat1 V c) 4 t (idleAt1_4 t h1) (noFlush1_4 t h1)]
    rw [stateAt1_reset V c t h0]; dsimp only
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩⟩
      ihave HΦ' := (PhiA1_split (F := F) c) $$ HΦ; icases HΦ' with ⟨HR, S0, S1, S2, Hg⟩
      iapply (sound_kernel1_A c Set.univ (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      iintro ⟨H0, H1, H2, H3, H4, S0, S1, S2⟩
      isplitl [HR S0 S1 S2 Hg]
      · isplitl [HR]; · iexact HR
        isplitl [S0]; · iexact S0
        isplitl [S1]; · iexact S1
        isplitl [S2]; · iexact S2
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨HR, S0, S1, S2, Hg⟩, Ho, ⟨%d0, H0⟩, ⟨%d1, H1⟩, ⟨%d2, H2⟩, ⟨%d3, H3⟩, ⟨%d4, H4⟩⟩
      iapply (sound_kernel1_A c Set.univ (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexact H4
      isplitl [S0]; · iexists _; iexact S0
      isplitl [S1]; · iexists _; iexact S1
      isplitl [S2]; · iexists _; iexact S2
      iintro ⟨H0, H1, H2, H3, H4, S0, S1, S2⟩
      isplitl [HR S0 S1 S2 Hg]
      · isplitl [HR]; · iexact HR
        isplitl [S0]; · iexact S0
        isplitl [S1]; · iexact S1
        isplitl [S2]; · iexact S2
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    rw [stateAt1_step V c t h0]; dsimp only
    rw [PhiS_castSucc V c t, PhiS_pos V c _ _ hz]
    by_cases h1 : t.val % 4 = 3
    · rw [show (dat1 V c).leavesExact 4 t = owns (c : Thread nD τ) (st1_4 t) fullShare ((dat1 V c).after 4 t) from by
        unfold Dat.leavesExact; rw [liveAt1_4 t h1], after1_4]
      rw [stateAt1_step V c t h0]; dsimp only
      iintro ⟨⟨HR, S0, S1, S2, Hg⟩, Ho, ⟨%d0, H0⟩, ⟨%d1, H1⟩, ⟨%d2, H2⟩, ⟨%d3, H3⟩, ⟨%d4, H4⟩⟩
      iapply (sound_kernel1_C c Set.univ (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _ _)
      isplitl [H0]; · iexact H0
      isplitl [H1]; · iexact H1
      isplitl [H2]; · iexact H2
      isplitl [H3]; · iexact H3
      isplitl [H4]; · iexists _; iexact H4
      isplitl [S0]; · iexact S0
      isplitl [S1]; · iexact S1
      isplitl [S2]; · iexact S2
      iintro ⟨H0, H1, H2, H3, H4, S0, S1, S2⟩
      isplitl [HR S0 S1 S2 Hg]
      · isplitl [HR]; · iexact HR
        isplitl [S0]; · iexact S0
        isplitl [S1]; · iexact S1
        isplitl [S2]; · iexact S2
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idleAt1_4 t h1) (noFlush1_4 t h1)]
      iintro ⟨⟨HR, S0, S1, S2, Hg⟩, Ho, ⟨%d0, H0⟩, ⟨%d1, H1⟩, ⟨%d2, H2⟩, ⟨%d3, H3⟩, ⟨%d4, H4⟩⟩
      iapply (sound_kernel1_B c Set.univ (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _ _ _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      iintro ⟨H0, H1, H2, H3, H4, S0, S1, S2⟩
      isplitl [HR S0 S1 S2 Hg]
      · isplitl [HR]; · iexact HR
        isplitl [S0]; · iexact S0
        isplitl [S1]; · iexact S1
        isplitl [S2]; · iexact S2
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives back what the launch handed over: the carried
    state's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  refine BIBase.Entails.trans ?_ (PhiA1_join c)
  unfold PhiFlat
  iintro ⟨HR, S0, S1, S2, Hg⟩
  isplitl [HR]; · iexact HR
  isplitl [S0]; · iexists _; iexact S0
  isplitl [S1]; · iexists _; iexact S1
  isplitl [S2]; · iexists _; iexact S2
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Hand

end
-- ==== Proof.KIRun.lean ====
import proofs.«149947_j1211180778248_2_alg».proof.Proof.Gen.KernelIdeal.Launch
import proofs.«149947_j1211180778248_2_alg».proof.Proof.Gen.KernelIdeal.Skeleton
import proofs.«149947_j1211180778248_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«149947_j1211180778248_2_alg».proof.Proof.Gen.KernelIdeal.Regions
import proofs.«149947_j1211180778248_2_alg».proof.Proof.KIProj
import proofs.«149947_j1211180778248_2_alg».proof.Proof.KIGat

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's three segments from the launch to the return

The projection region, the one host operation between the regions (the transpose of the second score column),
the attention region. -/

/-! ## The buffer contents at each segment boundary -/

/-- Core `c`'s buffers at launch. -/
abbrev W0 : Dev nD → Valuation τ sig (Elt F) := fun c b => m ((c : Dev nD), b)
/-- The same read at the TensorCore's references (what the projection region's proof data take). -/
abbrev V0 : (c : Dev nD) → (b : Ref sig .tc) → Buf (Elt F) ((c : Thread nD τ).loc b) := fun c b => W0 m c b
/-- At the projection region's exit: its arrays at what the pipeline leaves (the inputs as entered, each output's
    write-backs folded), every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the transpose (the attention region's entry). -/
abbrev W2 : Dev nD → Valuation τ sig (Elt F) := fun c => StableHlo.after hostOps1 (W1 m c)
/-- The same read at the TensorCore's references (what the attention region's proof data take). -/
abbrev V2 : (c : Dev nD) → (b : Ref sig .tc) → Buf (Elt F) ((c : Thread nD τ).loc b) := fun c b => W2 m c b
/-- The transpose writes its result buffer only. -/
theorem W2_of (c : Dev nD) (r : Ref sig .tc) (h : r ∉ hostOps1_W) : W2 m c (Proc.devRef .tc r) = W1 m c (Proc.devRef .tc r) :=
  StableHlo.after_of_writes_sub hostOps1 _ hostOps1_writes h
/-- At the attention region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### What the attention region finds: the projection's outputs, one of them transposed -/

theorem V2_main_v0_0 (c : Dev nD) : V2 m c main_v0_0 = (dat0 (V0 m) c).arrAt 3 cfg0.N :=
  (W2_of m c main_v0_0 (by decide)).trans (W1_arr m c 3)
theorem V2_main_v0_1 (c : Dev nD) : V2 m c main_v0_1 = (dat0 (V0 m) c).arrAt 4 cfg0.N :=
  (W2_of m c main_v0_1 (by decide)).trans (W1_arr m c 4)
theorem V2_main_v1 (c : Dev nD) :
    V2 m c main_v1 = transpose S1x8192 [1, 0] ((dat0 (V0 m) c).arrAt 5 cfg0.N) transposes_S8192x1_S1x8192_1_0 := by
  show StableHlo.after hostOps1 (W1 m c) (Proc.devRef .tc main_v1) = _
  rw [← W1_arr m c 5]
  simp only [hostOps1, StableHlo.after_cons, StableHlo.after_nil]
  exact StableHlo.unary_result main_v0_2 main_v1 _ _ _ (W1 m c)
theorem V2_main_arg1 (c : Dev nD) : V2 m c main_arg1 = m ((c : Thread nD τ).loc main_arg1) :=
  (W2_of m c main_arg1 (by decide)).trans ((W1_of_ne m c main_arg1 (by decide)).trans rfl)

/-! ### The arguments end as launched, and the result array holds what the attention region leaves -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = V2 m c main_arg1 := (W3_arr m c 0).trans (((dat1 (V2 m) c).arrAt_in 0 rfl _).trans (A_eq1 (V2 m) c 0))
    _ = m ((c : Thread nD τ).loc main_arg1) := V2_main_arg1 m c
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of m c main_arg2 (by decide)
    _ = W0 m c (Proc.devRef .tc main_arg2) := (W1_arr m c 1).trans (((dat0 (V0 m) c).arrAt_in 1 rfl _).trans (A_eq0 (V0 m) c 1))
    _ = m ((c : Thread nD τ).loc main_arg2) := rfl

theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of m c main_arg3 (by decide)
    _ = W0 m c (Proc.devRef .tc main_arg3) := (W1_arr m c 2).trans (((dat0 (V0 m) c).arrAt_in 2 rfl _).trans (A_eq0 (V0 m) c 2))
    _ = m ((c : Thread nD τ).loc main_arg3) := rfl

theorem W3_main_v2 (c : Dev nD) : W3 m c (Proc.devRef .tc main_v2) = (dat1 (V2 m) c).arrAt 4 cfg1.N :=
  W3_arr m c 4

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts,
    at nothing. -/
abbrev R (c : Dev nD) : sProp 𝕄 := iprop((∃ r, prngReg c r) ∗ ∃ W, owes (c : Thread nD τ) (0 : CellTallies nD τ sig Unit) W)
/-- The host operation as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The projection region over the thread state: entered from every unscoped buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at `W2`, left at `W3`. Its
    invariant carries three scratch buffers besides what the launch hands over: it is entered and left through the
    region's own two entailments. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (V2 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from hout1 (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m) ]
/-- @main is the run of the segments. -/
theorem main_run (c : Dev nD) : main (F := F) c = Pipeline.Seg.run (segs m) := (main_chain c).trans (by chain_rfl)

set_option backward.isDefEq.respectTransparency.types false in
/-- The whole run: from any memory with zero counters every weakly fair execution of @main on the TensorCores
    terminates, nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c =>
    ⟨(hr c _ (mem_uc main_arg0 (by decide))).trans (W3_main_arg0 m c),
     (hr c _ (mem_uc main_arg1 (by decide))).trans (W3_main_arg1 m c),
     (hr c _ (mem_uc main_arg2 (by decide))).trans (W3_main_arg2 m c),
     (hr c _ (mem_uc main_arg3 (by decide))).trans (W3_main_arg3 m c)⟩) (run_all m ρ)

end Cert.KernelIdeal.Hand

end
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.KIVal0.lean ====
/-
  What the projection kernel leaves in its three output arrays, entry by entry, on the extended reals.

  Point `t` of the grid (eight points) loads rows `1024 t … 1024 t + 1023` of `h`, all of `W` and all of `a`, and
  stores three blocks: the matrix product of the row block with `W` — rows `1024 t …` of `Wh = h W` —, and the
  products of that block with the first and with the second half of `a`, which are the same rows of `Wh a₁` and
  `Wh a₂`. A product into a zero accumulator is a plain sum over the contracted coordinate. The eight row blocks
  tile each output array, so after the last point every entry holds its sum.
-/
import proofs.«149947_j1211180778248_2_alg».proof.Proof.Spec
import proofs.«149947_j1211180778248_2_alg».proof.Proof.KIProj
import proofs.«149947_j1211180778248_2_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

/-! ## The three payloads at an index -/

/-- The first product at (r, q): the row of the block against the column of `W`. -/
theorem pay1_apply (x0 : Vec Ideal S1024x256 .f32) (x1 : Vec Ideal S256x256 .f32) (r : Fin 1024) (q : Fin 256) :
    k0_pay1 x0 x1 (ix2 r q) = ∑ k : Fin 256, x0 (ix2 r k) * x1 (ix2 k q) := by
  unfold k0_pay1
  exact Cert.LibPlainDot.matmul_zero_apply dot_S1024x256_S256x256_S1024x256_1_0_0_1_n_n rfl rfl
    (fun _ _ => rfl) (fun _ _ => rfl) rfl rfl _ x0 x1 r q

/-- The second product at (r, 0): the row of the first product against the first half of `a`. -/
theorem pay2_apply (x0 : Vec Ideal S1024x256 .f32) (x1 : Vec Ideal S256x256 .f32) (x3 : Vec Ideal S512x1 .f32) (r : Fin 1024) (u : Fin 1) :
    k0_pay2 x0 x1 x3 (ix2 r u) = ∑ k : Fin 256, k0_pay1 x0 x1 (ix2 r k) * x3 (ix2 (⟨k.val, by have := k.isLt; omega⟩ : Fin 512) (0 : Fin 1)) := by
  unfold k0_pay2
  refine (Cert.LibPlainDot.matmul_zero_apply dot_S1024x256_S256x1_S1024x1_1_0_0_1_n_n rfl rfl
    (fun _ _ => rfl) (fun _ _ => rfl) rfl rfl _ (k0_pay1 x0 x1) _ r u).trans ?_
  refine Finset.sum_congr rfl fun k _ => congrArg (k0_pay1 x0 x1 (ix2 r k) * ·) ?_
  refine extractStridedSlice_apply _ _ _ _ _ fun a => ?_
  match a with
  | ⟨0, _⟩ => simp
  | ⟨1, _⟩ => simp

/-- The third product at (r, 0): the same row against the second half of `a`. -/
theorem pay3_apply (x0 : Vec Ideal S1024x256 .f32) (x1 : Vec Ideal S256x256 .f32) (x3 : Vec Ideal S512x1 .f32) (r : Fin 1024) (u : Fin 1) :
    k0_pay3 x0 x1 x3 (ix2 r u) = ∑ k : Fin 256, k0_pay1 x0 x1 (ix2 r k) * x3 (ix2 (⟨256 + k.val, by have := k.isLt; omega⟩ : Fin 512) (0 : Fin 1)) := by
  unfold k0_pay3
  refine (Cert.LibPlainDot.matmul_zero_apply dot_S1024x256_S256x1_S1024x1_1_0_0_1_n_n rfl rfl
    (fun _ _ => rfl) (fun _ _ => rfl) rfl rfl _ (k0_pay1 x0 x1) _ r u).trans ?_
  refine Finset.sum_congr rfl fun k _ => congrArg (k0_pay1 x0 x1 (ix2 r k) * ·) ?_
  refine extractStridedSlice_apply _ _ _ _ _ fun a => ?_
  match a with
  | ⟨0, _⟩ => simp
  | ⟨1, _⟩ => simp

/-! ## The input blocks, read where the point's rectangle says -/

section Blocks

variable (V : (c : Dev nD) → (b : Ref sig .tc) → Buf (Elt Ideal) ((c : Thread nD τ).loc b))

/-- The printed index maps over the grid: the row block of `h` and of each output moves with the point; `W` and `a` stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row `r` of point `t`'s block of `h` is row `1024 t + r` of `h`. -/
theorem iblk0_0_apply (c : Dev nD) (t : Fin cfg0.N) (r : Fin 1024) (k : Fin 256) (i : Fin 8192) (hi : i.val = 1024 * t.val + r.val) :
    (iblk0 V c 0 t : Vec Ideal S1024x256 .f32) (ix2 r k) = (V c main_arg0 : S8192x256.Idx → EReal) (ix2 i k) := by
  obtain ⟨e0, e1, -⟩ := idx_facts0 t
  unfold iblk0
  rw [View.read_apply]
  show (V c main_arg0 : S8192x256.Idx → EReal) _ = _
  refine congrArg _ (funext fun a => Fin.ext ?_)
  match a with
  | ⟨0, _⟩ => show win0_0.index t (0 : Fin 2) * 1024 + 1 * r.val = i.val; rw [e0, hi]; omega
  | ⟨1, _⟩ => show win0_0.index t (1 : Fin 2) * 256 + 1 * k.val = k.val; rw [e1]; omega

/-- The block of `W` is `W`. -/
theorem iblk0_1_apply (c : Dev nD) (t : Fin cfg0.N) (k : Fin 256) (q : Fin 256) :
    (iblk0 V c 1 t : Vec Ideal S256x256 .f32) (ix2 k q) = (V c main_arg2 : S256x256.Idx → EReal) (ix2 k q) := by
  obtain ⟨-, -, e0, e1, -⟩ := idx_facts0 t
  unfold iblk0
  rw [View.read_apply]
  show (V c main_arg2 : S256x256.Idx → EReal) _ = _
  refine congrArg _ (funext fun a => Fin.ext ?_)
  match a with
  | ⟨0, _⟩ => show win0_1.index t (0 : Fin 2) * 256 + 1 * k.val = k.val; rw [e0]; omega
  | ⟨1, _⟩ => show win0_1.index t (1 : Fin 2) * 256 + 1 * q.val = q.val; rw [e1]; omega

/-- The block of `a` is `a`. -/
theorem iblk0_2_apply (c : Dev nD) (t : Fin cfg0.N) (k : Fin 512) (u : Fin 1) :
    (iblk0 V c 2 t : Vec Ideal S512x1 .f32) (ix2 k u) = (V c main_arg3 : S512x1.Idx → EReal) (ix2 k u) := by
  obtain ⟨-, -, -, -, e0, e1, -⟩ := idx_facts0 t
  unfold iblk0
  rw [View.read_apply]
  show (V c main_arg3 : S512x1.Idx → EReal) _ = _
  refine congrArg _ (funext fun a => Fin.ext ?_)
  match a with
  | ⟨0, _⟩ => show win0_2.index t (0 : Fin 2) * 512 + 1 * k.val = k.val; rw [e0]; omega
  | ⟨1, _⟩ => show win0_2.index t (1 : Fin 2) * 1 + 1 * u.val = u.val; rw [e1]; omega

end Blocks

/-! ## What a point stores, and the arrays after the last point -/

section Arrays

variable (V : (c : Dev nD) → (b : Ref sig .tc) → Buf (Elt Ideal) ((c : Thread nD τ).loc b))

/-- The three argument arrays as the region finds them, by coordinates. -/
abbrev Hc (c : Dev nD) : Fin 8192 → Fin 256 → EReal := fun i k => (V c main_arg0 : S8192x256.Idx → EReal) (ix2 i k)
abbrev Wc (c : Dev nD) : Fin 256 → Fin 256 → EReal := fun k q => (V c main_arg2 : S256x256.Idx → EReal) (ix2 k q)
abbrev Ac (c : Dev nD) : Fin 512 → EReal := fun k => (V c main_arg3 : S512x1.Idx → EReal) (ix2 k (0 : Fin 1))

/-- Row `r` of what point `t` stores into the first output is row `1024 t + r` of `h W`. -/
theorem wh_at (c : Dev nD) (t : Fin cfg0.N) (r : Fin 1024) (q : Fin 256) (i : Fin 8192) (hi : i.val = 1024 * t.val + r.val) :
    k0_pay1 (iblk0 V c 0 t) (iblk0 V c 1 t) (ix2 r q) = Cert.Spec.wh (Hc V c) (Wc V c) i q := by
  rw [pay1_apply]
  unfold Cert.Spec.wh
  exact Finset.sum_congr rfl fun k _ => by rw [iblk0_0_apply V c t r k i hi, iblk0_1_apply]

theorem s1_at (c : Dev nD) (t : Fin cfg0.N) (r : Fin 1024) (u : Fin 1) (i : Fin 8192) (hi : i.val = 1024 * t.val + r.val) :
    k0_pay2 (iblk0 V c 0 t) (iblk0 V c 1 t) (iblk0 V c 2 t) (ix2 r u) = Cert.Spec.s1 (Hc V c) (Wc V c) (Ac V c) i := by
  rw [pay2_apply]
  unfold Cert.Spec.s1 Cert.Spec.a1
  exact Finset.sum_congr rfl fun k _ => by rw [wh_at V c t r k i hi, iblk0_2_apply]

theorem s2_at (c : Dev nD) (t : Fin cfg0.N) (r : Fin 1024) (u : Fin 1) (i : Fin 8192) (hi : i.val = 1024 * t.val + r.val) :
    k0_pay3 (iblk0 V c 0 t) (iblk0 V c 1 t) (iblk0 V c 2 t) (ix2 r u) = Cert.Spec.s2 (Hc V c) (Wc V c) (Ac V c) i := by
  rw [pay3_apply]
  unfold Cert.Spec.s2 Cert.Spec.a2
  exact Finset.sum_congr rfl fun k _ => by rw [wh_at V c t r k i hi, iblk0_2_apply]

/-- The three output arrays as functions of the arguments. -/
def G3 (c : Dev nD) : S8192x256.Idx → EReal := fun idx => Cert.Spec.wh (Hc V c) (Wc V c) (idx 0) (idx 1)
def G4 (c : Dev nD) : S8192x1.Idx → EReal := fun idx => Cert.Spec.s1 (Hc V c) (Wc V c) (Ac V c) (idx 0)
def G5 (c : Dev nD) : S8192x1.Idx → EReal := fun idx => Cert.Spec.s2 (Hc V c) (Wc V c) (Ac V c) (idx 0)

theorem flushed3_eq (c : Dev nD) (t : Fin cfg0.N) :
    (dat0 V c).flushed 3 t = ((cfg0.win 3).blk t).view.read (Elt Ideal) (G3 V c) := by
  obtain ⟨-, -, -, -, -, -, e0, e1, -⟩ := idx_facts0 t
  show (cfg0.win 3).cut (grid0.coords t) ((dat0 V c).after 3 t) = _
  rw [after0_3, out0_3_eq]
  funext j
  show k0_pay1 (iblk0 V c 0 t) (iblk0 V c 1 t) j = G3 V c (((cfg0.win 3).blk t).view.emb j)
  rw [eq_ix2 j]
  unfold G3
  refine (wh_at V c t (j 0) (j 1) _ ?_).trans (congrArg _ (Fin.ext ?_))
  · show win0_3.index t (0 : Fin 2) * 1024 + 1 * (j 0).val = 1024 * t.val + (j 0).val; rw [e0]; omega
  · show (j 1).val = win0_3.index t (1 : Fin 2) * 256 + 1 * (j 1).val; rw [e1]; omega

theorem flushed4_eq (c : Dev nD) (t : Fin cfg0.N) :
    (dat0 V c).flushed 4 t = ((cfg0.win 4).blk t).view.read (Elt Ideal) (G4 V c) := by
  obtain ⟨-, -, -, -, -, -, -, -, e0, e1, -⟩ := idx_facts0 t
  show (cfg0.win 4).cut (grid0.coords t) ((dat0 V c).after 4 t) = _
  rw [after0_4, out0_4_eq]
  funext j
  show k0_pay2 (iblk0 V c 0 t) (iblk0 V c 1 t) (iblk0 V c 2 t) j = G4 V c (((cfg0.win 4).blk t).view.emb j)
  rw [eq_ix2 j]
  unfold G4
  refine s1_at V c t (j 0) (j 1) _ ?_
  show win0_4.index t (0 : Fin 2) * 1024 + 1 * (j 0).val = 1024 * t.val + (j 0).val; rw [e0]; omega

theorem flushed5_eq (c : Dev nD) (t : Fin cfg0.N) :
    (dat0 V c).flushed 5 t = ((cfg0.win 5).blk t).view.read (Elt Ideal) (G5 V c) := by
  obtain ⟨-, -, -, -, -, -, -, -, -, -, e0, e1⟩ := idx_facts0 t
  show (cfg0.win 5).cut (grid0.coords t) ((dat0 V c).after 5 t) = _
  rw [after0_5, out0_5_eq]
  funext j
  show k0_pay3 (iblk0 V c 0 t) (iblk0 V c 1 t) (iblk0 V c 2 t) j = G5 V c (((cfg0.win 5).blk t).view.emb j)
  rw [eq_ix2 j]
  unfold G5
  refine s2_at V c t (j 0) (j 1) _ ?_
  show win0_5.index t (0 : Fin 2) * 1024 + 1 * (j 0).val = 1024 * t.val + (j 0).val; rw [e0]; omega

/-- Row `i` lies in the block of point `i / 1024`. -/
def ptOf (n : ℕ) (hn : n < 8192) : Fin cfg0.N := ⟨n / 1024, by rw [show cfg0.N = 8 from N_0]; omega⟩

theorem cover3 (idx : S8192x256.Idx) :
    ∃ t : Fin cfg0.N, (cfg0.win 3).flush t = true ∧ idx ∈ ((cfg0.win 3).blk t).view.set := by
  have h0 : (idx 0).val < 8192 := (idx 0).isLt
  have h1 : (idx 1).val < 256 := (idx 1).isLt
  refine ⟨ptOf (idx 0).val h0, flush0_3 _, ?_⟩
  obtain ⟨-, -, -, -, -, -, e0, e1, -⟩ := idx_facts0 (ptOf (idx 0).val h0)
  show idx ∈ ((View.whole main_v0_0).slice (win0_3.rect (ptOf (idx 0).val h0))).set
  rw [View.set_slice_whole, Rect.mem_set_unit]
  intro a
  match a with
  | ⟨0, _⟩ =>
    show win0_3.index (ptOf (idx 0).val h0) (0 : Fin 2) * 1024 ≤ (idx 0).val ∧ (idx 0).val < win0_3.index (ptOf (idx 0).val h0) (0 : Fin 2) * 1024 + 1024
    rw [e0]; show (idx 0).val / 1024 * 1024 ≤ _ ∧ _ < (idx 0).val / 1024 * 1024 + 1024; omega
  | ⟨1, _⟩ =>
    show win0_3.index (ptOf (idx 0).val h0) (1 : Fin 2) * 256 ≤ (idx 1).val ∧ (idx 1).val < win0_3.index (ptOf (idx 0).val h0) (1 : Fin 2) * 256 + 256
    rw [e1]; omega

theorem cover4 (idx : S8192x1.Idx) :
    ∃ t : Fin cfg0.N, (cfg0.win 4).flush t = true ∧ idx ∈ ((cfg0.win 4).blk t).view.set := by
  have h0 : (idx 0).val < 8192 := (idx 0).isLt
  have h1 : (idx 1).val < 1 := (idx 1).isLt
  refine ⟨ptOf (idx 0).val h0, flush0_4 _, ?_⟩
  obtain ⟨-, -, -, -, -, -, -, -, e0, e1, -⟩ := idx_facts0 (ptOf (idx 0).val h0)
  show idx ∈ ((View.whole main_v0_1).slice (win0_4.rect (ptOf (idx 0).val h0))).set
  rw [View.set_slice_whole, Rect.mem_set_unit]
  intro a
  match a with
  | ⟨0, _⟩ =>
    show win0_4.index (ptOf (idx 0).val h0) (0 : Fin 2) * 1024 ≤ (idx 0).val ∧ (idx 0).val < win0_4.index (ptOf (idx 0).val h0) (0 : Fin 2) * 1024 + 1024
    rw [e0]; show (idx 0).val / 1024 * 1024 ≤ _ ∧ _ < (idx 0).val / 1024 * 1024 + 1024; omega
  | ⟨1, _⟩ =>
    show win0_4.index (ptOf (idx 0).val h0) (1 : Fin 2) * 1 ≤ (idx 1).val ∧ (idx 1).val < win0_4.index (ptOf (idx 0).val h0) (1 : Fin 2) * 1 + 1
    rw [e1]; omega

theorem cover5 (idx : S8192x1.Idx) :
    ∃ t : Fin cfg0.N, (cfg0.win 5).flush t = true ∧ idx ∈ ((cfg0.win 5).blk t).view.set := by
  have h0 : (idx 0).val < 8192 := (idx 0).isLt
  have h1 : (idx 1).val < 1 := (idx 1).isLt
  refine ⟨ptOf (idx 0).val h0, flush0_5 _, ?_⟩
  obtain ⟨-, -, -, -, -, -, -, -, -, -, e0, e1⟩ := idx_facts0 (ptOf (idx 0).val h0)
  show idx ∈ ((View.whole main_v0_2).slice (win0_5.rect (ptOf (idx 0).val h0))).set
  rw [View.set_slice_whole, Rect.mem_set_unit]
  intro a
  match a with
  | ⟨0, _⟩ =>
    show win0_5.index (ptOf (idx 0).val h0) (0 : Fin 2) * 1024 ≤ (idx 0).val ∧ (idx 0).val < win0_5.index (ptOf (idx 0).val h0) (0 : Fin 2) * 1024 + 1024
    rw [e0]; show (idx 0).val / 1024 * 1024 ≤ _ ∧ _ < (idx 0).val / 1024 * 1024 + 1024; omega
  | ⟨1, _⟩ =>
    show win0_5.index (ptOf (idx 0).val h0) (1 : Fin 2) * 1 ≤ (idx 1).val ∧ (idx 1).val < win0_5.index (ptOf (idx 0).val h0) (1 : Fin 2) * 1 + 1
    rw [e1]; omega

/-- THE ARRAYS after the last point. -/
theorem arr0_3 (c : Dev nD) : (dat0 V c).arrAt 3 cfg0.N = G3 V c :=
  (dat0 V c).arrAt_eq_of_cover 3 (G3 V c) (fun t _ => flushed3_eq V c t) (cover3)
theorem arr0_4 (c : Dev nD) : (dat0 V c).arrAt 4 cfg0.N = G4 V c :=
  (dat0 V c).arrAt_eq_of_cover 4 (G4 V c) (fun t _ => flushed4_eq V c t) (cover4)
theorem arr0_5 (c : Dev nD) : (dat0 V c).arrAt 5 cfg0.N = G5 V c :=
  (dat0 V c).arrAt_eq_of_cover 5 (G5 V c) (fun t _ => flushed5_eq V c t) (cover5)

end Arrays

end Cert.KernelIdeal.Val

end
-- ==== Proof.LibColumn.lean ====
/-
  A column of per-row values used against a matrix.

  A vector of length `a` written as an `[a, 1]` column (a reshape that appends a unit axis) holds, at row `i`, the
  vector's entry `i`; and an `[a, 1]` column broadcast along the second axis to `[a, b]` holds, at `(p, c)`, the
  column's entry of row `p`, whatever the column coordinate `c`. Both are read off the general index lemmas for a
  shape cast (equal row-major positions) and for a broadcast (unit axes read at 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.KIVal1Pay.lean ====
/-
  The attention kernel's per-block values read at an index, on the extended reals.

  One grid point holds a block of 1024 query rows and a block of 2048 key columns. From the row scores (a column),
  the column scores (a row) and the adjacency block it forms the masked scores; from these the new running maximum
  of each row, the factor by which the old sums shrink, the block's weights, the new running sum, the new weighted
  sum of the value rows (a matrix product into a zero accumulator is a plain sum over the contracted coordinate),
  and, at the end of a row block, the rectified quotient. Every operation but the two row reductions, the layout
  changes and the product acts entry by entry.
-/
import proofs.«149947_j1211180778248_2_alg».proof.Proof.Spec
import proofs.«149947_j1211180778248_2_alg».proof.Proof.Gen.KernelIdeal.Skeleton
import proofs.«149947_j1211180778248_2_alg».proof.Proof.LibPlainDot
import proofs.«149947_j1211180778248_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.ValueIdx
open Cert.KernelIdeal Cert.KernelIdeal.Gen

/-! ## The masked scores -/

/-- The masked score at (r, p): the leaky rectifier of the row's score plus the column's where the adjacency word is
    positive, the fill value elsewhere. -/
theorem k1pay8_apply (x1 : Vec Ideal S1024x1 .f32) (x2 : Vec Ideal S1x2048 .f32) (x0 : Vec Ideal S1024x2048 .i32)
    (r : Fin 1024) (p : Fin 2048) :
    k1_pay8 x1 x2 x0 (ix2 r p) = Scalar.select (IntOp.cmpi .sgt (x0 (ix2 r p)) 0#32)
      (Cert.Spec.leaky (x1 (ix2 r (0 : Fin 1)) + x2 (ix2 (0 : Fin 1) p))) Cert.Spec.fillW := by
  unfold k1_pay8
  simp only [shapeCast_self]
  have e1 := Cert.LibColumn.broadcastTo_a1_ab_apply x1 broadcasts_S1024x1_S1024x2048 r p
  have e2 := broadcastTo_1b_ab_apply x2 broadcasts_S1x2048_S1024x2048 r p
  show Scalar.select (IntOp.cmpi .sgt (x0 (ix2 r p)) 0#32)
      (Scalar.select (Ideal.cmp .ogt (broadcastTo S1024x2048 x1 broadcasts_S1024x1_S1024x2048 (ix2 r p) + broadcastTo S1024x2048 x2 broadcasts_S1x2048_S1024x2048 (ix2 r p)) Cert.Spec.zeroW)
        (broadcastTo S1024x2048 x1 broadcasts_S1024x1_S1024x2048 (ix2 r p) + broadcastTo S1024x2048 x2 broadcasts_S1x2048_S1024x2048 (ix2 r p))
        (Cert.Spec.slopeW * (broadcastTo S1024x2048 x1 broadcasts_S1024x1_S1024x2048 (ix2 r p) + broadcastTo S1024x2048 x2 broadcasts_S1x2048_S1024x2048 (ix2 r p))))
      Cert.Spec.fillW = _
  rw [e1, e2]
  rfl

/-! ## The running maximum -/

/-- The reduced axis's coordinate put back into a row's index. -/
theorem lift_row (r : Fin 1024) (p : Fin 2048) :
    reduces_S1024x2048_S1024.lift (ix1 r) p = (ix2 r p : S1024x2048.Idx) :=
  funext fun a => match a with | ⟨0, _⟩ => rfl | ⟨1, _⟩ => rfl

/-- The new running maximum of row r: the old one against the maximum of the row's masked scores over the block's
    columns, folded from the accumulator's word. -/
theorem k1pay9_apply (x1 : Vec Ideal S1024x1 .f32) (x2 : Vec Ideal S1x2048 .f32) (x0 : Vec Ideal S1024x2048 .i32)
    (m : Vec Ideal S1024x1 .f32) (r : Fin 1024) (u : Fin 1) :
    k1_pay9 x1 x2 x0 m (ix2 r u) = max (m (ix2 r u))
      ((Finset.univ : Finset (Fin 2048)).fold max Cert.Spec.ninfW fun p => k1_pay8 x1 x2 x0 (ix2 r p)) := by
  unfold k1_pay9
  refine (maximumf_apply _ _ _).trans (congrArg (max (m (ix2 r u))) ?_)
  refine (Cert.LibColumn.shapeCast_a_a1_apply _ shapeCasts_S1024_S1024x1 r u).trans ?_
  refine (Ideal.multiReduction_maximumf_single (k1_pay8 x1 x2 x0) 0xFF800000#32 reduces_S1024x2048_S1024 (.inl rfl) rfl (ix1 r)).trans ?_
  show (Finset.univ : Finset (Fin 2048)).fold max Cert.Spec.ninfW (k1_pay8 x1 x2 x0 ∘ reduces_S1024x2048_S1024.lift (ix1 r)) = _
  exact congrArg (fun f : Fin 2048 → EReal => (Finset.univ : Finset (Fin 2048)).fold max Cert.Spec.ninfW f) (funext fun p => congrArg (k1_pay8 x1 x2 x0) (lift_row r p))

/-! ## The rescaling factor, the weights, the running sum -/

/-- The factor by which row r's old sums shrink: the exponential of the old maximum less the new one. -/
theorem k1pay10_apply (x1 : Vec Ideal S1024x1 .f32) (x2 : Vec Ideal S1x2048 .f32) (x0 : Vec Ideal S1024x2048 .i32)
    (m m' : Vec Ideal S1024x1 .f32) (r : Fin 1024) (u : Fin 1) :
    k1_pay10 x1 x2 x0 m m' (ix2 r u) = Ideal.exp (m' (ix2 r u) - k1_pay9 x1 x2 x0 m (ix2 r u)) := rfl

/-- The weight at (r, p): the exponential of the masked score less the row's new maximum. -/
theorem k1pay11_apply (x1 : Vec Ideal S1024x1 .f32) (x2 : Vec Ideal S1x2048 .f32) (x0 : Vec Ideal S1024x2048 .i32)
    (m : Vec Ideal S1024x1 .f32) (r : Fin 1024) (p : Fin 2048) :
    k1_pay11 x1 x2 x0 m (ix2 r p) = Ideal.exp (k1_pay8 x1 x2 x0 (ix2 r p) - k1_pay9 x1 x2 x0 m (ix2 r (0 : Fin 1))) := by
  unfold k1_pay11
  have e := Cert.LibColumn.broadcastTo_a1_ab_apply (k1_pay9 x1 x2 x0 m) broadcasts_S1024x1_S1024x2048 r p
  show Ideal.exp (k1_pay8 x1 x2 x0 (ix2 r p) - broadcastTo S1024x2048 (k1_pay9 x1 x2 x0 m) broadcasts_S1024x1_S1024x2048 (ix2 r p)) = _
  rw [e]

/-- The new running sum of row r: the old one rescaled, plus the row's weights over the block's columns. -/
theorem k1pay12_apply (x1 : Vec Ideal S1024x1 .f32) (x2 : Vec Ideal S1x2048 .f32) (x0 : Vec Ideal S1024x2048 .i32)
    (m m' l : Vec Ideal S1024x1 .f32) (r : Fin 1024) (u : Fin 1) :
    k1_pay12 x1 x2 x0 m m' l (ix2 r u) = k1_pay10 x1 x2 x0 m m' (ix2 r u) * l (ix2 r u)
      + ∑ p : Fin 2048, k1_pay11 x1 x2 x0 m (ix2 r p) := by
  unfold k1_pay12
  refine (addf_apply _ _ _).trans ?_
  refine congrArg₂ (· + ·) (mulf_apply _ _ _) ?_
  refine (Cert.LibColumn.shapeCast_a_a1_apply _ shapeCasts_S1024_S1024x1 r u).trans ?_
  refine (Ideal.multiReduction_add_single (k1_pay11 x1 x2 x0 m) 0x00000000#32 reduces_S1024x2048_S1024 (.inl rfl) rfl (ix1 r)).trans ?_
  show ∑ p : Fin 2048, k1_pay11 x1 x2 x0 m (reduces_S1024x2048_S1024.lift (ix1 r) p) = _
  exact Finset.sum_congr rfl fun p _ => congrArg (k1_pay11 x1 x2 x0 m) (lift_row r p)

/-! ## The weighted sum of the value rows -/

/-- The new accumulator at (r, c): the old one rescaled by the row's factor, plus the row's weights against column c
    of the value block. The operands' narrowing is the identity on the extended reals. -/
theorem k1pay2_apply (al : FVec Ideal S1024x1 .f32) (P : FVec Ideal S1024x2048 .f32) (x3 : Vec Ideal S2048x256 .f32)
    (acc : Vec Ideal S1024x256 .f32) (r : Fin 1024) (cc : Fin 256) :
    k1_pay2 al P x3 acc (ix2 r cc) = al (ix2 r (0 : Fin 1)) * acc (ix2 r cc)
      + ∑ p : Fin 2048, P (ix2 r p) * x3 (ix2 p cc) := by
  unfold k1_pay2
  simp only [shapeCast_self]
  refine (addf_apply _ _ _).trans ?_
  refine congrArg₂ (· + ·) ?_ ?_
  · refine (mulf_apply _ _ _).trans ?_
    exact congrArg (· * acc (ix2 r cc)) (Cert.LibColumn.broadcastTo_a1_ab_apply al broadcasts_S1024x1_S1024x256 r cc)
  · exact Cert.LibPlainDot.matmul_zero_apply dot_S1024x2048_S2048x256_S1024x256_1_0_0_1_n_n rfl rfl
      (fun _ _ => rfl) (fun _ _ => rfl) rfl rfl none (truncf .bf16 P bitsLt_bf16_f32) (truncf .bf16 x3 bitsLt_bf16_f32) r cc

/-! ## The output block -/

/-- The output at (r, c): the kernel's rectifier of the accumulator over the row's sum. -/
theorem k1pay4_apply (acc : Vec Ideal S1024x256 .f32) (l : Vec Ideal S1024x1 .f32) (r : Fin 1024) (cc : Fin 256) :
    k1_pay4 acc l (ix2 r cc) = Cert.Spec.eluK (Ideal.div (acc (ix2 r cc)) (l (ix2 r (0 : Fin 1)))) := by
  unfold k1_pay4
  have e := Cert.LibColumn.broadcastTo_a1_ab_apply l broadcasts_S1024x1_S1024x256 r cc
  show Scalar.select (Ideal.cmp .ogt (Ideal.div (acc (ix2 r cc)) (broadcastTo S1024x256 l broadcasts_S1024x1_S1024x256 (ix2 r cc))) Cert.Spec.zeroW)
      (Ideal.div (acc (ix2 r cc)) (broadcastTo S1024x256 l broadcasts_S1024x1_S1024x256 (ix2 r cc)))
      (Ideal.exp (Ideal.div (acc (ix2 r cc)) (broadcastTo S1024x256 l broadcasts_S1024x1_S1024x256 (ix2 r cc))) - Cert.Spec.oneW) = _
  rw [e]
  rfl

/-! ## The reset values and the two same-shape casts -/

theorem k1pay5_apply (j : S1024x1.Idx) : k1_pay5 (F := Ideal) j = Cert.Spec.ninfW := by
  unfold k1_pay5; simp only [shapeCast_self]; rfl
theorem k1pay6_apply (j : S1024x1.Idx) : k1_pay6 (F := Ideal) j = Cert.Spec.zeroW := by
  unfold k1_pay6; simp only [shapeCast_self]; rfl
theorem k1pay7_apply (j : S1024x256.Idx) : k1_pay7 (F := Ideal) j = Cert.Spec.zeroW := by
  unfold k1_pay7; simp only [shapeCast_self]; rfl
theorem k1pay1_eq (v : FVec Ideal S1024x1 .f32) : k1_pay1 v = v := by
  unfold k1_pay1; exact shapeCast_self _ _
theorem k1pay3_eq (v : FVec Ideal S1024x1 .f32) : k1_pay3 v = v := by
  unfold k1_pay3; exact shapeCast_self _ _

end Cert.KernelIdeal.Val

end
-- ==== Proof.KIVal1Blk.lean ====
/-
  The attention kernel's blocks, read where each point's rectangle says, and the cover of its output array.

  The grid has 32 points; point `t` works on the query block `t / 4` (1024 rows) and the key block `t % 4` (2048
  columns). It loads the 1024 × 2048 block of the adjacency at (t / 4, t % 4), the 1024 source scores of its query
  rows, the 2048 target scores of its key columns and the 2048 rows of projected features of its key columns, and it
  stores the 1024 × 256 block of the output at query block `t / 4`, which is written back exactly at the last key
  block (`t % 4 = 3`). The eight such points tile the output array.
-/
import proofs.«149947_j1211180778248_2_alg».proof.Proof.KIGat
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

section Blocks1

variable (V : (c : Dev nD) → (b : Ref sig .tc) → Buf (Elt Ideal) ((c : Thread nD τ).loc b))

/-- The printed index maps over the grid: the adjacency block moves with both coordinates of the point, the source
    scores and the output with the query block, the target scores and the projected features with the key block. -/
theorem idx_facts1 : ∀ t : Fin cfg1.N, win1_0.index t (0 : Fin 2) = t.val / 4 ∧ win1_0.index t (1 : Fin 2) = t.val % 4
    ∧ win1_1.index t (0 : Fin 2) = t.val / 4 ∧ win1_1.index t (1 : Fin 2) = 0
    ∧ win1_2.index t (0 : Fin 2) = 0 ∧ win1_2.index t (1 : Fin 2) = t.val % 4
    ∧ win1_3.index t (0 : Fin 2) = t.val % 4 ∧ win1_3.index t (1 : Fin 2) = 0
    ∧ win1_4.index t (0 : Fin 2) = t.val / 4 ∧ win1_4.index t (1 : Fin 2) = 0 :=
  (by decide +kernel : ∀ t : Fin grid1.N, _)

/-- Entry (r, p) of point `t`'s adjacency block is entry (1024 (t / 4) + r, 2048 (t % 4) + p) of the adjacency. -/
theorem iblk1_0_apply (c : Dev nD) (t : Fin cfg1.N) (r : Fin 1024) (p : Fin 2048) (i j : Fin 8192)
    (hi : i.val = 1024 * (t.val / 4) + r.val) (hj : j.val = 2048 * (t.val % 4) + p.val) :
    (iblk1 V c 0 t : Vec Ideal S1024x2048 .i32) (ix2 r p) = (V c main_arg1 : S8192x8192.Idx → BitVec 32) (ix2 i j) := by
  obtain ⟨e0, e1, -⟩ := idx_facts1 t
  unfold iblk1
  rw [View.read_apply]
  show (V c main_arg1 : S8192x8192.Idx → BitVec 32) _ = _
  refine congrArg _ (funext fun a => Fin.ext ?_)
  match a with
  | ⟨0, _⟩ => show win1_0.index t (0 : Fin 2) * 1024 + 1 * r.val = i.val; rw [e0, hi]; omega
  | ⟨1, _⟩ => show win1_0.index t (1 : Fin 2) * 2048 + 1 * p.val = j.val; rw [e1, hj]; omega

/-- Row `r` of point `t`'s block of source scores is row 1024 (t / 4) + r of the source scores. -/
theorem iblk1_1_apply (c : Dev nD) (t : Fin cfg1.N) (r : Fin 1024) (u : Fin 1) (i : Fin 8192)
    (hi : i.val = 1024 * (t.val / 4) + r.val) :
    (iblk1 V c 1 t : Vec Ideal S1024x1 .f32) (ix2 r u) = (V c main_v0_1 : S8192x1.Idx → EReal) (ix2 i (0 : Fin 1)) := by
  obtain ⟨-, -, e0, e1, -⟩ := idx_facts1 t
  unfold iblk1
  rw [View.read_apply]
  show (V c main_v0_1 : S8192x1.Idx → EReal) _ = _
  refine congrArg _ (funext fun a => Fin.ext ?_)
  match a with
  | ⟨0, _⟩ => show win1_1.index t (0 : Fin 2) * 1024 + 1 * r.val = i.val; rw [e0, hi]; omega
  | ⟨1, _⟩ => show win1_1.index t (1 : Fin 2) * 1 + 1 * u.val = 0; rw [e1]; omega

/-- Column `p` of point `t`'s block of target scores is column 2048 (t % 4) + p of the target scores. -/
theorem iblk1_2_apply (c : Dev nD) (t : Fin cfg1.N) (u : Fin 1) (p : Fin 2048) (j : Fin 8192)
    (hj : j.val = 2048 * (t.val % 4) + p.val) :
    (iblk1 V c 2 t : Vec Ideal S1x2048 .f32) (ix2 u p) = (V c main_v1 : S1x8192.Idx → EReal) (ix2 (0 : Fin 1) j) := by
  obtain ⟨-, -, -, -, e0, e1, -⟩ := idx_facts1 t
  unfold iblk1
  rw [View.read_apply]
  show (V c main_v1 : S1x8192.Idx → EReal) _ = _
  refine congrArg _ (funext fun a => Fin.ext ?_)
  match a with
  | ⟨0, _⟩ => show win1_2.index t (0 : Fin 2) * 1 + 1 * u.val = 0; rw [e0]; omega
  | ⟨1, _⟩ => show win1_2.index t (1 : Fin 2) * 2048 + 1 * p.val = j.val; rw [e1, hj]; omega

/-- Row `p` of point `t`'s block of projected features is row 2048 (t % 4) + p of the projected features. -/
theorem iblk1_3_apply (c : Dev nD) (t : Fin cfg1.N) (p : Fin 2048) (q : Fin 256) (j : Fin 8192)
    (hj : j.val = 2048 * (t.val % 4) + p.val) :
    (iblk1 V c 3 t : Vec Ideal S2048x256 .f32) (ix2 p q) = (V c main_v0_0 : S8192x256.Idx → EReal) (ix2 j q) := by
  obtain ⟨-, -, -, -, -, -, e0, e1, -⟩ := idx_facts1 t
  unfold iblk1
  rw [View.read_apply]
  show (V c main_v0_0 : S8192x256.Idx → EReal) _ = _
  refine congrArg _ (funext fun a => Fin.ext ?_)
  match a with
  | ⟨0, _⟩ => show win1_3.index t (0 : Fin 2) * 2048 + 1 * p.val = j.val; rw [e0, hj]; omega
  | ⟨1, _⟩ => show win1_3.index t (1 : Fin 2) * 256 + 1 * q.val = q.val; rw [e1]; omega

end Blocks1

/-! ## The output array: where a block entry lands, and the points that cover it -/

/-- Entry `j` of the output block of point `t` lands at row 1024 (t / 4) + (its row), same column. -/
theorem emb1_4 (t : Fin cfg1.N) (j : ((cfg1.win 4).xblock (cfg1.grid.coords t)).Idx) :
    ((((cfg1.win 4).blk t).view.emb j) 0).val = 1024 * (t.val / 4) + (j 0).val
      ∧ ((((cfg1.win 4).blk t).view.emb j) 1).val = (j 1).val := by
  obtain ⟨-, -, -, -, -, -, -, -, e0, e1⟩ := idx_facts1 t
  constructor
  · show win1_4.index t (0 : Fin 2) * 1024 + 1 * (j 0).val = 1024 * (t.val / 4) + (j 0).val; rw [e0]; omega
  · show win1_4.index t (1 : Fin 2) * 256 + 1 * (j 1).val = (j 1).val; rw [e1]; omega

/-- Row `n` lies in the output block of the last key step of query block `n / 1024`. -/
def ptOf1 (n : ℕ) (hn : n < 8192) : Fin cfg1.N := ⟨4 * (n / 1024) + 3, by rw [show cfg1.N = 32 from N_1]; omega⟩

/-- Every entry of the output array lies in a block that is written back. -/
theorem cover1_4 (idx : S8192x256.Idx) :
    ∃ t : Fin cfg1.N, (cfg1.win 4).flush t = true ∧ idx ∈ ((cfg1.win 4).blk t).view.set := by
  have h0 : (idx 0).val < 8192 := (idx 0).isLt
  have h1 : (idx 1).val < 256 := (idx 1).isLt
  refine ⟨ptOf1 (idx 0).val h0, (flush1_4 _).2 ?_, ?_⟩
  · show (4 * ((idx 0).val / 1024) + 3) % 4 = 3; omega
  obtain ⟨-, -, -, -, -, -, -, -, e0, e1⟩ := idx_facts1 (ptOf1 (idx 0).val h0)
  show idx ∈ ((View.whole main_v2).slice (win1_4.rect (ptOf1 (idx 0).val h0))).set
  rw [View.set_slice_whole, Rect.mem_set_unit]
  intro a
  match a with
  | ⟨0, _⟩ =>
    show win1_4.index (ptOf1 (idx 0).val h0) (0 : Fin 2) * 1024 ≤ (idx 0).val ∧ (idx 0).val < win1_4.index (ptOf1 (idx 0).val h0) (0 : Fin 2) * 1024 + 1024
    rw [e0]; show (4 * ((idx 0).val / 1024) + 3) / 4 * 1024 ≤ _ ∧ _ < (4 * ((idx 0).val / 1024) + 3) / 4 * 1024 + 1024; omega
  | ⟨1, _⟩ =>
    show win1_4.index (ptOf1 (idx 0).val h0) (1 : Fin 2) * 256 ≤ (idx 1).val ∧ (idx 1).val < win1_4.index (ptOf1 (idx 0).val h0) (1 : Fin 2) * 256 + 256
    rw [e1]; omega

end Cert.KernelIdeal.Val

end
-- ==== Proof.KIVal1.lean ====
/-
  What the attention kernel leaves in its output array, entry by entry, on the extended reals.

  A row of the output belongs to one query block, which the grid visits at four consecutive points, one per block of
  2048 key columns. The carried state of the row — running maximum, running sum, running weighted sum of the value
  rows — is reset at the first of the four points and updated at each; after the update at key block n it is the
  specification's state after chunk n, by induction on n: the masked scores of the block are the specification's
  masked scores of the pairs (row, column 2048 n + p), because each loaded block is the matching piece of its array.
  At the fourth point the block stored is the rectified quotient of the final weighted sum by the final sum, and that
  block is written back; the eight query blocks tile the output array.
-/
import proofs.«149947_j1211180778248_2_alg».proof.Proof.Spec
import proofs.«149947_j1211180778248_2_alg».proof.Proof.KIGat
import proofs.«149947_j1211180778248_2_alg».proof.Proof.KIVal1Pay
import proofs.«149947_j1211180778248_2_alg».proof.Proof.KIVal1Blk
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

/-! ## One update of a row's state, over the blocks of a point -/

section Update

variable (h : Fin 8192 → Fin 256 → EReal) (adj : Fin 8192 → Fin 8192 → BitVec 32)
  (W : Fin 256 → Fin 256 → EReal) (a : Fin 512 → EReal)

/-- When row r of the blocks is row i of the arrays and the blocks' columns are chunk n's, the block's masked score
    at (r, p) is the specification's masked score of the pair (i, column p of chunk n). -/
theorem score_eq (x1 : Vec Ideal S1024x1 .f32) (x2 : Vec Ideal S1x2048 .f32) (x0 : Vec Ideal S1024x2048 .i32)
    (i : Fin 8192) (n : ℕ) (r : Fin 1024)
    (h0 : ∀ p : Fin 2048, x0 (ix2 r p) = adj i (Cert.Spec.col n p))
    (h1 : x1 (ix2 r (0 : Fin 1)) = Cert.Spec.s1 h W a i)
    (h2 : ∀ p : Fin 2048, x2 (ix2 (0 : Fin 1) p) = Cert.Spec.s2 h W a (Cert.Spec.col n p)) (p : Fin 2048) :
    k1_pay8 x1 x2 x0 (ix2 r p) = Cert.Spec.logit h adj W a i (Cert.Spec.col n p) := by
  rw [k1pay8_apply, h0, h1, h2]; rfl

/-- The new running maximum of the row: the old one against the chunk's maximum. -/
theorem newmax_eq (x1 : Vec Ideal S1024x1 .f32) (x2 : Vec Ideal S1x2048 .f32) (x0 : Vec Ideal S1024x2048 .i32)
    (m : Vec Ideal S1024x1 .f32) (i : Fin 8192) (n : ℕ) (r : Fin 1024) (M : EReal)
    (h0 : ∀ p : Fin 2048, x0 (ix2 r p) = adj i (Cert.Spec.col n p))
    (h1 : x1 (ix2 r (0 : Fin 1)) = Cert.Spec.s1 h W a i)
    (h2 : ∀ p : Fin 2048, x2 (ix2 (0 : Fin 1) p) = Cert.Spec.s2 h W a (Cert.Spec.col n p))
    (hm : m (ix2 r (0 : Fin 1)) = M) :
    k1_pay9 x1 x2 x0 m (ix2 r (0 : Fin 1)) = max M (Cert.Spec.cmaxK h adj W a i n) := by
  rw [k1pay9_apply, hm]
  unfold Cert.Spec.cmaxK
  exact congrArg (max M) (congrArg (fun f : Fin 2048 → EReal => (Finset.univ : Finset (Fin 2048)).fold max Cert.Spec.ninfW f)
    (funext fun p => score_eq h adj W a x1 x2 x0 i n r h0 h1 h2 p))

/-- One update of row r's state (M, L, A) over chunk n: the maximum grows to M' = max M (the chunk's maximum); the sum
    and the weighted sum shrink by exp (M - M') and gain the chunk's weights exp (score - M'), the latter against the
    value rows. -/
theorem upd_apply (x1 : Vec Ideal S1024x1 .f32) (x2 : Vec Ideal S1x2048 .f32) (x0 : Vec Ideal S1024x2048 .i32)
    (x3 : Vec Ideal S2048x256 .f32) (m l : Vec Ideal S1024x1 .f32) (acc : Vec Ideal S1024x256 .f32)
    (i : Fin 8192) (n : ℕ) (r : Fin 1024) (M L : EReal) (A : Fin 256 → EReal)
    (h0 : ∀ p : Fin 2048, x0 (ix2 r p) = adj i (Cert.Spec.col n p))
    (h1 : x1 (ix2 r (0 : Fin 1)) = Cert.Spec.s1 h W a i)
    (h2 : ∀ p : Fin 2048, x2 (ix2 (0 : Fin 1) p) = Cert.Spec.s2 h W a (Cert.Spec.col n p))
    (h3 : ∀ (p : Fin 2048) (cc : Fin 256), x3 (ix2 p cc) = Cert.Spec.wh h W (Cert.Spec.col n p) cc)
    (hm : m (ix2 r (0 : Fin 1)) = M) (hl : l (ix2 r (0 : Fin 1)) = L) (hacc : ∀ cc : Fin 256, acc (ix2 r cc) = A cc) :
    upd_m x1 x2 x0 m (ix2 r (0 : Fin 1)) = max M (Cert.Spec.cmaxK h adj W a i n)
    ∧ upd_l x1 x2 x0 m l (ix2 r (0 : Fin 1))
        = Ideal.exp (M - max M (Cert.Spec.cmaxK h adj W a i n)) * L
          + ∑ p : Fin 2048, Ideal.exp (Cert.Spec.logit h adj W a i (Cert.Spec.col n p) - max M (Cert.Spec.cmaxK h adj W a i n))
    ∧ ∀ cc : Fin 256, upd_acc x1 x2 x0 x3 m acc (ix2 r cc)
        = Ideal.exp (M - max M (Cert.Spec.cmaxK h adj W a i n)) * A cc
          + ∑ p : Fin 2048, Ideal.exp (Cert.Spec.logit h adj W a i (Cert.Spec.col n p) - max M (Cert.Spec.cmaxK h adj W a i n))
              * Cert.Spec.wh h W (Cert.Spec.col n p) cc := by
  have e9 := newmax_eq h adj W a x1 x2 x0 m i n r M h0 h1 h2 hm
  refine ⟨?_, ?_, fun cc => ?_⟩
  · rw [upd_m_eq, k1pay3_eq]; exact e9
  · rw [upd_l_eq, k1pay1_eq, k1pay12_apply, k1pay10_apply, e9, hm, hl]
    refine congrArg _ (Finset.sum_congr rfl fun p _ => ?_)
    rw [k1pay11_apply, e9, score_eq h adj W a x1 x2 x0 i n r h0 h1 h2 p]
  · rw [upd_acc_eq, k1pay2_apply, k1pay10_apply, e9, hm, hacc]
    refine congrArg _ (Finset.sum_congr rfl fun p _ => ?_)
    rw [k1pay11_apply, e9, score_eq h adj W a x1 x2 x0 i n r h0 h1 h2 p, h3]

end Update

/-! ## The carried state along the four points of a query block -/

section State

variable (V : (c : Dev nD) → (b : Ref sig .tc) → Buf (Elt Ideal) ((c : Thread nD τ).loc b)) (c : Dev nD)
  (h : Fin 8192 → Fin 256 → EReal) (adj : Fin 8192 → Fin 8192 → BitVec 32)
  (W : Fin 256 → Fin 256 → EReal) (a : Fin 512 → EReal)
  (hadj : ∀ i j, V c main_arg1 (ValueIdx.ix2 i j) = adj i j)
  (hs1 : ∀ i, V c main_v0_1 (ValueIdx.ix2 i (0 : Fin 1)) = Cert.Spec.s1 h W a i)
  (hs2 : ∀ j, V c main_v1 (ValueIdx.ix2 (0 : Fin 1) j) = Cert.Spec.s2 h W a j)
  (hwh : ∀ j cc, V c main_v0_0 (ValueIdx.ix2 j cc) = Cert.Spec.wh h W j cc)

include hadj hs1 hs2 hwh

/-- After the point with key block n, row r of the carried state is the specification's state of row
    1024 (query block) + r after chunk n: by induction on n, the first point of a query block resetting the state. -/
theorem state_eq : ∀ (n : ℕ) (t : Fin cfg1.N), t.val % 4 = n → ∀ (r : Fin 1024) (i : Fin 8192),
    i.val = 1024 * (t.val / 4) + r.val →
    (stateAt1 V c t.val t.isLt).1 (ix2 r (0 : Fin 1)) = Cert.Spec.kM h adj W a i n
    ∧ (stateAt1 V c t.val t.isLt).2.1 (ix2 r (0 : Fin 1)) = Cert.Spec.kL h adj W a i n
    ∧ ∀ cc : Fin 256, (stateAt1 V c t.val t.isLt).2.2 (ix2 r cc) = Cert.Spec.kA h adj W a i cc n
  | 0, t, ht, r, i, hi => by
    have hcol : ∀ p : Fin 2048, (Cert.Spec.col 0 p).val = 2048 * (t.val % 4) + p.val := fun p => by
      show (2048 * 0 + p.val) % 8192 = _; have := p.isLt; omega
    have hm0 : (k1_pay5 (F := Ideal)) (ix2 r (0 : Fin 1)) = Cert.Spec.ninfW := k1pay5_apply _
    have hl0 : (k1_pay6 (F := Ideal)) (ix2 r (0 : Fin 1)) = Cert.Spec.zeroW := k1pay6_apply _
    have ha0 : ∀ cc : Fin 256, (k1_pay7 (F := Ideal)) (ix2 r cc) = (fun _ : Fin 256 => Cert.Spec.zeroW) cc := fun cc => k1pay7_apply _
    have key := upd_apply h adj W a (iblk1 V c 1 t) (iblk1 V c 2 t) (iblk1 V c 0 t) (iblk1 V c 3 t)
      (k1_pay5 (F := Ideal)) (k1_pay6 (F := Ideal)) (k1_pay7 (F := Ideal))
      i 0 r Cert.Spec.ninfW Cert.Spec.zeroW (fun _ => Cert.Spec.zeroW)
      (fun p => (iblk1_0_apply V c t r p i (Cert.Spec.col 0 p) hi (hcol p)).trans (hadj i _))
      ((iblk1_1_apply V c t r 0 i hi).trans (hs1 i))
      (fun p => (iblk1_2_apply V c t 0 p (Cert.Spec.col 0 p) (hcol p)).trans (hs2 _))
      (fun p cc => (iblk1_3_apply V c t p cc (Cert.Spec.col 0 p) (hcol p)).trans (hwh _ _))
      hm0 hl0 ha0
    rw [stateAt1_reset V c t ht]
    simp only [Cert.Spec.kM, Cert.Spec.kL, Cert.Spec.kA]
    exact key
  | n + 1, t, ht, r, i, hi => by
    have hcol : ∀ p : Fin 2048, (Cert.Spec.col (n + 1) p).val = 2048 * (t.val % 4) + p.val := fun p => by
      show (2048 * (n + 1) + p.val) % 8192 = _; have := p.isLt; omega
    have hnz : ¬ t.val % 4 = 0 := by omega
    have hlt : t.val - 1 < cfg1.N := Nat.lt_of_le_of_lt (Nat.sub_le _ _) t.isLt
    obtain ⟨eM, eL, eA⟩ := state_eq n ⟨t.val - 1, hlt⟩ (by show (t.val - 1) % 4 = n; omega) r i
      (by show i.val = 1024 * ((t.val - 1) / 4) + r.val; omega)
    rw [stateAt1_step V c t hnz]
    exact upd_apply h adj W a (iblk1 V c 1 t) (iblk1 V c 2 t) (iblk1 V c 0 t) (iblk1 V c 3 t)
      (stateAt1 V c (t.val - 1) hlt).1 (stateAt1 V c (t.val - 1) hlt).2.1 (stateAt1 V c (t.val - 1) hlt).2.2
      i (n + 1) r (Cert.Spec.kM h adj W a i n) (Cert.Spec.kL h adj W a i n) (fun cc => Cert.Spec.kA h adj W a i cc n)
      (fun p => (iblk1_0_apply V c t r p i (Cert.Spec.col (n + 1) p) hi (hcol p)).trans (hadj i _))
      ((iblk1_1_apply V c t r 0 i hi).trans (hs1 i))
      (fun p => (iblk1_2_apply V c t 0 p (Cert.Spec.col (n + 1) p) (hcol p)).trans (hs2 _))
      (fun p cc => (iblk1_3_apply V c t p cc (Cert.Spec.col (n + 1) p) (hcol p)).trans (hwh _ _))
      eM eL eA

end State

/-! ## The block written back, and the array after the last point -/

section Final

variable (V : (c : Dev nD) → (b : Ref sig .tc) → Buf (Elt Ideal) ((c : Thread nD τ).loc b)) (c : Dev nD)
  (h : Fin 8192 → Fin 256 → EReal) (adj : Fin 8192 → Fin 8192 → BitVec 32)
  (W : Fin 256 → Fin 256 → EReal) (a : Fin 512 → EReal)
  (hadj : ∀ i j, V c main_arg1 (ValueIdx.ix2 i j) = adj i j)
  (hs1 : ∀ i, V c main_v0_1 (ValueIdx.ix2 i (0 : Fin 1)) = Cert.Spec.s1 h W a i)
  (hs2 : ∀ j, V c main_v1 (ValueIdx.ix2 (0 : Fin 1) j) = Cert.Spec.s2 h W a j)
  (hwh : ∀ j cc, V c main_v0_0 (ValueIdx.ix2 j cc) = Cert.Spec.wh h W j cc)

/-- The output array as a function of the arguments. -/
def G1 : S8192x256.Idx → EReal := fun idx => Cert.Spec.kerOut h adj W a (idx 0) (idx 1)

include hadj hs1 hs2 hwh

/-- At the last key block of a query block, entry (r, q) of the stored block is the specification's output at row
    1024 (query block) + r, column q. -/
theorem out_at (t : Fin cfg1.N) (h3 : t.val % 4 = 3) (r : Fin 1024) (q : Fin 256) (i : Fin 8192) (q' : Fin 256)
    (hi : i.val = 1024 * (t.val / 4) + r.val) (hq : q'.val = q.val) :
    k1_pay4 (stateAt1 V c t.val t.isLt).2.2 (stateAt1 V c t.val t.isLt).2.1 (ix2 r q) = Cert.Spec.kerOut h adj W a i q' := by
  obtain rfl : q' = q := Fin.ext hq
  obtain ⟨sM, sL, sA⟩ := state_eq V c h adj W a hadj hs1 hs2 hwh 3 t h3 r i hi
  rw [k1pay4_apply, sA, sL]
  rfl

/-- What a point of the last key block writes back is its block of the output function. -/
theorem flushed1_4_eq (t : Fin cfg1.N) (hf : (cfg1.win 4).flush t = true) :
    (dat1 V c).flushed 4 t = ((cfg1.win 4).blk t).view.read (Elt Ideal) (G1 h adj W a) := by
  have h3 : t.val % 4 = 3 := (flush1_4 t).1 hf
  show (cfg1.win 4).cut (grid1.coords t) ((dat1 V c).after 4 t) = _
  rw [after1_4, fin_out_eq]
  funext j
  show k1_pay4 (stateAt1 V c t.val t.isLt).2.2 (stateAt1 V c t.val t.isLt).2.1 j = G1 h adj W a (((cfg1.win 4).blk t).view.emb j)
  obtain ⟨e0, e1⟩ := emb1_4 t j
  obtain ⟨r, q, rfl⟩ : ∃ (r : Fin 1024) (q : Fin 256), j = ix2 r q := ⟨j 0, j 1, eq_ix2 j⟩
  unfold G1
  exact out_at V c h adj W a hadj hs1 hs2 hwh t h3 r q _ _ e0 e1

end Final

/-- THE OUTPUT ARRAY after the last point, entry by entry. -/
theorem arr1_4 (V : (c : Dev nD) → (b : Ref sig .tc) → Buf (Elt Ideal) ((c : Thread nD τ).loc b)) (c : Dev nD)
    (h : Fin 8192 → Fin 256 → EReal) (adj : Fin 8192 → Fin 8192 → BitVec 32) (W : Fin 256 → Fin 256 → EReal) (a : Fin 512 → EReal)
    (hadj : ∀ i j, V c main_arg1 (ValueIdx.ix2 i j) = adj i j)
    (hs1 : ∀ i, V c main_v0_1 (ValueIdx.ix2 i (0 : Fin 1)) = Cert.Spec.s1 h W a i)
    (hs2 : ∀ j, V c main_v1 (ValueIdx.ix2 (0 : Fin 1) j) = Cert.Spec.s2 h W a j)
    (hwh : ∀ j cc, V c main_v0_0 (ValueIdx.ix2 j cc) = Cert.Spec.wh h W j cc)
    (i : Fin 8192) (cc : Fin 256) :
    (dat1 (F := Ideal) V c).arrAt 4 cfg1.N (ValueIdx.ix2 i cc) = Cert.Spec.kerOut h adj W a i cc := by
  have hG := (dat1 V c).arrAt_eq_of_cover 4 (G1 h adj W a)
    (flushed1_4_eq V c h adj W a hadj hs1 hs2 hwh) cover1_4
  exact congrFun hG (ix2 i cc)

end Cert.KernelIdeal.Val

end
-- ==== Proof.KIOut.lean ====
/-
  The kernel's program as one run: from the launch memory every execution ends with the result array holding, entry
  by entry, the kernel's closed form of the four argument arrays, and the arguments as launched.

  The projection region leaves `Wh = h W`, `Wh a₁` and `Wh a₂` in its three output arrays; the one host operation
  transposes the last; the attention region reads the adjacency argument, those three arrays (the last through the
  transpose) and leaves the closed form in the result array.
-/
import proofs.«149947_j1211180778248_2_alg».proof.Proof.Spec
import proofs.«149947_j1211180778248_2_alg».proof.Proof.KIRun
import proofs.«149947_j1211180778248_2_alg».proof.Proof.KIVal0
import proofs.«149947_j1211180778248_2_alg».proof.Proof.KIVal1
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (m : (ℓ : Loc nD τ sig) → Buf (Elt Ideal) ℓ) (ρ : Dev nD → PrngReg)

/-- The four argument arrays of the launch memory, by coordinates. -/
abbrev Hm (c : Dev nD) : Fin 8192 → Fin 256 → EReal := fun i k => (m ((c.tc : Thread nD τ).loc main_arg0) : S8192x256.Idx → EReal) (ValueIdx.ix2 i k)
abbrev ADJm (c : Dev nD) : Fin 8192 → Fin 8192 → BitVec 32 := fun i j => (m ((c.tc : Thread nD τ).loc main_arg1) : S8192x8192.Idx → BitVec 32) (ValueIdx.ix2 i j)
abbrev Wm (c : Dev nD) : Fin 256 → Fin 256 → EReal := fun k q => (m ((c.tc : Thread nD τ).loc main_arg2) : S256x256.Idx → EReal) (ValueIdx.ix2 k q)
abbrev Am (c : Dev nD) : Fin 512 → EReal := fun k => (m ((c.tc : Thread nD τ).loc main_arg3) : S512x1.Idx → EReal) (ValueIdx.ix2 k (0 : Fin 1))

/-- The output array, as a function of the launch memory. -/
def outK (c : Dev nD) : Buf (Elt Ideal) ((c.tc : Thread nD τ).loc main_v2) :=
  fun idx => Cert.Spec.kerOut (Hm m c) (ADJm m c) (Wm m c) (Am m c) (idx 0) (idx 1)

/-! ## What the attention region finds -/

/-- The adjacency argument, untouched by the projection region and the transpose. -/
theorem found_adj (c : Dev nD) (i j : Fin 8192) : V2 m c main_arg1 (ValueIdx.ix2 i j) = ADJm m c i j :=
  (congrFun (V2_main_arg1 m c) (ValueIdx.ix2 i j)).trans rfl

/-- The projected features `h W`, as the projection region left them. -/
theorem found_wh (c : Dev nD) (j : Fin 8192) (cc : Fin 256) :
    V2 m c main_v0_0 (ValueIdx.ix2 j cc) = Cert.Spec.wh (Hm m c) (Wm m c) j cc :=
  (congrFun ((V2_main_v0_0 m c).trans (arr0_3 (V0 m) c)) (ValueIdx.ix2 j cc)).trans rfl

/-- The first score column, as the projection region left it. -/
theorem found_s1 (c : Dev nD) (i : Fin 8192) :
    V2 m c main_v0_1 (ValueIdx.ix2 i (0 : Fin 1)) = Cert.Spec.s1 (Hm m c) (Wm m c) (Am m c) i :=
  (congrFun ((V2_main_v0_1 m c).trans (arr0_4 (V0 m) c)) (ValueIdx.ix2 i (0 : Fin 1))).trans rfl

/-- The second score column, read through the transpose: entry (0, j) of the row is entry (j, 0) of the column. -/
theorem found_s2 (c : Dev nD) (j : Fin 8192) :
    V2 m c main_v1 (ValueIdx.ix2 (0 : Fin 1) j) = Cert.Spec.s2 (Hm m c) (Wm m c) (Am m c) j := by
  rw [V2_main_v1 m c, arr0_5 (V0 m) c]
  refine (transpose_apply [1, 0] (G5 (V0 m) c) transposes_S8192x1_S1x8192_1_0 (ValueIdx.ix2 (0 : Fin 1) j)
    (ValueIdx.ix2 j (0 : Fin 1)) fun b => ?_).trans rfl
  match b with
  | ⟨0, _⟩ => rfl
  | ⟨1, _⟩ => rfl

/-! ## The result array -/

/-- What the attention region leaves in the result array is the closed form of the launch memory's arguments. -/
theorem out_eq (c : Dev nD) : W3 m c (Proc.devRef .tc main_v2) = outK m c := by
  rw [W3_main_v2 m c]
  funext idx
  obtain ⟨i, cc, rfl⟩ : ∃ (i : Fin 8192) (cc : Fin 256), idx = ValueIdx.ix2 i cc := ⟨idx 0, idx 1, ValueIdx.eq_ix2 idx⟩
  exact arr1_4 (V2 m) c (Hm m c) (ADJm m c) (Wm m c) (Am m c) (found_adj m c) (found_s1 m c) (found_s2 m c) (found_wh m c) i cc

/-- THE RUN: every weakly fair execution of the kernel's program from the launch memory terminates, nothing
    faulting, with the result array at the closed form and every argument array as launched. -/
theorem run_value : θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v2) = outK m c
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (Cert.KernelIdeal.defs (F := Ideal)) _ _).mono (fun r hr c =>
    ⟨(hr c _ (mem_uc main_v2 (by decide))).trans (out_eq m c),
     (hr c _ (mem_uc main_arg1 (by decide))).trans (W3_main_arg1 m c),
     (hr c _ (mem_uc main_arg0 (by decide))).trans (W3_main_arg0 m c),
     (hr c _ (mem_uc main_arg1 (by decide))).trans (W3_main_arg1 m c),
     (hr c _ (mem_uc main_arg2 (by decide))).trans (W3_main_arg2 m c),
     (hr c _ (mem_uc main_arg3 (by decide))).trans (W3_main_arg3 m c)⟩) (run_all m ρ)

end Cert.KernelIdeal.Val

end
-- ==== Proof.RefRun.lean ====
/- The reference program's run, read back.

   @main of the reference is a straight line of host operations once the outlined functions it calls
   (the three-way selects, and the exponential linear unit, which itself calls two selects) are
   substituted at their call sites over the buffers each call names. This module lists those
   operations in order, proves that @main IS that list run in sequence, and reads the run back:
   every weakly fair execution terminates with the result buffer at one composed pure term of the
   four argument arrays (`result`), and the arguments unchanged. The term is a single-head graph
   attention layer: projected features `h · W`, pairwise scores from the two halves of the attention
   vector, a leaky rectifier, masking by the adjacency, a row-wise softmax, the weighted sum of the
   projected features and an exponential linear unit. -/
import proofs.«149947_j1211180778248_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations in order, every call replaced by its callee's operations over that call's buffers:
    fifteen of @main's own up to the scaled scores; the first select (one operation); four more of @main's
    (the integer zero, its broadcast, the adjacency test, the masking constant); the second select's three
    (the constant converted to its own type, broadcast, the select); fifteen of @main's for the row-wise
    softmax and the weighted sum; and the exponential linear unit's fifteen, among them the three of its
    first select and the one of its second. -/
abbrev ops : List (HloOp τ sig (Elt F)) :=
  [ binary main_arg0 main_arg2 main_v0 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    unary main_arg3 main_v1 ((extractStridedSlice S256x1 ![0, 0] · slices_S512x1_S256x1_0_0) : (⟨S512x1, .f32⟩ : BufTy).Contents (Elt F) → (⟨S256x1, .f32⟩ : BufTy).Contents (Elt F)),
    binary main_v0 main_v1 main_v2 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    unary main_arg3 main_v3 ((extractStridedSlice S256x1 ![256, 0] · slices_S512x1_S256x1_256_0) : (⟨S512x1, .f32⟩ : BufTy).Contents (Elt F) → (⟨S256x1, .f32⟩ : BufTy).Contents (Elt F)),
    binary main_v0 main_v3 main_v4 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    unary main_v4 main_v5 ((transpose S1x8192 [1, 0] · transposes_S8192x1_S1x8192_1_0) : (⟨S8192x1, .f32⟩ : BufTy).Contents (Elt F) → (⟨S1x8192, .f32⟩ : BufTy).Contents (Elt F)),
    unary main_v2 main_v6 (broadcastInDim S8192x8192 ![0, 1] bcast_S8192x1_S8192x8192_0_1 : (⟨S8192x1, .f32⟩ : BufTy).Contents (Elt F) → (⟨S8192x8192, .f32⟩ : BufTy).Contents (Elt F)),
    unary main_v5 main_v7 (broadcastInDim S8192x8192 ![0, 1] bcast_S1x8192_S8192x8192_0_1 : (⟨S1x8192, .f32⟩ : BufTy).Contents (Elt F) → (⟨S8192x8192, .f32⟩ : BufTy).Contents (Elt F)),
    binary main_v6 main_v7 main_v8 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x00000000#32),
    unary main_cst main_v9 (broadcastInDim S8192x8192 ![] bcast_S_S8192x8192 : (⟨S_, .f32⟩ : BufTy).Contents (Elt F) → (⟨S8192x8192, .f32⟩ : BufTy).Contents (Elt F)),
    binary main_v8 main_v9 main_v10 (cmpf .ogt : (⟨S8192x8192, .f32⟩ : BufTy).Contents (Elt F) → (⟨S8192x8192, .f32⟩ : BufTy).Contents (Elt F) → (⟨S8192x8192, .i1⟩ : BufTy).Contents (Elt F)),
    nullary main_cst_0 (constant S_ .f32 0x3E4CCCCD#32),
    unary main_cst_0 main_v11 (broadcastInDim S8192x8192 ![] bcast_S_S8192x8192 : (⟨S_, .f32⟩ : BufTy).Contents (Elt F) → (⟨S8192x8192, .f32⟩ : BufTy).Contents (Elt F)),
    binary main_v11 main_v8 main_v12 (mulf : (⟨S8192x8192, .f32⟩ : BufTy).Contents (Elt F) → (⟨S8192x8192, .f32⟩ : BufTy).Contents (Elt F) → (⟨S8192x8192, .f32⟩ : BufTy).Contents (Elt F)),
    TRef.ternary (.of main_v10) (.of main_v8) (.of main_v12) main_call0.v0 select,
    nullary main_c (constantI S_ 32 0#32),
    unary main_c main_v14 (broadcastInDim S8192x8192 ![] bcast_S_S8192x8192 : (⟨S_, .i32⟩ : BufTy).Contents (Elt F) → (⟨S8192x8192, .i32⟩ : BufTy).Contents (Elt F)),
    binary main_arg1 main_v14 main_v15 (cmpi .sgt : (⟨S8192x8192, .i32⟩ : BufTy).Contents (Elt F) → (⟨S8192x8192, .i32⟩ : BufTy).Contents (Elt F) → (⟨S8192x8192, .i1⟩ : BufTy).Contents (Elt F)),
    nullary main_cst_1 (constant S_ .f32 0xD9FFCB9E#32),
    TRef.unary (.of main_cst_1) main_call1.v0 id,
    TRef.unary main_call1.v0 main_call1.v1 (broadcastInDim S8192x8192 ![] bcast_S_S8192x8192),
    TRef.ternary (.of main_v15) (.of main_v13) main_call1.v1 main_call1.v2 select,
    nullary main_cst_2 (constant S_ .f32 0xFF800000#32),
    binary main_v16 main_cst_2 main_v17 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_3 (constant S_ .f32 0xFF800000#32),
    unary main_cst_3 main_v18 (broadcastInDim S8192 ![] bcast_S_S8192 : (⟨S_, .f32⟩ : BufTy).Contents (Elt F) → (⟨S8192, .f32⟩ : BufTy).Contents (Elt F)),
    binary main_v18 main_v17 main_v19 (maximumf : (⟨S8192, .f32⟩ : BufTy).Contents (Elt F) → (⟨S8192, .f32⟩ : BufTy).Contents (Elt F) → (⟨S8192, .f32⟩ : BufTy).Contents (Elt F)),
    unary main_v19 main_v20 (broadcastInDim S8192x1 ![0] bcast_S8192_S8192x1_0 : (⟨S8192, .f32⟩ : BufTy).Contents (Elt F) → (⟨S8192x1, .f32⟩ : BufTy).Contents (Elt F)),
    unary main_v20 main_v21 (broadcastInDim S8192x8192 ![0, 1] bcast_S8192x1_S8192x8192_0_1 : (⟨S8192x1, .f32⟩ : BufTy).Contents (Elt F) → (⟨S8192x8192, .f32⟩ : BufTy).Contents (Elt F)),
    binary main_v16 main_v21 main_v22 (subf : (⟨S8192x8192, .f32⟩ : BufTy).Contents (Elt F) → (⟨S8192x8192, .f32⟩ : BufTy).Contents (Elt F) → (⟨S8192x8192, .f32⟩ : BufTy).Contents (Elt F)),
    unary main_v22 main_v23 (Host.exp : (⟨S8192x8192, .f32⟩ : BufTy).Contents (Elt F) → (⟨S8192x8192, .f32⟩ : BufTy).Contents (Elt F)),
    nullary main_cst_4 (constant S_ .f32 0x00000000#32),
    binary main_v23 main_cst_4 main_v24 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v24 main_v25 (broadcastInDim S8192x1 ![0] bcast_S8192_S8192x1_0 : (⟨S8192, .f32⟩ : BufTy).Contents (Elt F) → (⟨S8192x1, .f32⟩ : BufTy).Contents (Elt F)),
    unary main_v25 main_v26 (broadcastInDim S8192x8192 ![0, 1] bcast_S8192x1_S8192x8192_0_1 : (⟨S8192x1, .f32⟩ : BufTy).Contents (Elt F) → (⟨S8192x8192, .f32⟩ : BufTy).Contents (Elt F)),
    binary main_v23 main_v26 main_v27 (Host.divf : (⟨S8192x8192, .f32⟩ : BufTy).Contents (Elt F) → (⟨S8192x8192, .f32⟩ : BufTy).Contents (Elt F) → (⟨S8192x8192, .f32⟩ : BufTy).Contents (Elt F)),
    binary main_v27 main_v0 main_v28 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    TRef.nullary main_call2.cst (constant S_ .f32 0x00000000#32),
    TRef.unary main_call2.cst main_call2.v0 (broadcastInDim S8192x256 ![] bcast_S_S8192x256),
    TRef.binary (.of main_v28) main_call2.v0 main_call2.v1 (cmpf .ogt),
    TRef.nullary main_call2.cst_0 (constant S_ .f32 0x00000000#32),
    TRef.unary main_call2.cst_0 main_call2.v2 (broadcastInDim S8192x256 ![] bcast_S_S8192x256),
    TRef.binary (.of main_v28) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S8192x256 ![] bcast_S_S8192x256),
    TRef.ternary main_call2.v3 main_call2.call0.v1 (.of main_v28) main_call2.call0.v2 select,
    TRef.unary main_call2.call0.v2 main_call2.v5 Host.expm1,
    TRef.nullary main_call2.cst_2 (constant S_ .f32 0x3F800000#32),
    TRef.unary main_call2.cst_2 main_call2.v6 (broadcastInDim S8192x256 ![] bcast_S_S8192x256),
    TRef.binary main_call2.v6 main_call2.v5 main_call2.v7 mulf,
    TRef.ternary main_call2.v1 (.of main_v28) main_call2.v7 main_call2.call1.v0 select ]

/-! ## The composed term -/

/-- The projected features `h · W`. -/
def wh (h : FVec F S8192x256 .f32) (W : FVec F S256x256 .f32) : FVec F S8192x256 .f32 :=
  Host.dotGeneral dot_S8192x256_S256x256_S8192x256_1_0_0_1_n_n none h W

/-- The projected features against the first half of the attention vector: one score per source row. -/
def wh1 (h : FVec F S8192x256 .f32) (W : FVec F S256x256 .f32) (a : FVec F S512x1 .f32) : FVec F S8192x1 .f32 :=
  Host.dotGeneral dot_S8192x256_S256x1_S8192x1_1_0_0_1_n_n none (wh h W)
    (extractStridedSlice S256x1 ![0, 0] a slices_S512x1_S256x1_0_0)

/-- The projected features against the second half of the attention vector: one score per target row. -/
def wh2 (h : FVec F S8192x256 .f32) (W : FVec F S256x256 .f32) (a : FVec F S512x1 .f32) : FVec F S8192x1 .f32 :=
  Host.dotGeneral dot_S8192x256_S256x1_S8192x1_1_0_0_1_n_n none (wh h W)
    (extractStridedSlice S256x1 ![256, 0] a slices_S512x1_S256x1_256_0)

/-- The pairwise scores: the source score of row `i` plus the target score of row `j`. -/
def e (h : FVec F S8192x256 .f32) (W : FVec F S256x256 .f32) (a : FVec F S512x1 .f32) : FVec F S8192x8192 .f32 :=
  addf (broadcastInDim S8192x8192 ![0, 1] bcast_S8192x1_S8192x8192_0_1 (wh1 h W a))
    (broadcastInDim S8192x8192 ![0, 1] bcast_S1x8192_S8192x8192_0_1
      (transpose S1x8192 [1, 0] (wh2 h W a) transposes_S8192x1_S1x8192_1_0))

/-- The leaky rectifier of the scores: the score where it is positive, a fifth of it elsewhere. -/
def lrelu (h : FVec F S8192x256 .f32) (W : FVec F S256x256 .f32) (a : FVec F S512x1 .f32) : FVec F S8192x8192 .f32 :=
  select (cmpf .ogt (e h W a) (broadcastInDim S8192x8192 ![] bcast_S_S8192x8192 (constant S_ .f32 0x00000000#32)))
    (e h W a)
    (mulf (broadcastInDim S8192x8192 ![] bcast_S_S8192x8192 (constant S_ .f32 0x3E4CCCCD#32)) (e h W a))

/-- The masked scores: the rectified score where the adjacency entry is positive, a large negative constant elsewhere. -/
def logits (h : FVec F S8192x256 .f32) (adj : IVec S8192x8192 32) (W : FVec F S256x256 .f32) (a : FVec F S512x1 .f32) :
    FVec F S8192x8192 .f32 :=
  select (cmpi .sgt adj (broadcastInDim S8192x8192 ![] bcast_S_S8192x8192 (constantI S_ 32 0#32)))
    (lrelu h W a)
    (broadcastInDim S8192x8192 ![] bcast_S_S8192x8192 (id (constant S_ .f32 0xD9FFCB9E#32)))

/-- Each row's maximum of the masked scores (the reduction from minus infinity, then the maximum with minus infinity). -/
def rowmax (h : FVec F S8192x256 .f32) (adj : IVec S8192x8192 32) (W : FVec F S256x256 .f32) (a : FVec F S512x1 .f32) :
    FVec F S8192 .f32 :=
  maximumf (broadcastInDim S8192 ![] bcast_S_S8192 (constant S_ .f32 0xFF800000#32))
    (Host.reduce FloatOps.maximumf (logits h adj W a) (constant S_ .f32 0xFF800000#32) reducesTo_S8192x8192_S8192_d1 h_S_)

/-- The exponential of each masked score less its row's maximum. -/
def p (h : FVec F S8192x256 .f32) (adj : IVec S8192x8192 32) (W : FVec F S256x256 .f32) (a : FVec F S512x1 .f32) :
    FVec F S8192x8192 .f32 :=
  Host.exp (subf (logits h adj W a)
    (broadcastInDim S8192x8192 ![0, 1] bcast_S8192x1_S8192x8192_0_1
      (broadcastInDim S8192x1 ![0] bcast_S8192_S8192x1_0 (rowmax h adj W a))))

/-- Each row's sum of those exponentials. -/
def z (h : FVec F S8192x256 .f32) (adj : IVec S8192x8192 32) (W : FVec F S256x256 .f32) (a : FVec F S512x1 .f32) :
    FVec F S8192 .f32 :=
  Host.reduceAdd (p h adj W a) (constant S_ .f32 0x00000000#32) reducesTo_S8192x8192_S8192_d1 h_S_

/-- The attention weights: each exponential over its row's sum. -/
def att (h : FVec F S8192x256 .f32) (adj : IVec S8192x8192 32) (W : FVec F S256x256 .f32) (a : FVec F S512x1 .f32) :
    FVec F S8192x8192 .f32 :=
  Host.divf (p h adj W a)
    (broadcastInDim S8192x8192 ![0, 1] bcast_S8192x1_S8192x8192_0_1
      (broadcastInDim S8192x1 ![0] bcast_S8192_S8192x1_0 (z h adj W a)))

/-- The attention-weighted sum of the projected features. -/
def hp (h : FVec F S8192x256 .f32) (adj : IVec S8192x8192 32) (W : FVec F S256x256 .f32) (a : FVec F S512x1 .f32) :
    FVec F S8192x256 .f32 :=
  Host.dotGeneral dot_S8192x8192_S8192x256_S8192x256_1_0_0_1_n_n none (att h adj W a) (wh h W)

/-- The exponential linear unit as the reference spells it: `x` where `x` is positive, elsewhere one times
    `expm1` of (zero where `x` is positive, `x` elsewhere). -/
def elu (x : FVec F S8192x256 .f32) : FVec F S8192x256 .f32 :=
  select (cmpf .ogt x (broadcastInDim S8192x256 ![] bcast_S_S8192x256 (constant S_ .f32 0x00000000#32)))
    x
    (mulf (broadcastInDim S8192x256 ![] bcast_S_S8192x256 (constant S_ .f32 0x3F800000#32))
      (Host.expm1
        (select (cmpf .ogt x (broadcastInDim S8192x256 ![] bcast_S_S8192x256 (constant S_ .f32 0x00000000#32)))
          (broadcastInDim S8192x256 ![] bcast_S_S8192x256 (id (constant S_ .f32 0x00000000#32)))
          x)))

/-- The composed pure term of the result from the four argument arrays. -/
def result (h : FVec F S8192x256 .f32) (adj : IVec S8192x8192 32) (W : FVec F S256x256 .f32) (a : FVec F S512x1 .f32) :
    FVec F S8192x256 .f32 :=
  elu (hp h adj W a)

/-! ## @main is that straight line -/

-- fifty-three binds re-associated: the rewrite under the chain recurses once per statement
set_option maxRecDepth 2048 in
/-- @main is that straight line: the functions' definitions unfolded at their calls and the records at their
    fields, both sides are one chain of `hlo` steps once sequencing is reassociated. -/
theorem main_eq (c : Dev nD) : main (F := F) c = seq ops := by
  simp only [main, fn_where.body, fn_where_0.body, fn_where_1.body, fn_where_2.body, fn_elu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., unary_bufs_sub .., binary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-! ## The fold of the operations at the result and at the arguments -/

/-- The fold of the operations at the result buffer is `result` of the contents at the argument buffers. -/
theorem out_eq (V : Valuation τ sig (Elt F)) :
    after ops V (main_v29 : DevRef τ sig)
      = result (V (main_arg0 : DevRef τ sig)) (V (main_arg1 : DevRef τ sig)) (V (main_arg2 : DevRef τ sig))
          (V (main_arg3 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-! ## The run -/

/-- On every device, for any float values, from any memory with zero counters: every weakly fair execution of
    @main terminates with the result buffer at `result` of the arguments' launch contents and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v29) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v29).trans (out_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.ReferenceIdeal.Hand

end
-- ==== Proof.RefFrame.lean ====
/- The reference's frame claim: its four argument arrays are unchanged by the run. It is the second component
   of the reference's run read back (RefRun.lean), whose postcondition is the value of the result together with
   exactly these four equations. -/
import proofs.«149947_j1211180778248_2_alg».proof.Defs
import proofs.«149947_j1211180778248_2_alg».proof.Proof.RefRun

noncomputable section

namespace Cert.ReferenceIdeal.Hand

open Idealize.ShloMosaic Idealize.ShloMosaic.TcCoe Idealize.SL.Sem

/-- The reference leaves its arguments as it found them: the run's postcondition, its value component dropped. -/
theorem frame [hReferenceIdeal : Cert.ReferenceIdeal.Facts] [hPre_finite_inputs : Cert.Pre_finite_inputs.Facts] :
    Cert.frame_ReferenceIdeal := fun m ρ _ =>
  (θ_run Cert.ReferenceIdeal.defs _ _).mono (fun _ h c => (h c).2) (Cert.ReferenceIdeal.Hand.run (F := Ideal) m ρ)

end Cert.ReferenceIdeal.Hand

end
-- ==== Proof.RefRead.lean ====
/- The reference's composed term at the ideal values, read at an index.

   Each operation of the term is read at a coordinate of its result from its operands at coordinates: a product of
   two arrays as the sum over its one contracted axis, a slice, the transpose and the broadcasts as their operand at
   the moved coordinate, the elementwise operations as the scalar operation on the elements, the row maximum as a
   fold of `max` over the row from minus infinity, the row sum as the initial value plus the sum over the row. Every
   lemma is stated over VARIABLE operands, so nothing of the size of the arrays is ever computed. Composed, the
   result at (i, c) is the program-free specification `Cert.Spec.refOut` of the arguments' coordinate functions. -/
import proofs.«149947_j1211180778248_2_alg».proof.Proof.RefRun
import proofs.«149947_j1211180778248_2_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.Hand

open Cert.ReferenceIdeal Cert.ReferenceIdeal.Gen Idealize.ShloMosaic Idealize.ShloMosaic.ValueIdx

/-! ## The three products, each over its one contracted axis -/

theorem lhs0_hW (i : S8192x256.Idx) (qq : dot_S8192x256_S256x256_S8192x256_1_0_0_1_n_n.contr.Idx) : (dot_S8192x256_S256x256_S8192x256_1_0_0_1_n_n.lhsIdx i qq 0).val = (i 0).val := by
  unfold DotDims.lhsIdx
  rw [dif_neg (show ¬(0 : Fin S8192x256.rank) ∈ dot_S8192x256_S256x256_S8192x256_1_0_0_1_n_n.lhsBatch by decide), dif_pos (show (0 : Fin S8192x256.rank) ∈ dot_S8192x256_S256x256_S8192x256_1_0_0_1_n_n.lhsNonContracting by decide)]
  rfl
theorem lhs1_hW (i : S8192x256.Idx) (qq : dot_S8192x256_S256x256_S8192x256_1_0_0_1_n_n.contr.Idx) : (dot_S8192x256_S256x256_S8192x256_1_0_0_1_n_n.lhsIdx i qq 1).val = (qq ⟨0, by decide⟩).val :=
  dot_S8192x256_S256x256_S8192x256_1_0_0_1_n_n.lhsIdx_val_of_single rfl i qq
theorem rhs0_hW (i : S8192x256.Idx) (qq : dot_S8192x256_S256x256_S8192x256_1_0_0_1_n_n.contr.Idx) : (dot_S8192x256_S256x256_S8192x256_1_0_0_1_n_n.rhsIdx i qq 0).val = (qq ⟨0, by decide⟩).val :=
  dot_S8192x256_S256x256_S8192x256_1_0_0_1_n_n.rhsIdx_val_of_single rfl i qq
theorem rhs1_hW (i : S8192x256.Idx) (qq : dot_S8192x256_S256x256_S8192x256_1_0_0_1_n_n.contr.Idx) : (dot_S8192x256_S256x256_S8192x256_1_0_0_1_n_n.rhsIdx i qq 1).val = (i 1).val := by
  unfold DotDims.rhsIdx
  rw [dif_neg (show ¬(1 : Fin S256x256.rank) ∈ dot_S8192x256_S256x256_S8192x256_1_0_0_1_n_n.rhsBatch by decide), dif_pos (show (1 : Fin S256x256.rank) ∈ dot_S8192x256_S256x256_S8192x256_1_0_0_1_n_n.rhsNonContracting by decide)]
  rfl

/-- The host's product of a 8192×256 by a 256×256 array at the ideal values, read at (i, c): the sum over the one
    contracted axis of the left operand at (i, k) times the right at (k, c). -/
theorem dot_hW (X : FVec Ideal S8192x256 .f32) (Y : FVec Ideal S256x256 .f32) (i : Fin 8192) (c : Fin 256) :
    Host.dotGeneral dot_S8192x256_S256x256_S8192x256_1_0_0_1_n_n none X Y (ix2 i c) = ∑ k : Fin 256, X (ix2 i k) * Y (ix2 k c) := by
  simp only [Host.dotGeneral]
  rw [Ideal.dotGeneral_apply, ← Equiv.sum_comp (ValueIdx.contrEquiv1 dot_S8192x256_S256x256_S8192x256_1_0_0_1_n_n 256 rfl rfl).symm]
  refine Finset.sum_congr rfl fun k _ => ?_
  have hk := ValueIdx.contrEquiv1_symm_val dot_S8192x256_S256x256_S8192x256_1_0_0_1_n_n 256 rfl rfl k
  have el : dot_S8192x256_S256x256_S8192x256_1_0_0_1_n_n.lhsIdx (ix2 i c) ((ValueIdx.contrEquiv1 dot_S8192x256_S256x256_S8192x256_1_0_0_1_n_n 256 rfl rfl).symm k) = ix2 i k := funext fun a => Fin.ext (by
    match a with
    | ⟨0, _⟩ => exact lhs0_hW _ _
    | ⟨1, _⟩ => exact (lhs1_hW _ _).trans hk)
  have er : dot_S8192x256_S256x256_S8192x256_1_0_0_1_n_n.rhsIdx (ix2 i c) ((ValueIdx.contrEquiv1 dot_S8192x256_S256x256_S8192x256_1_0_0_1_n_n 256 rfl rfl).symm k) = ix2 k c := funext fun a => Fin.ext (by
    match a with
    | ⟨0, _⟩ => exact (rhs0_hW _ _).trans hk
    | ⟨1, _⟩ => exact rhs1_hW _ _)
  rw [el, er]

theorem lhs0_ha (i : S8192x1.Idx) (qq : dot_S8192x256_S256x1_S8192x1_1_0_0_1_n_n.contr.Idx) : (dot_S8192x256_S256x1_S8192x1_1_0_0_1_n_n.lhsIdx i qq 0).val = (i 0).val := by
  unfold DotDims.lhsIdx
  rw [dif_neg (show ¬(0 : Fin S8192x256.rank) ∈ dot_S8192x256_S256x1_S8192x1_1_0_0_1_n_n.lhsBatch by decide), dif_pos (show (0 : Fin S8192x256.rank) ∈ dot_S8192x256_S256x1_S8192x1_1_0_0_1_n_n.lhsNonContracting by decide)]
  rfl
theorem lhs1_ha (i : S8192x1.Idx) (qq : dot_S8192x256_S256x1_S8192x1_1_0_0_1_n_n.contr.Idx) : (dot_S8192x256_S256x1_S8192x1_1_0_0_1_n_n.lhsIdx i qq 1).val = (qq ⟨0, by decide⟩).val :=
  dot_S8192x256_S256x1_S8192x1_1_0_0_1_n_n.lhsIdx_val_of_single rfl i qq
theorem rhs0_ha (i : S8192x1.Idx) (qq : dot_S8192x256_S256x1_S8192x1_1_0_0_1_n_n.contr.Idx) : (dot_S8192x256_S256x1_S8192x1_1_0_0_1_n_n.rhsIdx i qq 0).val = (qq ⟨0, by decide⟩).val :=
  dot_S8192x256_S256x1_S8192x1_1_0_0_1_n_n.rhsIdx_val_of_single rfl i qq
theorem rhs1_ha (i : S8192x1.Idx) (qq : dot_S8192x256_S256x1_S8192x1_1_0_0_1_n_n.contr.Idx) : (dot_S8192x256_S256x1_S8192x1_1_0_0_1_n_n.rhsIdx i qq 1).val = (i 1).val := by
  unfold DotDims.rhsIdx
  rw [dif_neg (show ¬(1 : Fin S256x1.rank) ∈ dot_S8192x256_S256x1_S8192x1_1_0_0_1_n_n.rhsBatch by decide), dif_pos (show (1 : Fin S256x1.rank) ∈ dot_S8192x256_S256x1_S8192x1_1_0_0_1_n_n.rhsNonContracting by decide)]
  rfl

/-- The host's product of a 8192×256 by a 256×1 array at the ideal values, read at (i, c): the sum over the one
    contracted axis of the left operand at (i, k) times the right at (k, c). -/
theorem dot_ha (X : FVec Ideal S8192x256 .f32) (Y : FVec Ideal S256x1 .f32) (i : Fin 8192) (c : Fin 1) :
    Host.dotGeneral dot_S8192x256_S256x1_S8192x1_1_0_0_1_n_n none X Y (ix2 i c) = ∑ k : Fin 256, X (ix2 i k) * Y (ix2 k c) := by
  simp only [Host.dotGeneral]
  rw [Ideal.dotGeneral_apply, ← Equiv.sum_comp (ValueIdx.contrEquiv1 dot_S8192x256_S256x1_S8192x1_1_0_0_1_n_n 256 rfl rfl).symm]
  refine Finset.sum_congr rfl fun k _ => ?_
  have hk := ValueIdx.contrEquiv1_symm_val dot_S8192x256_S256x1_S8192x1_1_0_0_1_n_n 256 rfl rfl k
  have el : dot_S8192x256_S256x1_S8192x1_1_0_0_1_n_n.lhsIdx (ix2 i c) ((ValueIdx.contrEquiv1 dot_S8192x256_S256x1_S8192x1_1_0_0_1_n_n 256 rfl rfl).symm k) = ix2 i k := funext fun a => Fin.ext (by
    match a with
    | ⟨0, _⟩ => exact lhs0_ha _ _
    | ⟨1, _⟩ => exact (lhs1_ha _ _).trans hk)
  have er : dot_S8192x256_S256x1_S8192x1_1_0_0_1_n_n.rhsIdx (ix2 i c) ((ValueIdx.contrEquiv1 dot_S8192x256_S256x1_S8192x1_1_0_0_1_n_n 256 rfl rfl).symm k) = ix2 k c := funext fun a => Fin.ext (by
    match a with
    | ⟨0, _⟩ => exact (rhs0_ha _ _).trans hk
    | ⟨1, _⟩ => exact rhs1_ha _ _)
  rw [el, er]

theorem lhs0_att (i : S8192x256.Idx) (qq : dot_S8192x8192_S8192x256_S8192x256_1_0_0_1_n_n.contr.Idx) : (dot_S8192x8192_S8192x256_S8192x256_1_0_0_1_n_n.lhsIdx i qq 0).val = (i 0).val := by
  unfold DotDims.lhsIdx
  rw [dif_neg (show ¬(0 : Fin S8192x8192.rank) ∈ dot_S8192x8192_S8192x256_S8192x256_1_0_0_1_n_n.lhsBatch by decide), dif_pos (show (0 : Fin S8192x8192.rank) ∈ dot_S8192x8192_S8192x256_S8192x256_1_0_0_1_n_n.lhsNonContracting by decide)]
  rfl
theorem lhs1_att (i : S8192x256.Idx) (qq : dot_S8192x8192_S8192x256_S8192x256_1_0_0_1_n_n.contr.Idx) : (dot_S8192x8192_S8192x256_S8192x256_1_0_0_1_n_n.lhsIdx i qq 1).val = (qq ⟨0, by decide⟩).val :=
  dot_S8192x8192_S8192x256_S8192x256_1_0_0_1_n_n.lhsIdx_val_of_single rfl i qq
theorem rhs0_att (i : S8192x256.Idx) (qq : dot_S8192x8192_S8192x256_S8192x256_1_0_0_1_n_n.contr.Idx) : (dot_S8192x8192_S8192x256_S8192x256_1_0_0_1_n_n.rhsIdx i qq 0).val = (qq ⟨0, by decide⟩).val :=
  dot_S8192x8192_S8192x256_S8192x256_1_0_0_1_n_n.rhsIdx_val_of_single rfl i qq
theorem rhs1_att (i : S8192x256.Idx) (qq : dot_S8192x8192_S8192x256_S8192x256_1_0_0_1_n_n.contr.Idx) : (dot_S8192x8192_S8192x256_S8192x256_1_0_0_1_n_n.rhsIdx i qq 1).val = (i 1).val := by
  unfold DotDims.rhsIdx
  rw [dif_neg (show ¬(1 : Fin S8192x256.rank) ∈ dot_S8192x8192_S8192x256_S8192x256_1_0_0_1_n_n.rhsBatch by decide), dif_pos (show (1 : Fin S8192x256.rank) ∈ dot_S8192x8192_S8192x256_S8192x256_1_0_0_1_n_n.rhsNonContracting by decide)]
  rfl

/-- The host's product of a 8192×8192 by a 8192×256 array at the ideal values, read at (i, c): the sum over the one
    contracted axis of the left operand at (i, k) times the right at (k, c). -/
theorem dot_att (X : FVec Ideal S8192x8192 .f32) (Y : FVec Ideal S8192x256 .f32) (i : Fin 8192) (c : Fin 256) :
    Host.dotGeneral dot_S8192x8192_S8192x256_S8192x256_1_0_0_1_n_n none X Y (ix2 i c) = ∑ k : Fin 8192, X (ix2 i k) * Y (ix2 k c) := by
  simp only [Host.dotGeneral]
  rw [Ideal.dotGeneral_apply, ← Equiv.sum_comp (ValueIdx.contrEquiv1 dot_S8192x8192_S8192x256_S8192x256_1_0_0_1_n_n 8192 rfl rfl).symm]
  refine Finset.sum_congr rfl fun k _ => ?_
  have hk := ValueIdx.contrEquiv1_symm_val dot_S8192x8192_S8192x256_S8192x256_1_0_0_1_n_n 8192 rfl rfl k
  have el : dot_S8192x8192_S8192x256_S8192x256_1_0_0_1_n_n.lhsIdx (ix2 i c) ((ValueIdx.contrEquiv1 dot_S8192x8192_S8192x256_S8192x256_1_0_0_1_n_n 8192 rfl rfl).symm k) = ix2 i k := funext fun a => Fin.ext (by
    match a with
    | ⟨0, _⟩ => exact lhs0_att _ _
    | ⟨1, _⟩ => exact (lhs1_att _ _).trans hk)
  have er : dot_S8192x8192_S8192x256_S8192x256_1_0_0_1_n_n.rhsIdx (ix2 i c) ((ValueIdx.contrEquiv1 dot_S8192x8192_S8192x256_S8192x256_1_0_0_1_n_n 8192 rfl rfl).symm k) = ix2 k c := funext fun a => Fin.ext (by
    match a with
    | ⟨0, _⟩ => exact (rhs0_att _ _).trans hk
    | ⟨1, _⟩ => exact rhs1_att _ _)
  rw [el, er]

/-! ## The slices, the transpose and the broadcasts at a coordinate -/

/-- The first half of the attention vector: row `k` of the slice is row `k` of the whole. -/
theorem slice_lo (A : FVec Ideal S512x1 .f32) (k : Fin 256) (c : Fin 1) :
    extractStridedSlice S256x1 ![0, 0] A slices_S512x1_S256x1_0_0 (ix2 k c) = A (ix2 ⟨k.val, by have := k.isLt; omega⟩ c) :=
  slice2_axis0_apply 0 A slices_S512x1_S256x1_0_0 k c ⟨k.val, by have := k.isLt; omega⟩ (Nat.zero_add _).symm

/-- The second half: row `k` of the slice is row `256 + k` of the whole. -/
theorem slice_hi (A : FVec Ideal S512x1 .f32) (k : Fin 256) (c : Fin 1) :
    extractStridedSlice S256x1 ![256, 0] A slices_S512x1_S256x1_256_0 (ix2 k c) = A (ix2 ⟨256 + k.val, by have := k.isLt; omega⟩ c) :=
  slice2_axis0_apply 256 A slices_S512x1_S256x1_256_0 k c ⟨256 + k.val, by have := k.isLt; omega⟩ rfl

/-- The column of target scores laid out as a row. -/
theorem transpose_row {α : Type} (X : S8192x1.Idx → α) (r : Fin 1) (j : Fin 8192) :
    transpose S1x8192 [1, 0] X transposes_S8192x1_S1x8192_1_0 (ix2 r j) = X (ix2 j r) :=
  transpose_ix2_apply X transposes_S8192x1_S1x8192_1_0 r j

/-- A column broadcast along the rows: entry (i, j) is the column's entry i. -/
theorem bcast_col {α : Type} (X : S8192x1.Idx → α) (i j : Fin 8192) :
    broadcastInDim S8192x8192 ![0, 1] bcast_S8192x1_S8192x8192_0_1 X (ix2 i j) = X (ix2 i 0) :=
  broadcastInDim_apply _ _ X _ _ fun a => match a with | ⟨0, _⟩ => rfl | ⟨1, _⟩ => rfl

/-- A row broadcast down the columns: entry (i, j) is the row's entry j. -/
theorem bcast_row {α : Type} (X : S1x8192.Idx → α) (i j : Fin 8192) :
    broadcastInDim S8192x8192 ![0, 1] bcast_S1x8192_S8192x8192_0_1 X (ix2 i j) = X (ix2 0 j) :=
  broadcastInDim_apply _ _ X _ _ fun a => match a with | ⟨0, _⟩ => rfl | ⟨1, _⟩ => rfl

/-- A vector as a column: entry (i, 0) is the vector's entry i. -/
theorem bcast_vec_col {α : Type} (X : S8192.Idx → α) (i : Fin 8192) (r : Fin 1) :
    broadcastInDim S8192x1 ![0] bcast_S8192_S8192x1_0 X (ix2 i r) = X (ix1 i) :=
  broadcastInDim_apply _ _ X _ _ fun a => match a with | ⟨0, _⟩ => rfl

/-! ## The two row reductions at a coordinate -/

/-- Index (i) of the reduced array with column `k` put back is (i, k). -/
theorem lift_row (h : S8192x8192.Reduces [1] S8192) (i : Fin 8192) (k : Fin (S8192x8192.size 1)) :
    h.lift (ix1 i) k = ix2 i (⟨k.val, k.isLt⟩ : Fin 8192) := by
  funext c; apply Fin.ext
  match c with
  | ⟨0, _⟩ => rfl
  | ⟨1, _⟩ => rfl

/-- The host's reduction by maximum along the rows, at row i: the fold of `max` over the row from the initial value. -/
theorem rowmax_read (X : FVec Ideal S8192x8192 .f32) (init : FVec Ideal S_ .f32) (i : Fin 8192) :
    Host.reduce FloatOps.maximumf X init reducesTo_S8192x8192_S8192_d1 h_S_ (ix1 i)
      = (Finset.univ : Finset (Fin 8192)).fold max (init ix0) fun j => X (ix2 i j) := by
  have h : S8192x8192.Reduces [1] S8192 := by decide
  rw [Host.reduce_eq_fold_single FloatOps.maximumf X init reducesTo_S8192x8192_S8192_d1 h h_S_]
  have hf : (X ∘ h.lift (ix1 i)) = fun j : Fin 8192 => X (ix2 i j) := funext fun k => congrArg X (lift_row h i k)
  have hi : init (Shape.Idx.first h_S_) = init ix0 := congrArg init (eq_ix0 _)
  rw [hi]
  exact congrArg (fun f => Finset.fold max (init ix0) f (Finset.univ : Finset (Fin 8192))) hf

/-- The host's float sum along the rows, at row i: the initial value plus the sum over the row. -/
theorem rowsum_read (X : FVec Ideal S8192x8192 .f32) (init : FVec Ideal S_ .f32) (i : Fin 8192) :
    Host.reduceAdd X init reducesTo_S8192x8192_S8192_d1 h_S_ (ix1 i) = init ix0 + ∑ j : Fin 8192, X (ix2 i j) := by
  have h : S8192x8192.Reduces [1] S8192 := by decide
  rw [hostReduceAdd_apply, Ideal.hostReduceAdd_single reducesTo_S8192x8192_S8192_d1 h]
  have hi : init (Shape.Idx.first h_S_) = init ix0 := congrArg init (eq_ix0 _)
  rw [hi]
  refine congrArg (_ + ·) (Finset.sum_congr rfl fun k _ => ?_)
  exact congrArg X (lift_row h i k)

/-! ## The stages at a coordinate, each from its operands at coordinates -/

section Stages

variable (H : FVec Ideal S8192x256 .f32) (ADJ : IVec S8192x8192 32) (Wm : FVec Ideal S256x256 .f32) (A : FVec Ideal S512x1 .f32)

/-- The projected features: row i of `h` against column c of `W`. -/
theorem wh_apply (i : Fin 8192) (c : Fin 256) : wh H Wm (ix2 i c) = ∑ k : Fin 256, H (ix2 i k) * Wm (ix2 k c) :=
  dot_hW H Wm i c

/-- The source score of row i: its projected features against the first half of the attention vector. -/
theorem wh1_apply (i : Fin 8192) :
    wh1 H Wm A (ix2 i 0) = ∑ c : Fin 256, wh H Wm (ix2 i c) * A (ix2 ⟨c.val, by have := c.isLt; omega⟩ 0) := by
  unfold wh1
  generalize wh H Wm = Y
  rw [dot_ha]
  exact Finset.sum_congr rfl fun k _ => by rw [slice_lo]

/-- The target score of row j: its projected features against the second half of the attention vector. -/
theorem wh2_apply (j : Fin 8192) :
    wh2 H Wm A (ix2 j 0) = ∑ c : Fin 256, wh H Wm (ix2 j c) * A (ix2 ⟨256 + c.val, by have := c.isLt; omega⟩ 0) := by
  unfold wh2
  generalize wh H Wm = Y
  rw [dot_ha]
  exact Finset.sum_congr rfl fun k _ => by rw [slice_hi]

/-- The pairwise score of (i, j): the source score of i plus the target score of j. -/
theorem e_apply (i j : Fin 8192) : e H Wm A (ix2 i j) = wh1 H Wm A (ix2 i 0) + wh2 H Wm A (ix2 j 0) := by
  unfold e
  generalize wh1 H Wm A = P
  generalize wh2 H Wm A = Q
  rw [addf_apply, bcast_col, bcast_row, transpose_row]

/-- The leaky rectifier of the pairwise score. -/
theorem lrelu_apply (i j : Fin 8192) : lrelu H Wm A (ix2 i j) = Cert.Spec.leaky (e H Wm A (ix2 i j)) := by
  unfold lrelu Cert.Spec.leaky
  generalize e H Wm A = E
  show Scalar.select (Ideal.cmp .ogt (E (ix2 i j))
        (broadcastInDim S8192x8192 ![] bcast_S_S8192x8192 (constant (F := Ideal) S_ .f32 0x00000000#32) (ix2 i j))) (E (ix2 i j))
      (broadcastInDim S8192x8192 ![] bcast_S_S8192x8192 (constant (F := Ideal) S_ .f32 0x3E4CCCCD#32) (ix2 i j) * E (ix2 i j)) = _
  rw [broadcastInDim_scalar_apply, broadcastInDim_scalar_apply]
  rfl

/-- The masked score of (i, j): the rectified score where the adjacency entry is positive, the fill elsewhere. -/
theorem logits_apply (i j : Fin 8192) :
    logits H ADJ Wm A (ix2 i j)
      = Scalar.select (IntOp.cmpi .sgt (ADJ (ix2 i j)) 0#32) (lrelu H Wm A (ix2 i j)) Cert.Spec.fillW := by
  unfold logits
  generalize lrelu H Wm A = L
  show Scalar.select (IntOp.cmpi .sgt (ADJ (ix2 i j))
        (broadcastInDim S8192x8192 ![] bcast_S_S8192x8192 (constantI S_ 32 0#32) (ix2 i j))) (L (ix2 i j))
      (broadcastInDim S8192x8192 ![] bcast_S_S8192x8192 (id (constant (F := Ideal) S_ .f32 0xD9FFCB9E#32)) (ix2 i j)) = _
  rw [broadcastInDim_scalar_apply, broadcastInDim_scalar_apply]
  rfl

/-- The row maximum of the masked scores: folded from minus infinity, and once more against minus infinity. -/
theorem rowmax_apply (i : Fin 8192) :
    rowmax H ADJ Wm A (ix1 i)
      = max Cert.Spec.ninfW ((Finset.univ : Finset (Fin 8192)).fold max Cert.Spec.ninfW fun j => logits H ADJ Wm A (ix2 i j)) := by
  unfold rowmax
  generalize logits H ADJ Wm A = L
  rw [maximumf_apply, rowmax_read, broadcastInDim_scalar_apply]
  rfl

/-- The unnormalised weight of (i, j): the exponential of the masked score less its row's maximum. -/
theorem p_apply (i j : Fin 8192) :
    p H ADJ Wm A (ix2 i j) = Ideal.exp (logits H ADJ Wm A (ix2 i j) - rowmax H ADJ Wm A (ix1 i)) := by
  unfold p
  generalize logits H ADJ Wm A = L
  generalize rowmax H ADJ Wm A = M
  show Ideal.exp (L (ix2 i j) - broadcastInDim S8192x8192 ![0, 1] bcast_S8192x1_S8192x8192_0_1
        (broadcastInDim S8192x1 ![0] bcast_S8192_S8192x1_0 M) (ix2 i j)) = _
  rw [bcast_col, bcast_vec_col]

/-- The row sum of the unnormalised weights, from zero. -/
theorem z_apply (i : Fin 8192) :
    z H ADJ Wm A (ix1 i) = Cert.Spec.zeroW + ∑ j : Fin 8192, p H ADJ Wm A (ix2 i j) := by
  unfold z
  generalize p H ADJ Wm A = P
  rw [rowsum_read]
  rfl

/-- The attention weight of (i, j): the unnormalised weight over its row's sum. -/
theorem att_apply (i j : Fin 8192) :
    att H ADJ Wm A (ix2 i j) = Ideal.div (p H ADJ Wm A (ix2 i j)) (z H ADJ Wm A (ix1 i)) := by
  unfold att
  generalize p H ADJ Wm A = P
  generalize z H ADJ Wm A = Z
  rw [hostDivf_apply, bcast_col, bcast_vec_col]

/-- The weighted sum: row i of the attention weights against column c of the projected features. -/
theorem hp_apply (i : Fin 8192) (c : Fin 256) :
    hp H ADJ Wm A (ix2 i c) = ∑ j : Fin 8192, att H ADJ Wm A (ix2 i j) * wh H Wm (ix2 j c) :=
  dot_att (att H ADJ Wm A) (wh H Wm) i c

/-- The exponential linear unit at a coordinate is the scalar one of the element. -/
theorem elu_apply (X : FVec Ideal S8192x256 .f32) (i : Fin 8192) (c : Fin 256) :
    elu X (ix2 i c) = Cert.Spec.eluR (X (ix2 i c)) := by
  unfold elu Cert.Spec.eluR
  show Scalar.select (Ideal.cmp .ogt (X (ix2 i c))
        (broadcastInDim S8192x256 ![] bcast_S_S8192x256 (constant (F := Ideal) S_ .f32 0x00000000#32) (ix2 i c))) (X (ix2 i c))
      (broadcastInDim S8192x256 ![] bcast_S_S8192x256 (constant (F := Ideal) S_ .f32 0x3F800000#32) (ix2 i c)
        * (Ideal.exp (Scalar.select (Ideal.cmp .ogt (X (ix2 i c))
              (broadcastInDim S8192x256 ![] bcast_S_S8192x256 (constant (F := Ideal) S_ .f32 0x00000000#32) (ix2 i c)))
            (broadcastInDim S8192x256 ![] bcast_S_S8192x256 (id (constant (F := Ideal) S_ .f32 0x00000000#32)) (ix2 i c))
            (X (ix2 i c))) - 1)) = _
  rw [broadcastInDim_scalar_apply, broadcastInDim_scalar_apply, broadcastInDim_scalar_apply]
  rfl

end Stages

/-! ## The composed term is the specification -/

section Spec

variable (H : FVec Ideal S8192x256 .f32) (ADJ : IVec S8192x8192 32) (Wm : FVec Ideal S256x256 .f32) (A : FVec Ideal S512x1 .f32)

/-- The four argument arrays as coordinate functions. -/
abbrev hF : Fin 8192 → Fin 256 → EReal := fun i k => H (ix2 i k)
abbrev adjF : Fin 8192 → Fin 8192 → BitVec 32 := fun i j => ADJ (ix2 i j)
abbrev wF : Fin 256 → Fin 256 → EReal := fun k c => Wm (ix2 k c)
abbrev aF : Fin 512 → EReal := fun k => A (ix2 k 0)

theorem wh_spec (i : Fin 8192) (c : Fin 256) : wh H Wm (ix2 i c) = Cert.Spec.wh (hF H) (wF Wm) i c := by
  rw [wh_apply]; rfl

theorem s1_spec (i : Fin 8192) : wh1 H Wm A (ix2 i 0) = Cert.Spec.s1 (hF H) (wF Wm) (aF A) i := by
  rw [wh1_apply]
  unfold Cert.Spec.s1
  exact Finset.sum_congr rfl fun c _ => by rw [wh_spec]; rfl

theorem s2_spec (j : Fin 8192) : wh2 H Wm A (ix2 j 0) = Cert.Spec.s2 (hF H) (wF Wm) (aF A) j := by
  rw [wh2_apply]
  unfold Cert.Spec.s2
  exact Finset.sum_congr rfl fun c _ => by rw [wh_spec]; rfl

theorem logit_spec (i j : Fin 8192) : logits H ADJ Wm A (ix2 i j) = Cert.Spec.logit (hF H) (adjF ADJ) (wF Wm) (aF A) i j := by
  rw [logits_apply, lrelu_apply, e_apply, s1_spec, s2_spec]; rfl

theorem rmax_spec (i : Fin 8192) : rowmax H ADJ Wm A (ix1 i) = Cert.Spec.rmax (hF H) (adjF ADJ) (wF Wm) (aF A) i := by
  rw [rowmax_apply]
  unfold Cert.Spec.rmax
  have hfun : (fun j => logits H ADJ Wm A (ix2 i j)) = fun j => Cert.Spec.logit (hF H) (adjF ADJ) (wF Wm) (aF A) i j :=
    funext fun j => logit_spec H ADJ Wm A i j
  rw [hfun]

theorem pr_spec (i j : Fin 8192) : p H ADJ Wm A (ix2 i j) = Cert.Spec.pr (hF H) (adjF ADJ) (wF Wm) (aF A) i j := by
  rw [p_apply, logit_spec, rmax_spec]; rfl

theorem zr_spec (i : Fin 8192) : z H ADJ Wm A (ix1 i) = Cert.Spec.zr (hF H) (adjF ADJ) (wF Wm) (aF A) i := by
  rw [z_apply]
  unfold Cert.Spec.zr
  exact congrArg (_ + ·) (Finset.sum_congr rfl fun j _ => pr_spec H ADJ Wm A i j)

theorem hpr_spec (i : Fin 8192) (c : Fin 256) : hp H ADJ Wm A (ix2 i c) = Cert.Spec.hpr (hF H) (adjF ADJ) (wF Wm) (aF A) i c := by
  rw [hp_apply]
  unfold Cert.Spec.hpr
  exact Finset.sum_congr rfl fun j _ => by rw [att_apply, pr_spec, zr_spec, wh_spec]

/-- The reference's result at (i, c) is the specification's, of the arguments' coordinate functions. -/
theorem result_apply (H : FVec Ideal S8192x256 .f32) (ADJ : IVec S8192x8192 32) (Wm : FVec Ideal S256x256 .f32) (A : FVec Ideal S512x1 .f32)
    (i : Fin 8192) (c : Fin 256) :
    result (F := Ideal) H ADJ Wm A (ValueIdx.ix2 i c)
      = Cert.Spec.refOut (fun i k => H (ValueIdx.ix2 i k)) (fun i j => ADJ (ValueIdx.ix2 i j)) (fun k c => Wm (ValueIdx.ix2 k c))
          (fun k => A (ValueIdx.ix2 k 0)) i c := by
  unfold result
  rw [elu_apply, hpr_spec]
  rfl

end Spec

end Cert.ReferenceIdeal.Hand

end
-- ==== Proof.LibOnline.lean ====
/-
  General lemmas on the extended reals for a softmax computed chunk by chunk.

  A row of finite scores `s : ι → ℝ` is split into chunks. The ONLINE computation keeps a running maximum `M` and a
  running sum `L` of `exp (s - M)`; a chunk with maximum `m'` and scores `s'` updates them to
  `M' = max M m'` and `L' = L * exp (M - M') + ∑ exp (s' - M')`. Because `exp (x - M) * exp (M - M') = exp (x - M')`
  on the reals, `L'` is again the sum of `exp (· - M')` over everything seen; started from `M = -∞`, `L = 0` (where
  `exp (-∞ - M') = 0` kills the empty prefix), the final pair is the maximum and the softmax denominator of the whole
  row. The same identity combines partial pairs `(M_c, L_c)` of disjoint parts: `∑_c L_c * exp (M_c - G)` with
  `G = max_c M_c` is the denominator at `G`.
-/
import Idealize.ShloMosaic.PureOps.Ideal.Laws

noncomputable section

namespace Cert.LibOnline

open Idealize.ShloMosaic

/-- A finite sum of reals, read in the extended reals, is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many reals read in the extended reals, folded from `-∞`, is a real when there is at least one. -/
theorem sup_coe_real {ι : Type*} (s : Finset ι) (hs : s.Nonempty) (f : ι → ℝ) :
    ∃ g : ℝ, s.sup (fun i => (f i : EReal)) = (g : EReal) ∧ (∀ i ∈ s, f i ≤ g) := by
  obtain ⟨i, hi, h⟩ := Finset.exists_mem_eq_sup s hs (fun i => (f i : EReal))
  refine ⟨f i, h, fun j hj => ?_⟩
  have : ((f j : ℝ) : EReal) ≤ s.sup (fun i => (f i : EReal)) := Finset.le_sup (f := fun i => (f i : EReal)) hj
  rw [h] at this
  exact EReal.coe_le_coe_iff.mp this

/-- `Finset.fold max ⊥` is the finite supremum. -/
theorem fold_max_eq_sup {ι : Type*} (s : Finset ι) (f : ι → EReal) : s.fold max ⊥ f = s.sup f := rfl

/-- The exponential of a difference of reals, in the extended reals. -/
theorem exp_coe_sub (x y : ℝ) : Ideal.exp ((x : EReal) - (y : EReal)) = ((Real.exp (x - y) : ℝ) : EReal) := by
  rw [← EReal.coe_sub, Ideal.exp_coe]

/-- The exponential of `-∞ - y` is zero. -/
theorem exp_bot_sub (y : ℝ) : Ideal.exp ((⊥ : EReal) - (y : EReal)) = 0 := by
  rw [EReal.bot_sub, Ideal.exp_bot]

/-- ONE ONLINE STEP, from a real running maximum: the rescaled old sum plus the new chunk's sum is the sum over both. -/
theorem online_step {ι κ : Type*} (A : Finset ι) (B : Finset κ) (s : ι → ℝ) (s' : κ → ℝ) (a b : ℝ) :
    (∑ i ∈ A, Ideal.exp ((s i : EReal) - (a : EReal))) * Ideal.exp ((a : EReal) - (b : EReal))
        + ∑ k ∈ B, Ideal.exp ((s' k : EReal) - (b : EReal))
      = ∑ i ∈ A, Ideal.exp ((s i : EReal) - (b : EReal)) + ∑ k ∈ B, Ideal.exp ((s' k : EReal) - (b : EReal)) := by
  congr 1
  simp only [exp_coe_sub]
  rw [← coe_sum, ← coe_sum, ← EReal.coe_mul, Finset.sum_mul]
  congr 1
  refine Finset.sum_congr rfl fun i _ => ?_
  rw [← Real.exp_add]
  congr 1; ring

/-- THE FIRST STEP, from `M = -∞`, `L = 0`: the empty prefix contributes nothing. -/
theorem online_first (b : ℝ) (T : EReal) : (0 : EReal) * Ideal.exp ((⊥ : EReal) - (b : EReal)) + T = T := by
  rw [zero_mul, zero_add]

/-! ## The whole recurrence -/

section Recurrence

variable {P : Type*} [Fintype P] [Nonempty P]

/-- The chunk maximum, folded from `-∞`. -/
def cmax (s : ℕ → P → ℝ) (i : ℕ) : EReal := Finset.univ.sup fun p => (s i p : EReal)

/-- The running maximum after chunk `i`, started from `-∞`. -/
def runM (s : ℕ → P → ℝ) : ℕ → EReal
  | 0 => max ⊥ (cmax s 0)
  | i + 1 => max (runM s i) (cmax s (i + 1))

/-- The running sum after chunk `i`, started from `0` beside the maximum `-∞`. -/
def runL (s : ℕ → P → ℝ) : ℕ → EReal
  | 0 => (0 : EReal) * Ideal.exp ((⊥ : EReal) - runM s 0) + ∑ p, Ideal.exp ((s 0 p : EReal) - runM s 0)
  | i + 1 => runL s i * Ideal.exp (runM s i - runM s (i + 1)) + ∑ p, Ideal.exp ((s (i + 1) p : EReal) - runM s (i + 1))

theorem cmax_real (s : ℕ → P → ℝ) (i : ℕ) : ∃ a : ℝ, cmax s i = (a : EReal) := by
  obtain ⟨g, hg, -⟩ := sup_coe_real (Finset.univ : Finset P) Finset.univ_nonempty (s i)
  exact ⟨g, hg⟩

theorem runM_real (s : ℕ → P → ℝ) : ∀ i, ∃ a : ℝ, runM s i = (a : EReal)
  | 0 => by
    obtain ⟨a, ha⟩ := cmax_real s 0
    exact ⟨a, by show max ⊥ (cmax s 0) = _; rw [ha, max_eq_right bot_le]⟩
  | i + 1 => by
    obtain ⟨a, ha⟩ := runM_real s i
    obtain ⟨b, hb⟩ := cmax_real s (i + 1)
    exact ⟨max a b, by show max (runM s i) (cmax s (i + 1)) = _; rw [ha, hb]; exact (EReal.coe_strictMono.monotone.map_max).symm⟩

/-- The running maximum is the maximum over every chunk seen. -/
theorem runM_eq_sup (s : ℕ → P → ℝ) : ∀ i, runM s i = (Finset.range (i + 1)).sup fun i' => cmax s i'
  | 0 => by
    show max ⊥ (cmax s 0) = _
    rw [max_eq_right bot_le, Finset.range_one, Finset.sup_singleton]
  | i + 1 => by
    show max (runM s i) (cmax s (i + 1)) = _
    rw [runM_eq_sup s i, Finset.range_add_one (n := i + 1), Finset.sup_insert, max_comm]

/-- THE INVARIANT: the running sum is the sum, over every chunk seen, of `exp (score - running maximum)`. -/
theorem runL_eq_sum (s : ℕ → P → ℝ) : ∀ i,
    runL s i = ∑ i' ∈ Finset.range (i + 1), ∑ p, Ideal.exp ((s i' p : EReal) - runM s i)
  | 0 => by
    show (0 : EReal) * Ideal.exp ((⊥ : EReal) - runM s 0) + _ = _
    rw [zero_mul, zero_add, Finset.range_one, Finset.sum_singleton]
  | i + 1 => by
    obtain ⟨a, ha⟩ := runM_real s i
    obtain ⟨b, hb⟩ := runM_real s (i + 1)
    show runL s i * Ideal.exp (runM s i - runM s (i + 1)) + _ = _
    rw [runL_eq_sum s i, Finset.sum_range_succ (n := i + 1), ha, hb]
    congr 1
    -- the seen chunks, rescaled from `a` to `b`
    have hcoe : ∀ (x y : ℝ), Ideal.exp ((x : EReal) - (y : EReal)) = ((Real.exp (x - y) : ℝ) : EReal) := exp_coe_sub
    simp only [hcoe]
    simp only [← coe_sum]
    rw [← EReal.coe_mul, Finset.sum_mul]
    congr 1
    refine Finset.sum_congr rfl fun i' _ => ?_
    rw [Finset.sum_mul]
    refine Finset.sum_congr rfl fun p _ => ?_
    rw [← Real.exp_add]
    congr 1; ring

end Recurrence

end Cert.LibOnline

end
-- ==== Proof.LibNorm.lean ====
/-
  Two general facts on the extended reals, and the regrouping of 65536 rows.

  A sum of terms each divided by the same positive `L` is the sum divided by `L`, also when multiplied termwise by
  other factors: division by a nonzero `L` is multiplication by `L⁻¹`, which is nonnegative and not `+∞`, and
  multiplication by such a factor distributes over the extended reals' addition. And a sum (or a maximum) over the
  65536 rows is the same sum over (core, chunk, row in chunk) with row `2048 (16 cc + i) + p`.
-/
import Idealize.ShloMosaic.PureOps.Ideal.Laws

noncomputable section

namespace Cert.LibNorm

open Idealize.ShloMosaic

theorem sum_mul_of_nonneg {ι : Type*} (s : Finset ι) (f : ι → EReal) {c : EReal} (hc : 0 ≤ c) (hc' : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top hc hc', ih]

/-- THE NORMALISER PULLED OUT: `∑ (a n / L) * q n = (∑ a n * q n) / L` for `0 < L`. -/
theorem sum_div_pull {ι : Type*} [Fintype ι] (a q : ι → EReal) (L : EReal) (hL : 0 < L) :
    ∑ n, Ideal.div (a n) L * q n = Ideal.div (∑ n, a n * q n) L := by
  have hne : L ≠ 0 := hL.ne'
  unfold Ideal.div
  simp only [if_neg hne]
  rw [sum_mul_of_nonneg _ _ (EReal.inv_nonneg_of_nonneg hL.le) (EReal.inv_lt_top L).ne]
  exact Finset.sum_congr rfl fun n _ => mul_right_comm _ _ _

/-- Row `2048 (16 cc + i) + p`. -/
def row (cc : Fin 2) (i : Fin 16) (p : Fin 2048) : Fin 65536 :=
  ⟨2048 * (16 * cc.val + i.val) + p.val, by have := cc.isLt; have := i.isLt; have := p.isLt; omega⟩

/-- The rows, regrouped. -/
def rowEquiv : (Fin 2 × Fin 16) × Fin 2048 ≃ Fin 65536 where
  toFun x := row x.1.1 x.1.2 x.2
  invFun n := ((⟨n.val / 32768, by have := n.isLt; omega⟩, ⟨n.val / 2048 % 16, Nat.mod_lt _ (by norm_num)⟩), ⟨n.val % 2048, Nat.mod_lt _ (by norm_num)⟩)
  left_inv x := by
    obtain ⟨⟨cc, i⟩, p⟩ := x
    have := cc.isLt; have := i.isLt; have := p.isLt
    refine Prod.ext (Prod.ext (Fin.ext ?_) (Fin.ext ?_)) (Fin.ext ?_) <;> simp only [row] <;> omega
  right_inv n := by
    have := n.isLt
    refine Fin.ext ?_
    simp only [row]
    omega

/-- A SUM OVER THE ROWS, REGROUPED. -/
theorem sum_rows {M : Type*} [AddCommMonoid M] (f : Fin 65536 → M) :
    ∑ n, f n = ∑ cc : Fin 2, ∑ i : Fin 16, ∑ p : Fin 2048, f (row cc i p) := by
  rw [← Equiv.sum_comp rowEquiv f, Fintype.sum_prod_type, Fintype.sum_prod_type]
  rfl

/-- A MAXIMUM OVER THE ROWS, REGROUPED. -/
theorem sup_rows (f : Fin 65536 → EReal) :
    Finset.univ.sup f = Finset.univ.sup fun cc : Fin 2 => Finset.univ.sup fun i : Fin 16 => Finset.univ.sup fun p : Fin 2048 => f (row cc i p) := by
  apply le_antisymm
  · refine Finset.sup_le fun n _ => ?_
    have h : f n = f (row (rowEquiv.symm n).1.1 (rowEquiv.symm n).1.2 (rowEquiv.symm n).2) := congrArg f (rowEquiv.apply_symm_apply n).symm
    rw [h]
    exact le_trans (le_trans (Finset.le_sup (f := fun p => f (row _ _ p)) (Finset.mem_univ _))
      (Finset.le_sup (f := fun i => Finset.univ.sup fun p => f (row _ i p)) (Finset.mem_univ _)))
      (Finset.le_sup (f := fun cc => Finset.univ.sup fun i => Finset.univ.sup fun p => f (row cc i p)) (Finset.mem_univ _))
  · refine Finset.sup_le fun cc _ => Finset.sup_le fun i _ => Finset.sup_le fun p _ => Finset.le_sup (Finset.mem_univ _)

end Cert.LibNorm

end
-- ==== Proof.Law.lean ====
/-
  The kernel's entry equals the reference's entry, for real inputs.

  Fix a row `i`. With every input entry a real number, every score `logit i j` is a real number `L j`. Write the columns
  as four chunks of 2048. The kernel's running maximum after the last chunk is the maximum `M` of the whole row, its
  running sum is `∑ⱼ exp (L j - M)` and its running weighted sum is `∑ⱼ exp (L j - M) · Wh j c`: each rescaling by
  `exp (M_old - M_new)` turns `exp (x - M_old)` into `exp (x - M_new)`, and the start from `-∞` and `0` contributes nothing.
  The reference's row maximum is the same `M`, its weights are `exp (L j - M)` divided by their sum `Z > 0`, and a sum of
  terms each divided by `Z` is the sum divided by `Z`. The two ELU spellings agree on every extended real.
-/
import proofs.«149947_j1211180778248_2_alg».proof.Proof.Spec
import proofs.«149947_j1211180778248_2_alg».proof.Proof.LibOnline
import proofs.«149947_j1211180778248_2_alg».proof.Proof.LibNorm

noncomputable section

namespace Cert.Law

open Idealize.ShloMosaic Cert.Spec Cert.LibOnline

/-! ## The words -/

theorem zeroW_eq : zeroW = 0 := Ideal.ofBits_zero_f32
theorem ninfW_eq : ninfW = ⊥ := by simp [Ideal.ofBits, Ideal.ieee]
theorem oneW_eq : oneW = 1 := by simp [Ideal.ofBits, Ideal.ieee, -EReal.coe_mul]; norm_num
theorem slopeW_real : ∃ r : ℝ, slopeW = (r : EReal) := by
  show ∃ r : ℝ, Ideal.ofBits .f32 0x3E4CCCCD#32 = (r : EReal)
  simp only [Ideal.ofBits, Ideal.ieee]
  norm_num
  exact ⟨_, rfl⟩
theorem fillW_real : ∃ r : ℝ, fillW = (r : EReal) := by
  show ∃ r : ℝ, Ideal.ofBits .f32 0xD9FFCB9E#32 = (r : EReal)
  simp only [Ideal.ofBits, Ideal.ieee]
  norm_num
  exact ⟨_, rfl⟩

/-- A select returns one of its two branches. -/
theorem select_cases {α : Type} (b : BitVec 1) (x y : α) : Scalar.select b x y = x ∨ Scalar.select b x y = y := by
  unfold Scalar.select; split <;> simp

/-! ## Real inputs give real scores -/

section Reals

variable (hR : Fin 8192 → Fin 256 → ℝ) (adj : Fin 8192 → Fin 8192 → BitVec 32)
  (WR : Fin 256 → Fin 256 → ℝ) (aR : Fin 512 → ℝ)

/-- The inputs read in the extended reals. -/
abbrev hE : Fin 8192 → Fin 256 → EReal := fun i k => (hR i k : EReal)
abbrev WE : Fin 256 → Fin 256 → EReal := fun k c => (WR k c : EReal)
abbrev aE : Fin 512 → EReal := fun k => (aR k : EReal)

/-- The projected features over the reals. -/
def whR (i : Fin 8192) (c : Fin 256) : ℝ := ∑ k : Fin 256, hR i k * WR k c

theorem wh_coe (i : Fin 8192) (c : Fin 256) : wh (hE hR) (WE WR) i c = (whR hR WR i c : EReal) := by
  unfold wh whR
  rw [coe_sum]
  exact Finset.sum_congr rfl fun k _ => (EReal.coe_mul _ _).symm

theorem s1_real (i : Fin 8192) : ∃ r : ℝ, s1 (hE hR) (WE WR) (aE aR) i = (r : EReal) := by
  refine ⟨∑ c : Fin 256, whR hR WR i c * aR ⟨c.val, by have := c.isLt; omega⟩, ?_⟩
  unfold s1 a1
  rw [coe_sum]
  exact Finset.sum_congr rfl fun c _ => by rw [wh_coe, ← EReal.coe_mul]

theorem s2_real (j : Fin 8192) : ∃ r : ℝ, s2 (hE hR) (WE WR) (aE aR) j = (r : EReal) := by
  refine ⟨∑ c : Fin 256, whR hR WR j c * aR ⟨256 + c.val, by have := c.isLt; omega⟩, ?_⟩
  unfold s2 a2
  rw [coe_sum]
  exact Finset.sum_congr rfl fun c _ => by rw [wh_coe, ← EReal.coe_mul]

theorem leaky_real (e : ℝ) : ∃ r : ℝ, leaky (e : EReal) = (r : EReal) := by
  obtain ⟨sl, hsl⟩ := slopeW_real
  unfold leaky
  rcases select_cases (Ideal.cmp .ogt (e : EReal) zeroW) (e : EReal) (slopeW * (e : EReal)) with h | h
  · exact ⟨e, h⟩
  · exact ⟨sl * e, by rw [h, hsl, ← EReal.coe_mul]⟩

theorem logit_real (i j : Fin 8192) : ∃ r : ℝ, logit (hE hR) adj (WE WR) (aE aR) i j = (r : EReal) := by
  obtain ⟨x, hx⟩ := s1_real hR WR aR i
  obtain ⟨y, hy⟩ := s2_real hR WR aR j
  obtain ⟨fl, hfl⟩ := fillW_real
  obtain ⟨l, hl⟩ := leaky_real (x + y)
  unfold logit
  rw [hx, hy, ← EReal.coe_add, hl]
  rcases select_cases (IntOp.cmpi .sgt (adj i j) 0#32) ((l : ℝ) : EReal) fillW with h | h
  · exact ⟨l, h⟩
  · exact ⟨fl, by rw [h, hfl]⟩

end Reals

/-! ## The weighted running sum -/

section Weighted

variable {P : Type*} [Fintype P] [Nonempty P]

/-- The running weighted sum after chunk `i`, started from `0` beside the maximum `-∞`. -/
def runA (s v : ℕ → P → ℝ) : ℕ → EReal
  | 0 => (0 : EReal) * Ideal.exp ((⊥ : EReal) - runM s 0) + ∑ p, Ideal.exp ((s 0 p : EReal) - runM s 0) * (v 0 p : EReal)
  | i + 1 => runA s v i * Ideal.exp (runM s i - runM s (i + 1))
      + ∑ p, Ideal.exp ((s (i + 1) p : EReal) - runM s (i + 1)) * (v (i + 1) p : EReal)

/-- The running weighted sum is the weighted sum, over every chunk seen, of `exp (score - running maximum)`. -/
theorem runA_eq_sum (s v : ℕ → P → ℝ) : ∀ i,
    runA s v i = ∑ i' ∈ Finset.range (i + 1), ∑ p, Ideal.exp ((s i' p : EReal) - runM s i) * (v i' p : EReal)
  | 0 => by
    show (0 : EReal) * Ideal.exp ((⊥ : EReal) - runM s 0) + _ = _
    rw [zero_mul, zero_add, Finset.range_one, Finset.sum_singleton]
  | i + 1 => by
    obtain ⟨a, ha⟩ := runM_real s i
    obtain ⟨b, hb⟩ := runM_real s (i + 1)
    show runA s v i * Ideal.exp (runM s i - runM s (i + 1)) + _ = _
    rw [runA_eq_sum s v i, Finset.sum_range_succ (n := i + 1), ha, hb]
    congr 1
    simp only [exp_coe_sub, ← EReal.coe_mul, ← coe_sum]
    rw [Finset.sum_mul]
    congr 1
    refine Finset.sum_congr rfl fun i' _ => ?_
    rw [Finset.sum_mul]
    refine Finset.sum_congr rfl fun p _ => ?_
    rw [mul_right_comm, ← Real.exp_add]
    congr 2; ring

end Weighted

/-! ## The columns as four chunks -/

/-- The columns of the four chunks are all the columns. -/
def colEquiv : Fin 4 × Fin 2048 ≃ Fin 8192 where
  toFun x := ⟨2048 * x.1.val + x.2.val, by have := x.1.isLt; have := x.2.isLt; omega⟩
  invFun j := (⟨j.val / 2048, by have := j.isLt; omega⟩, ⟨j.val % 2048, Nat.mod_lt _ (by norm_num)⟩)
  left_inv x := by
    obtain ⟨n, p⟩ := x
    have := n.isLt; have := p.isLt
    refine Prod.ext (Fin.ext ?_) (Fin.ext ?_) <;> simp only <;> omega
  right_inv j := by
    have := j.isLt
    refine Fin.ext ?_
    simp only
    omega

theorem col_eq (n : Fin 4) (p : Fin 2048) : col n.val p = colEquiv (n, p) := by
  have := n.isLt; have := p.isLt
  refine Fin.ext ?_
  simp only [col, colEquiv, Equiv.coe_fn_mk]
  omega

/-- A sum over the columns, chunk by chunk. -/
theorem sum_cols {M : Type*} [AddCommMonoid M] (f : Fin 8192 → M) :
    ∑ j, f j = ∑ n ∈ Finset.range 4, ∑ p : Fin 2048, f (col n p) := by
  rw [← Equiv.sum_comp colEquiv f, Fintype.sum_prod_type, Finset.sum_range]
  exact Finset.sum_congr rfl fun n _ => Finset.sum_congr rfl fun p _ => by rw [col_eq]

/-- A maximum over the columns, chunk by chunk. -/
theorem sup_cols (f : Fin 8192 → EReal) :
    Finset.univ.sup f = (Finset.range 4).sup fun n => Finset.univ.sup fun p : Fin 2048 => f (col n p) := by
  apply le_antisymm
  · refine Finset.sup_le fun j _ => ?_
    have hj : f j = f (col (colEquiv.symm j).1.val (colEquiv.symm j).2) := by
      rw [col_eq]; exact congrArg f (colEquiv.apply_symm_apply j).symm
    rw [hj]
    exact le_trans (Finset.le_sup (f := fun p : Fin 2048 => f (col (colEquiv.symm j).1.val p)) (Finset.mem_univ _))
      (Finset.le_sup (f := fun n => Finset.univ.sup fun p : Fin 2048 => f (col n p)) (Finset.mem_range.mpr (colEquiv.symm j).1.isLt))
  · exact Finset.sup_le fun n _ => Finset.sup_le fun p _ => Finset.le_sup (Finset.mem_univ _)

/-! ## The two ELU spellings -/

theorem eluR_eq_eluK (x : EReal) : eluR x = eluK x := by
  unfold eluR eluK Scalar.select
  by_cases hx : Ideal.cmp .ogt x zeroW = 1
  · simp only [if_pos hx]
  · simp only [if_neg hx, oneW_eq, one_mul]

/-! ## One row -/

section Row

variable (hR : Fin 8192 → Fin 256 → ℝ) (adj : Fin 8192 → Fin 8192 → BitVec 32)
  (WR : Fin 256 → Fin 256 → ℝ) (aR : Fin 512 → ℝ)

/-- The scores as real numbers. -/
def Lr (i j : Fin 8192) : ℝ := Classical.choose (logit_real hR adj WR aR i j)

theorem logit_coe (i j : Fin 8192) : logit (hE hR) adj (WE WR) (aE aR) i j = (Lr hR adj WR aR i j : EReal) :=
  Classical.choose_spec (logit_real hR adj WR aR i j)

/-- Row `i`'s scores and column `c` of `Wh`, chunk by chunk. -/
def sc (i : Fin 8192) : ℕ → Fin 2048 → ℝ := fun n p => Lr hR adj WR aR i (col n p)
def vc (c : Fin 256) : ℕ → Fin 2048 → ℝ := fun n p => whR hR WR (col n p) c

variable (i : Fin 8192) (c : Fin 256)

theorem cmaxK_eq (n : ℕ) : cmaxK (hE hR) adj (WE WR) (aE aR) i n = cmax (sc hR adj WR aR i) n := by
  unfold cmaxK cmax sc
  simp only [ninfW_eq, logit_coe]
  rfl

theorem kM_eq : ∀ n, kM (hE hR) adj (WE WR) (aE aR) i n = runM (sc hR adj WR aR i) n
  | 0 => by
    show max ninfW (cmaxK (hE hR) adj (WE WR) (aE aR) i 0) = max ⊥ (cmax (sc hR adj WR aR i) 0)
    rw [ninfW_eq, cmaxK_eq]
  | n + 1 => by
    show max (kM (hE hR) adj (WE WR) (aE aR) i n) (cmaxK (hE hR) adj (WE WR) (aE aR) i (n + 1))
      = max (runM (sc hR adj WR aR i) n) (cmax (sc hR adj WR aR i) (n + 1))
    rw [kM_eq n, cmaxK_eq]

theorem kL_eq : ∀ n, kL (hE hR) adj (WE WR) (aE aR) i n = runL (sc hR adj WR aR i) n
  | 0 => by
    show Ideal.exp (ninfW - kM (hE hR) adj (WE WR) (aE aR) i 0) * zeroW
        + ∑ p : Fin 2048, Ideal.exp (logit (hE hR) adj (WE WR) (aE aR) i (col 0 p) - kM (hE hR) adj (WE WR) (aE aR) i 0)
      = (0 : EReal) * Ideal.exp ((⊥ : EReal) - runM (sc hR adj WR aR i) 0)
        + ∑ p : Fin 2048, Ideal.exp ((sc hR adj WR aR i 0 p : EReal) - runM (sc hR adj WR aR i) 0)
    simp only [ninfW_eq, zeroW_eq, kM_eq, logit_coe, mul_comm, sc]
  | n + 1 => by
    show Ideal.exp (kM (hE hR) adj (WE WR) (aE aR) i n - kM (hE hR) adj (WE WR) (aE aR) i (n + 1)) * kL (hE hR) adj (WE WR) (aE aR) i n
        + ∑ p : Fin 2048, Ideal.exp (logit (hE hR) adj (WE WR) (aE aR) i (col (n + 1) p) - kM (hE hR) adj (WE WR) (aE aR) i (n + 1))
      = runL (sc hR adj WR aR i) n * Ideal.exp (runM (sc hR adj WR aR i) n - runM (sc hR adj WR aR i) (n + 1))
        + ∑ p : Fin 2048, Ideal.exp ((sc hR adj WR aR i (n + 1) p : EReal) - runM (sc hR adj WR aR i) (n + 1))
    rw [kL_eq n]
    simp only [kM_eq, logit_coe, mul_comm, sc]

theorem kA_eq : ∀ n, kA (hE hR) adj (WE WR) (aE aR) i c n = runA (sc hR adj WR aR i) (vc hR WR c) n
  | 0 => by
    show Ideal.exp (ninfW - kM (hE hR) adj (WE WR) (aE aR) i 0) * zeroW
        + ∑ p : Fin 2048, Ideal.exp (logit (hE hR) adj (WE WR) (aE aR) i (col 0 p) - kM (hE hR) adj (WE WR) (aE aR) i 0) * wh (hE hR) (WE WR) (col 0 p) c
      = (0 : EReal) * Ideal.exp ((⊥ : EReal) - runM (sc hR adj WR aR i) 0)
        + ∑ p : Fin 2048, Ideal.exp ((sc hR adj WR aR i 0 p : EReal) - runM (sc hR adj WR aR i) 0) * (vc hR WR c 0 p : EReal)
    simp only [ninfW_eq, zeroW_eq, kM_eq, logit_coe, wh_coe, zero_mul, mul_zero, sc, vc]
  | n + 1 => by
    show Ideal.exp (kM (hE hR) adj (WE WR) (aE aR) i n - kM (hE hR) adj (WE WR) (aE aR) i (n + 1)) * kA (hE hR) adj (WE WR) (aE aR) i c n
        + ∑ p : Fin 2048, Ideal.exp (logit (hE hR) adj (WE WR) (aE aR) i (col (n + 1) p) - kM (hE hR) adj (WE WR) (aE aR) i (n + 1)) * wh (hE hR) (WE WR) (col (n + 1) p) c
      = runA (sc hR adj WR aR i) (vc hR WR c) n * Ideal.exp (runM (sc hR adj WR aR i) n - runM (sc hR adj WR aR i) (n + 1))
        + ∑ p : Fin 2048, Ideal.exp ((sc hR adj WR aR i (n + 1) p : EReal) - runM (sc hR adj WR aR i) (n + 1)) * (vc hR WR c (n + 1) p : EReal)
    rw [kA_eq n, mul_comm]
    simp only [kM_eq, logit_coe, wh_coe, sc, vc]

/-- The reference's row maximum is the kernel's last running maximum. -/
theorem rmax_eq : rmax (hE hR) adj (WE WR) (aE aR) i = runM (sc hR adj WR aR i) 3 := by
  unfold rmax
  simp only [ninfW_eq, logit_coe]
  rw [max_eq_right bot_le, fold_max_eq_sup, sup_cols, runM_eq_sup]
  rfl

/-- The reference's normaliser is the kernel's last running sum. -/
theorem zr_eq : zr (hE hR) adj (WE WR) (aE aR) i = runL (sc hR adj WR aR i) 3 := by
  unfold zr pr
  rw [zeroW_eq, zero_add, rmax_eq, runL_eq_sum, sum_cols]
  simp only [logit_coe, sc]

/-- The normaliser is positive. -/
theorem runL_pos : 0 < runL (sc hR adj WR aR i) 3 := by
  obtain ⟨a, ha⟩ := runM_real (sc hR adj WR aR i) 3
  rw [runL_eq_sum, ha]
  simp only [exp_coe_sub, ← coe_sum]
  rw [EReal.coe_pos]
  exact Finset.sum_pos (fun n _ => Finset.sum_pos (fun p _ => Real.exp_pos _) Finset.univ_nonempty) (by simp)

/-- The reference's weighted row: the normaliser pulled out of the sum. -/
theorem hpr_eq : hpr (hE hR) adj (WE WR) (aE aR) i c
    = Ideal.div (runA (sc hR adj WR aR i) (vc hR WR c) 3) (runL (sc hR adj WR aR i) 3) := by
  unfold hpr
  rw [Cert.LibNorm.sum_div_pull (fun j => pr (hE hR) adj (WE WR) (aE aR) i j) (fun j => wh (hE hR) (WE WR) j c)
    (zr (hE hR) adj (WE WR) (aE aR) i) (by rw [zr_eq]; exact runL_pos hR adj WR aR i), zr_eq]
  refine congrArg (fun x => Ideal.div x (runL (sc hR adj WR aR i) 3)) ?_
  unfold pr
  rw [rmax_eq, runA_eq_sum, sum_cols]
  simp only [logit_coe, wh_coe, sc, vc]

/-- THE JOIN, for real inputs. -/
theorem kerOut_eq_refOut_real : kerOut (hE hR) adj (WE WR) (aE aR) i c = refOut (hE hR) adj (WE WR) (aE aR) i c := by
  unfold kerOut refOut
  rw [eluR_eq_eluK, hpr_eq, kA_eq, kL_eq]

end Row

/-- THE JOIN: for inputs whose every entry is a real number the kernel's entry is the reference's. -/
theorem kerOut_eq_refOut (h : Fin 8192 → Fin 256 → EReal) (adj : Fin 8192 → Fin 8192 → BitVec 32)
    (W : Fin 256 → Fin 256 → EReal) (a : Fin 512 → EReal)
    (hh : ∀ i k, ∃ r : ℝ, h i k = (r : EReal)) (hW : ∀ k c, ∃ r : ℝ, W k c = (r : EReal)) (ha : ∀ k, ∃ r : ℝ, a k = (r : EReal))
    (i : Fin 8192) (c : Fin 256) : kerOut h adj W a i c = refOut h adj W a i c := by
  choose hR hhR using hh
  choose WR hWR using hW
  choose aR haR using ha
  obtain rfl : h = hE hR := funext fun i => funext fun k => hhR i k
  obtain rfl : W = WE WR := funext fun k => funext fun c => hWR k c
  obtain rfl : a = aE aR := funext fun k => haR k
  exact kerOut_eq_refOut_real hR adj WR aR i c

end Cert.Law

end
-- ==== Proof.Finite.lean ====
/-
  The precondition read entry by entry: every entry of the three float inputs is a real number.

  The printed predicate is the conjunction of three tests, one per float input: "the absolute value of every entry is
  below +∞". A conjunction of one-bit words is one when each is; a reduction by `and` that ends at one had a one at
  every index; and an extended real whose absolute value `max x (-x)` is below `+∞` is neither infinity.
-/
import proofs.«149947_j1211180778248_2_alg».proof.Pre_finite_inputs
import Idealize.ShloMosaic.Lib.ReduceAll
import Idealize.ShloMosaic.Lib.Affine
import Idealize.ShloMosaic.PureOps.Ideal.Laws

noncomputable section

namespace Cert.Finite

open Idealize.ShloMosaic Cert.Pre_finite_inputs

instance : Subsingleton S_.Idx := ⟨fun a b => funext fun d => d.elim0⟩

/-- An extended real whose absolute value is below `+∞` is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

variable [Facts]

/-- The precondition gives a real number at every entry of `h`, of `W` and of `a`. -/
theorem real_of_pre (h : FVec Ideal S8192x256 .f32) (adj : IVec S8192x8192 32) (W : FVec Ideal S256x256 .f32)
    (a : FVec Ideal S512x1 .f32) (hp : fn (F := Ideal) h adj W a = fun _ => 1#1) :
    (∀ idx, ∃ r : ℝ, h idx = (r : EReal)) ∧ (∀ idx, ∃ r : ℝ, W idx = (r : EReal)) ∧ (∀ idx, ∃ r : ℝ, a idx = (r : EReal)) := by
  have e := congrFun hp (fun d => d.elim0)
  dsimp only [fn] at e
  obtain ⟨e12, e3⟩ := IntOp.andi_eq_one.mp e
  obtain ⟨e1, e2⟩ := IntOp.andi_eq_one.mp e12
  exact ⟨fun idx => real_of_abs_lt_top _ (Host.reduce_andi_all _ _ _ _ _ e1 idx),
    fun idx => real_of_abs_lt_top _ (Host.reduce_andi_all _ _ _ _ _ e2 idx),
    fun idx => real_of_abs_lt_top _ (Host.reduce_andi_all _ _ _ _ _ e3 idx)⟩

end Cert.Finite

end
-- ==== Proof.AlgRef.lean ====
/-
  The reference's half of the algebraic claim: from a memory agreeing with the kernel's on the four arguments, whose
  float entries the precondition makes real numbers, the reference ends with the kernel's specification in its result
  array — its own whole-row softmax, entry by entry, is the kernel's chunked one.
-/
import proofs.«149947_j1211180778248_2_alg».proof.Defs
import proofs.«149947_j1211180778248_2_alg».proof.Proof.Gen.KernelIdeal
import proofs.«149947_j1211180778248_2_alg».proof.Proof.Gen.ReferenceIdeal
import proofs.«149947_j1211180778248_2_alg».proof.Proof.Gen.Pre_finite_inputs
import proofs.«149947_j1211180778248_2_alg».proof.Proof.RefFrame
import proofs.«149947_j1211180778248_2_alg».proof.Proof.RefRead
import proofs.«149947_j1211180778248_2_alg».proof.Proof.Law
import proofs.«149947_j1211180778248_2_alg».proof.Proof.Finite

noncomputable section

namespace Cert.Proof

open Idealize.ShloMosaic Idealize.ShloMosaic.TcCoe Idealize.SL.Sem

/-- The kernel's specification over a launch memory of the kernel's program: the four arguments by coordinates. -/
def outSpec (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v2) :=
  fun idx => Cert.Spec.kerOut
    (fun i k => (m ((c.tc : Thread Cert.KernelIdeal.nD Cert.KernelIdeal.τ).loc Cert.KernelIdeal.main_arg0) : Cert.KernelIdeal.S8192x256.Idx → EReal) (ValueIdx.ix2 i k))
    (fun i j => (m ((c.tc : Thread Cert.KernelIdeal.nD Cert.KernelIdeal.τ).loc Cert.KernelIdeal.main_arg1) : Cert.KernelIdeal.S8192x8192.Idx → BitVec 32) (ValueIdx.ix2 i j))
    (fun k q => (m ((c.tc : Thread Cert.KernelIdeal.nD Cert.KernelIdeal.τ).loc Cert.KernelIdeal.main_arg2) : Cert.KernelIdeal.S256x256.Idx → EReal) (ValueIdx.ix2 k q))
    (fun k => (m ((c.tc : Thread Cert.KernelIdeal.nD Cert.KernelIdeal.τ).loc Cert.KernelIdeal.main_arg3) : Cert.KernelIdeal.S512x1.Idx → EReal) (ValueIdx.ix2 k (0 : Fin 1)))
    (idx 0) (idx 1)

theorem ref_half
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = outSpec m c
          ∧ r.2.mem ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) := by
  refine (θ_run Cert.ReferenceIdeal.defs _ _).mono (fun r h c => ?_) (Cert.ReferenceIdeal.Hand.run (F := Ideal) m' g')
  obtain ⟨h0, h1, h2, h3⟩ := hagree c
  obtain ⟨fh, fW, fa⟩ := Cert.Finite.real_of_pre _ _ _ _ (hpre c)
  refine ⟨(h c).1.trans ?_, (h c).2.2.1.trans h1, (h c).2⟩
  rw [h0, h1, h2, h3]
  funext idx
  obtain ⟨i, q, rfl⟩ : ∃ (i : Fin 8192) (q : Fin 256), idx = ValueIdx.ix2 i q := ⟨idx 0, idx 1, ValueIdx.eq_ix2 idx⟩
  rw [Cert.ReferenceIdeal.Hand.result_apply]
  exact (Cert.Law.kerOut_eq_refOut _ _ _ _ (fun i k => fh _) (fun k q => fW _) (fun k => fa _) i q).symm

end Cert.Proof

end
-- ==== Proof.lean ====
/-
  A graph-attention layer over 8192 nodes: the kernel against its reference, on the extended reals.

  The kernel is two launches. The first projects the features, `Wh = h W`, and takes the two score vectors `Wh a₁`
  and `Wh a₂`, one block of 1024 rows per grid point. The second walks, for each block of 1024 rows, the 8192
  columns in four chunks of 2048: it forms the masked leaky scores of the chunk, keeps a running row maximum, a running
  sum of exponentials and a running weighted sum of the rows of `Wh`, rescales the last two whenever the maximum
  grows, and after the fourth chunk divides and applies the ELU. The reference forms all the scores at once, takes
  one softmax per row, multiplies by `Wh` and applies the ELU.

  Each program runs to the end, faults nowhere and leaves its four arguments as it found them: for the kernel, point
  by point through the two launches with the second launch's three carried buffers described after every point; for
  the reference, operation by operation. Nothing was rewritten between the kernel and its idealization. On the
  extended reals, for inputs whose float entries are real numbers (the precondition), every score is a real number,
  the running quantities after the last chunk are the row's maximum, the sum of `exp (score - maximum)` and the same
  sum weighted by `Wh`, the reference's normaliser is that sum and is positive, and a sum of terms each divided by it
  is the sum divided by it; the two ELU spellings agree on every extended real. So the two result arrays are equal
  entry by entry, and the adjacency argument is returned unchanged by both.
-/
import proofs.«149947_j1211180778248_2_alg».proof.Defs
import proofs.«149947_j1211180778248_2_alg».proof.Proof.Gen.Kernel
import proofs.«149947_j1211180778248_2_alg».proof.Proof.Gen.KernelIdeal
import proofs.«149947_j1211180778248_2_alg».proof.Proof.Gen.ReferenceIdeal
import proofs.«149947_j1211180778248_2_alg».proof.Proof.Gen.Pre_finite_inputs
import proofs.«149947_j1211180778248_2_alg».proof.Proof.KRun
import proofs.«149947_j1211180778248_2_alg».proof.Proof.KIOut
import proofs.«149947_j1211180778248_2_alg».proof.Proof.AlgRef

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- So does the reference. -/
theorem frame_ri : Cert.frame_ReferenceIdeal := Cert.ReferenceIdeal.Hand.frame

/-- The idealization is the kernel's own text read on the extended reals: no rewrite to account for. -/
theorem preserves : Cert.preserves_Kernel_KernelIdeal := trivial

/-- Both programs end with the kernel's specification in the result array and the adjacency argument as launched. -/
theorem algebraic : Cert.algebraic_KernelIdeal_ReferenceIdeal := fun m ρ m' ρ' hpre hagree =>
  ⟨fun c => outSpec m c,
    fun c => m ((c.tc : Thread Cert.KernelIdeal.nD Cert.KernelIdeal.τ).loc Cert.KernelIdeal.main_arg1),
    Cert.KernelIdeal.Val.run_value m ρ, ref_half m m' ρ' hpre hagree⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
